-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S256x32 : Shape := ⟨2, ![256, 32]⟩
abbrev S8192 : Shape := ⟨1, ![8192]⟩
abbrev S8192x768 : Shape := ⟨2, ![8192, 768]⟩
abbrev S1 : Shape := ⟨1, ![1]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S8192x768 : S_.BroadcastsInDim S8192x768 (![] : Fin 0 → Fin S8192x768.rank)
  reducesTo_S8192x768_S_d0_1 : S8192x768.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S8192x1 .f32) (main_arg1 : IVec S256x32 32) (main_arg2 : IVec S8192 32) (main_arg3 : IVec S8192 32) (main_arg4 : FVec F S8192x768 .f32) (main_arg5 : FVec F S1 .f32) (main_arg6 : FVec F S1 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x768 .f32 := Host.absf main_arg4
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S1 .f32 := Host.absf main_arg5
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg6
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S8192x1 : Shape := ⟨2, ![8192, 1]⟩
abbrev S256x32 : Shape := ⟨2, ![256, 32]⟩
abbrev S8192 : Shape := ⟨1, ![8192]⟩
abbrev S8192x768 : Shape := ⟨2, ![8192, 768]⟩
abbrev S1 : Shape := ⟨1, ![1]⟩
abbrev S_ : Shape := ⟨0, ![]⟩
abbrev S8192x2 : Shape := ⟨2, ![8192, 2]⟩
abbrev S256 : Shape := ⟨1, ![256]⟩
abbrev S256x1 : Shape := ⟨2, ![256, 1]⟩
abbrev S1x8192 : Shape := ⟨2, ![1, 8192]⟩
abbrev S8x8x128 : Shape := ⟨3, ![8, 8, 128]⟩
abbrev S1024x768 : Shape := ⟨2, ![1024, 768]⟩
abbrev S1024x1 : Shape := ⟨2, ![1024, 1]⟩
abbrev S1x1024 : Shape := ⟨2, ![1, 1024]⟩
abbrev S1x8x128 : Shape := ⟨3, ![1, 8, 128]⟩
abbrev S8x128 : Shape := ⟨2, ![8, 128]⟩
abbrev S1024x1024 : Shape := ⟨2, ![1024, 1024]⟩
abbrev S1024 : Shape := ⟨1, ![1024]⟩
abbrev S1x1 : Shape := ⟨2, ![1, 1]⟩
abbrev S8x1x1 : Shape := ⟨3, ![8, 1, 1]⟩
abbrev S8 : Shape := ⟨1, ![8]⟩

abbrev nBuf : Space → Nat
  | .hbm => 170
  | .vmem => 18
  | .smem => 0
  | _ => 0

abbrev hbmTy0_0 (i : Nat) : BufTy := match i % 128 with
  | 0 => ⟨S8192x1, .f32⟩
  | 1 => ⟨S256x32, .i32⟩
  | 2 => ⟨S8192, .i32⟩
  | 3 => ⟨S8192, .i32⟩
  | 4 => ⟨S8192x768, .f32⟩
  | 5 => ⟨S1, .f32⟩
  | 6 => ⟨S1, .f32⟩
  | 7 => ⟨S_, .f32⟩
  | 8 => ⟨S256x32, .f32⟩
  | 9 => ⟨S_, .i32⟩
  | 10 => ⟨S8192, .i32⟩
  | 11 => ⟨S8192, .i32⟩
  | 12 => ⟨S8192, .f32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192x1, .i32⟩
  | 29 => ⟨S8192x2, .i32⟩
  | 30 => ⟨S256x32, .f32⟩
  | 31 => ⟨S256x32, .f32⟩
  | 32 => ⟨S_, .f32⟩
  | 33 => ⟨S256x32, .f32⟩
  | 34 => ⟨S256x32, .i1⟩
  | 35 => ⟨S_, .f32⟩
  | 36 => ⟨S_, .f32⟩
  | 37 => ⟨S256x32, .f32⟩
  | 38 => ⟨S256x32, .f32⟩
  | 39 => ⟨S_, .f32⟩
  | 40 => ⟨S256x32, .f32⟩
  | 41 => ⟨S256x32, .i1⟩
  | 42 => ⟨S256x32, .f32⟩
  | 43 => ⟨S_, .f32⟩
  | 44 => ⟨S256, .f32⟩
  | 45 => ⟨S_, .f32⟩
  | 46 => ⟨S256, .f32⟩
  | 47 => ⟨S256, .i1⟩
  | 48 => ⟨S_, .f32⟩
  | 49 => ⟨S_, .f32⟩
  | 50 => ⟨S256x32, .f32⟩
  | 51 => ⟨S256x32, .f32⟩
  | 52 => ⟨S_, .f32⟩
  | 53 => ⟨S256, .f32⟩
  | 54 => ⟨S_, .f32⟩
  | 55 => ⟨S256, .f32⟩
  | 56 => ⟨S256, .f32⟩
  | 57 => ⟨S256x1, .f32⟩
  | 58 => ⟨S256x32, .f32⟩
  | 59 => ⟨S256x32, .f32⟩
  | 60 => ⟨S256x32, .f32⟩
  | 61 => ⟨S_, .f32⟩
  | 62 => ⟨S256, .f32⟩
  | 63 => ⟨S256x1, .f32⟩
  | 64 => ⟨S256x1, .f32⟩
  | 65 => ⟨S256x32, .f32⟩
  | 66 => ⟨S256x32, .f32⟩
  | 67 => ⟨S_, .f32⟩
  | 68 => ⟨S256x32, .f32⟩
  | 69 => ⟨S256x32, .i1⟩
  | 70 => ⟨S_, .f32⟩
  | 71 => ⟨S_, .f32⟩
  | 72 => ⟨S256x32, .f32⟩
  | 73 => ⟨S256x32, .f32⟩
  | 74 => ⟨S_, .f32⟩
  | 75 => ⟨S256, .f32⟩
  | 76 => ⟨S256, .f32⟩
  | 77 => ⟨S_, .f32⟩
  | 78 => ⟨S256, .f32⟩
  | 79 => ⟨S256, .f32⟩
  | 80 => ⟨S256, .f32⟩
  | 81 => ⟨S256, .i32⟩
  | 82 => ⟨S_, .i32⟩
  | 83 => ⟨S_, .i32⟩
  | 84 => ⟨S_, .i32⟩
  | 85 => ⟨S_, .i32⟩
  | 86 => ⟨S_, .f32⟩
  | 87 => ⟨S_, .f32⟩
  | 88 => ⟨S256, .f32⟩
  | 89 => ⟨S256, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S8192x768, .f32⟩
  | 99 => ⟨S_, .f32⟩
  | 100 => ⟨S8192, .f32⟩
  | 101 => ⟨S8192x1, .f32⟩
  | 102 => ⟨S8192x1, .f32⟩
  | 103 => ⟨S_, .f32⟩
  | 104 => ⟨S8192x1, .f32⟩
  | 105 => ⟨S8192x1, .f32⟩
  | 106 => ⟨S8192x768, .f32⟩
  | 107 => ⟨S8192x768, .f32⟩
  | 108 => ⟨S8192x768, .bf16⟩
  | 109 => ⟨S8192x1, .i32⟩
  | 110 => ⟨S8192x1, .i32⟩
  | 111 => ⟨S1x8192, .i32⟩
  | 112 => ⟨S1x8192, .i32⟩
  | 113 => ⟨S8x8x128, .f32⟩
  | 114 => ⟨S8x8x128, .f32⟩
  | 115 => ⟨S8x1x1, .f32⟩
  | 116 => ⟨S8, .f32⟩
  | 117 => ⟨S_, .f32⟩
  | 118 => ⟨S_, .f32⟩
  | 119 => ⟨S8x1x1, .f32⟩
  | 120 => ⟨S8, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8192x1, .f32⟩

abbrev hbmTy0_1 (i : Nat) : BufTy := match i % 128 with
  | 0 => ⟨S_, .f32⟩
  | 1 => ⟨S_, .f32⟩
  | 2 => ⟨S256x32, .f32⟩
  | 3 => ⟨S256x32, .i1⟩
  | 4 => ⟨S_, .f32⟩
  | 5 => ⟨S_, .f32⟩
  | 6 => ⟨S_, .f32⟩
  | 7 => ⟨S_, .f32⟩
  | 8 => ⟨S256x32, .f32⟩
  | 9 => ⟨S256x32, .f32⟩
  | 10 => ⟨S_, .f32⟩
  | 11 => ⟨S_, .f32⟩
  | 12 => ⟨S_, .f32⟩
  | 13 => ⟨S_, .f32⟩
  | 14 => ⟨S256x32, .f32⟩
  | 15 => ⟨S256x32, .f32⟩
  | 16 => ⟨S_, .f32⟩
  | 17 => ⟨S256x32, .f32⟩
  | 18 => ⟨S256x32, .f32⟩
  | 19 => ⟨S256x32, .f32⟩
  | 20 => ⟨S256x32, .f32⟩
  | 21 => ⟨S256x32, .f32⟩
  | 22 => ⟨S256x32, .f32⟩
  | 23 => ⟨S256x32, .f32⟩
  | 24 => ⟨S256x32, .f32⟩
  | 25 => ⟨S256x32, .f32⟩
  | 26 => ⟨S256x32, .i32⟩
  | 27 => ⟨S_, .i32⟩
  | 28 => ⟨S_, .i32⟩
  | 29 => ⟨S_, .i32⟩
  | 30 => ⟨S_, .i32⟩
  | 31 => ⟨S_, .f32⟩
  | 32 => ⟨S_, .f32⟩
  | 33 => ⟨S256x32, .f32⟩
  | 34 => ⟨S256x32, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | _ => ⟨S8192x1, .f32⟩

abbrev hbmTy (i : Nat) : BufTy := match i / 128 with
  | 0 => hbmTy0_0 i
  | 1 => hbmTy0_1 i
  | _ => ⟨S8192x1, .f32⟩

abbrev bufTy : (tb : Table) → Fin (tcTables nBuf tb) → BufTy
  | .hbm, ⟨i, _⟩ => hbmTy i
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x1, .i32⟩
  | .local _ .vmem, ⟨5, _⟩ => ⟨S1024x1, .i32⟩
  | .local _ .vmem, ⟨6, _⟩ => ⟨S1024x1, .i32⟩
  | .local _ .vmem, ⟨7, _⟩ => ⟨S1024x1, .i32⟩
  | .local _ .vmem, ⟨8, _⟩ => ⟨S1x1024, .i32⟩
  | .local _ .vmem, ⟨9, _⟩ => ⟨S1x1024, .i32⟩
  | .local _ .vmem, ⟨10, _⟩ => ⟨S1x1024, .i32⟩
  | .local _ .vmem, ⟨11, _⟩ => ⟨S1x1024, .i32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | .local _ .vmem, ⟨16, _⟩ => ⟨S8x128, .f32⟩
  | .local _ .vmem, ⟨17, _⟩ => ⟨S8x128, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_call1_v0 : Ref sig .tc := ⟨.hbm, 49, rfl⟩
abbrev main_call1_v1 : Ref sig .tc := ⟨.hbm, 50, rfl⟩
abbrev main_v28 : Ref sig .tc := ⟨.hbm, 51, rfl⟩
abbrev main_call2_cst : Ref sig .tc := ⟨.hbm, 52, rfl⟩
abbrev main_call2_v0 : Ref sig .tc := ⟨.hbm, 53, rfl⟩
abbrev main_call2_cst_0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_cst_1 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_v29 : Ref sig .tc := ⟨.hbm, 66, rfl⟩
abbrev main_cst_10 : Ref sig .tc := ⟨.hbm, 67, rfl⟩
abbrev main_v30 : Ref sig .tc := ⟨.hbm, 68, rfl⟩
abbrev main_v31 : Ref sig .tc := ⟨.hbm, 69, rfl⟩
abbrev main_cst_11 : Ref sig .tc := ⟨.hbm, 70, rfl⟩
abbrev main_call3_v0 : Ref sig .tc := ⟨.hbm, 71, rfl⟩
abbrev main_call3_v1 : Ref sig .tc := ⟨.hbm, 72, rfl⟩
abbrev main_v32 : Ref sig .tc := ⟨.hbm, 73, rfl⟩
abbrev main_cst_12 : Ref sig .tc := ⟨.hbm, 74, rfl⟩
abbrev main_v33 : Ref sig .tc := ⟨.hbm, 75, rfl⟩
abbrev main_v34 : Ref sig .tc := ⟨.hbm, 76, rfl⟩
abbrev main_cst_13 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_c_14 : Ref sig .tc := ⟨.hbm, 82, rfl⟩
abbrev main_v39 : Ref sig .tc := ⟨.hbm, 83, rfl⟩
abbrev main_c_15 : Ref sig .tc := ⟨.hbm, 84, rfl⟩
abbrev main_v40 : Ref sig .tc := ⟨.hbm, 85, rfl⟩
abbrev main_cst_16 : Ref sig .tc := ⟨.hbm, 86, rfl⟩
abbrev main_call4_v0 : Ref sig .tc := ⟨.hbm, 87, rfl⟩
abbrev main_call4_v1 : Ref sig .tc := ⟨.hbm, 88, rfl⟩
abbrev main_v41 : Ref sig .tc := ⟨.hbm, 89, rfl⟩
abbrev main_cst_17 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_18 : Ref sig .tc := ⟨.hbm, 94, rfl⟩
abbrev main_v45 : Ref sig .tc := ⟨.hbm, 95, rfl⟩
abbrev main_cst_19 : Ref sig .tc := ⟨.hbm, 96, rfl⟩
abbrev main_v46 : Ref sig .tc := ⟨.hbm, 97, rfl⟩
abbrev main_call5_v0 : Ref sig .tc := ⟨.hbm, 98, rfl⟩
abbrev main_call5_cst : Ref sig .tc := ⟨.hbm, 99, rfl⟩
abbrev main_call5_v1 : Ref sig .tc := ⟨.hbm, 100, rfl⟩
abbrev main_call5_v2 : Ref sig .tc := ⟨.hbm, 101, rfl⟩
abbrev main_v47 : Ref sig .tc := ⟨.hbm, 102, rfl⟩
abbrev main_cst_20 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57_0 : Ref sig .tc := ⟨.hbm, 113, rfl⟩
abbrev main_v57_1 : Ref sig .tc := ⟨.hbm, 114, rfl⟩
abbrev main_v58 : Ref sig .tc := ⟨.hbm, 115, rfl⟩
abbrev main_v59 : Ref sig .tc := ⟨.hbm, 116, rfl⟩
abbrev main_cst_21 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_cst_22 : Ref sig .tc := ⟨.hbm, 121, rfl⟩
abbrev main_v63 : Ref sig .tc := ⟨.hbm, 122, rfl⟩
abbrev main_cst_23 : Ref sig .tc := ⟨.hbm, 123, rfl⟩
abbrev main_v64 : Ref sig .tc := ⟨.hbm, 124, rfl⟩
abbrev main_v65 : Ref sig .tc := ⟨.hbm, 125, rfl⟩
abbrev main_cst_24 : Ref sig .tc := ⟨.hbm, 126, rfl⟩
abbrev main_v66 : Ref sig .tc := ⟨.hbm, 127, rfl⟩
abbrev main_v67 : Ref sig .tc := ⟨.hbm, 128, rfl⟩
abbrev main_cst_25 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_cst_26 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_cst_27 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_cst_28 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_c_29 : Ref sig .tc := ⟨.hbm, 155, rfl⟩
abbrev main_v90 : Ref sig .tc := ⟨.hbm, 156, rfl⟩
abbrev main_c_30 : Ref sig .tc := ⟨.hbm, 157, rfl⟩
abbrev main_v91 : Ref sig .tc := ⟨.hbm, 158, rfl⟩
abbrev main_cst_31 : Ref sig .tc := ⟨.hbm, 159, rfl⟩
abbrev main_call6_v0 : Ref sig .tc := ⟨.hbm, 160, rfl⟩
abbrev main_call6_v1 : Ref sig .tc := ⟨.hbm, 161, rfl⟩
abbrev main_v92 : Ref sig .tc := ⟨.hbm, 162, rfl⟩
abbrev main_cst_32 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_cst_33 : Ref sig .tc := ⟨.hbm, 167, rfl⟩
abbrev main_v96 : Ref sig .tc := ⟨.hbm, 168, rfl⟩
abbrev main_v97 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_27 : BitVec 32 := 0#32
  let v53 : BitVec 1 := Scalar.cmpi .ne v52 c0_i32_27
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S256x32 : S_.BroadcastsInDim S256x32 (![] : Fin 0 → Fin S256x32.rank)
  bcast_S_S8192 : S_.BroadcastsInDim S8192 (![] : Fin 0 → Fin S8192.rank)
  shapeCasts_S8192x1_S8192 : S8192x1.ShapeCasts S8192
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S256x32_S256_d1 : S256x32.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  natLt_1_32 : 1 < 32
  reducesTo_S256_S_d0 : S256.ReducesTo [0] S_
  reducesTo_S8192x768_S8192_d1 : S8192x768.ReducesTo [1] S8192
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  bitsLt_bf16_f32 : FTy.bits .bf16 < FTy.bits .f32
  shapeCasts_S8192_S8192x1 : S8192.ShapeCasts S8192x1
  shapeCasts_S8192_S1x8192 : S8192.ShapeCasts S1x8192
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S8x8x128_S8x1x1_0_0_0 : S8x8x128.Slices ![0, 0, 0] S8x1x1
  shapeCasts_S8x1x1_S8 : S8x1x1.ShapeCasts S8
  reducesTo_S8_S_d0 : S8.ReducesTo [0] S_
  shapeCasts_S1_S_ : S1.ShapeCasts S_
  reducesTo_S256x32_S_d0_1 : S256x32.ReducesTo [0, 1] S_
  scatter_S256x32_S8192x2_S8192_n_01_01_1_wf : ScatterDims.WF S256x32 S8192x2 S8192 [] [0, 1] [0, 1] 1
  dot_S1024x768_S1024x768_S1024x1024_1_1_0_0_n_n_wf : DotDims.WF S1024x768 S1024x768 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .bf16 = 32 ∨ (Rect.block (s := S8192x768) S1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .bf16 = 32 ∨ (Rect.block (s := S8192x768) S1024x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .i32 = 32 ∨ (Rect.block (s := S8192x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .i32 = 32 ∨ (Rect.block (s := S1x8192) S1x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S8x8x128.size a
  hwx0_6 : ∀ i : grid0.Coords, EltTy.bits .f32 = 32 ∨ (Rect.block (s := S8x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S8x8x128.size a
  hwx0_7 : ∀ i : grid0.Coords, EltTy.bits .f32 = 32 ∨ (Rect.block (s := S8x8x128) S1x8x128.size (cc0_transform_7 i) (hinb0_7 i)).WholeWords (EltTy.packing .f32)

variable [Facts₀]

def scatter_S256x32_S8192x2_S8192_n_01_01_1 : ScatterDims S256x32 S8192x2 S8192 where
  updateWindowDims := []
  insertedWindowDims := [0, 1]
  scatterDimsToOperandDims := [0, 1]
  indexVectorDim := 1
  wf := scatter_S256x32_S8192x2_S8192_n_01_01_1_wf
def dot_S1024x768_S1024x768_S1024x1024_1_1_0_0_n_n : DotDims S1024x768 S1024x768 S1024x1024 where
  lhsContracting := [1]
  rhsContracting := [1]
  lhsNonContracting := [0]
  rhsNonContracting := [0]
  lhsBatch := []
  rhsBatch := []
  wf := dot_S1024x768_S1024x768_S1024x1024_1_1_0_0_n_n_wf

abbrev win0_0 : Pipeline.Window sig grid0 :=
  Pipeline.Window.ofSpec (Memref.whole main_v52) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v55) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v56) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v57_0) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v57_1) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x1 : Shape := ⟨2, ![8192, 1]⟩
abbrev S256x32 : Shape := ⟨2, ![256, 32]⟩
abbrev S8192 : Shape := ⟨1, ![8192]⟩
abbrev S8192x768 : Shape := ⟨2, ![8192, 768]⟩
abbrev S1 : Shape := ⟨1, ![1]⟩
abbrev S_ : Shape := ⟨0, ![]⟩
abbrev S8192x2 : Shape := ⟨2, ![8192, 2]⟩
abbrev S256 : Shape := ⟨1, ![256]⟩
abbrev S256x1 : Shape := ⟨2, ![256, 1]⟩
abbrev S768x8192 : Shape := ⟨2, ![768, 8192]⟩
abbrev S8192x8192 : Shape := ⟨2, ![8192, 8192]⟩
abbrev S1x8192 : Shape := ⟨2, ![1, 8192]⟩

abbrev nBuf : Space → Nat
  | .hbm => 184
  | .vmem => 0
  | .smem => 0
  | _ => 0

abbrev hbmTy0_0 (i : Nat) : BufTy := match i % 128 with
  | 0 => ⟨S8192x1, .f32⟩
  | 1 => ⟨S256x32, .i32⟩
  | 2 => ⟨S8192, .i32⟩
  | 3 => ⟨S8192, .i32⟩
  | 4 => ⟨S8192x768, .f32⟩
  | 5 => ⟨S1, .f32⟩
  | 6 => ⟨S1, .f32⟩
  | 7 => ⟨S_, .f32⟩
  | 8 => ⟨S256x32, .f32⟩
  | 9 => ⟨S_, .i32⟩
  | 10 => ⟨S8192, .i32⟩
  | 11 => ⟨S8192, .i32⟩
  | 12 => ⟨S8192, .f32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192x1, .i32⟩
  | 29 => ⟨S8192x2, .i32⟩
  | 30 => ⟨S256x32, .f32⟩
  | 31 => ⟨S256x32, .f32⟩
  | 32 => ⟨S_, .f32⟩
  | 33 => ⟨S256x32, .f32⟩
  | 34 => ⟨S256x32, .i1⟩
  | 35 => ⟨S_, .f32⟩
  | 36 => ⟨S_, .f32⟩
  | 37 => ⟨S256x32, .f32⟩
  | 38 => ⟨S256x32, .f32⟩
  | 39 => ⟨S_, .f32⟩
  | 40 => ⟨S256x32, .f32⟩
  | 41 => ⟨S256x32, .i1⟩
  | 42 => ⟨S256x32, .f32⟩
  | 43 => ⟨S_, .f32⟩
  | 44 => ⟨S256, .f32⟩
  | 45 => ⟨S_, .f32⟩
  | 46 => ⟨S256, .f32⟩
  | 47 => ⟨S256, .i1⟩
  | 48 => ⟨S_, .f32⟩
  | 49 => ⟨S_, .f32⟩
  | 50 => ⟨S256x32, .f32⟩
  | 51 => ⟨S256x32, .f32⟩
  | 52 => ⟨S_, .f32⟩
  | 53 => ⟨S256, .f32⟩
  | 54 => ⟨S_, .f32⟩
  | 55 => ⟨S256, .f32⟩
  | 56 => ⟨S256, .f32⟩
  | 57 => ⟨S256x1, .f32⟩
  | 58 => ⟨S256x32, .f32⟩
  | 59 => ⟨S256x32, .f32⟩
  | 60 => ⟨S256x32, .f32⟩
  | 61 => ⟨S_, .f32⟩
  | 62 => ⟨S256, .f32⟩
  | 63 => ⟨S256x1, .f32⟩
  | 64 => ⟨S256x1, .f32⟩
  | 65 => ⟨S256x32, .f32⟩
  | 66 => ⟨S256x32, .f32⟩
  | 67 => ⟨S_, .f32⟩
  | 68 => ⟨S256x32, .f32⟩
  | 69 => ⟨S256x32, .i1⟩
  | 70 => ⟨S_, .f32⟩
  | 71 => ⟨S_, .f32⟩
  | 72 => ⟨S256x32, .f32⟩
  | 73 => ⟨S256x32, .f32⟩
  | 74 => ⟨S_, .f32⟩
  | 75 => ⟨S256, .f32⟩
  | 76 => ⟨S256, .f32⟩
  | 77 => ⟨S_, .f32⟩
  | 78 => ⟨S256, .f32⟩
  | 79 => ⟨S256, .f32⟩
  | 80 => ⟨S256, .f32⟩
  | 81 => ⟨S256, .i32⟩
  | 82 => ⟨S_, .i32⟩
  | 83 => ⟨S_, .i32⟩
  | 84 => ⟨S_, .i32⟩
  | 85 => ⟨S_, .i32⟩
  | 86 => ⟨S_, .f32⟩
  | 87 => ⟨S_, .f32⟩
  | 88 => ⟨S256, .f32⟩
  | 89 => ⟨S256, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S8192x768, .f32⟩
  | 99 => ⟨S_, .f32⟩
  | 100 => ⟨S8192, .f32⟩
  | 101 => ⟨S8192x1, .f32⟩
  | 102 => ⟨S8192x1, .f32⟩
  | 103 => ⟨S_, .f32⟩
  | 104 => ⟨S8192x1, .f32⟩
  | 105 => ⟨S8192x1, .f32⟩
  | 106 => ⟨S8192x768, .f32⟩
  | 107 => ⟨S8192x768, .f32⟩
  | 108 => ⟨S768x8192, .f32⟩
  | 109 => ⟨S8192x8192, .f32⟩
  | 110 => ⟨S1x8192, .i32⟩
  | 111 => ⟨S8192x1, .i32⟩
  | 112 => ⟨S8192x8192, .i32⟩
  | 113 => ⟨S8192x8192, .i32⟩
  | 114 => ⟨S8192x8192, .i1⟩
  | 115 => ⟨S1x8192, .i32⟩
  | 116 => ⟨S8192x1, .i32⟩
  | 117 => ⟨S8192x8192, .i32⟩
  | 118 => ⟨S8192x8192, .i32⟩
  | 119 => ⟨S8192x8192, .i1⟩
  | 120 => ⟨S8192x8192, .i1⟩
  | 121 => ⟨S_, .f32⟩
  | 122 => ⟨S8192x8192, .f32⟩
  | 123 => ⟨S8192x8192, .f32⟩
  | 124 => ⟨S_, .f32⟩
  | 125 => ⟨S8192x8192, .f32⟩
  | 126 => ⟨S8192x8192, .f32⟩
  | 127 => ⟨S8192x8192, .i32⟩
  | _ => ⟨S8192x1, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .f32⟩
  | 5 => ⟨S_, .f32⟩
  | 6 => ⟨S8192x8192, .f32⟩
  | 7 => ⟨S8192x8192, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S256x32, .f32⟩
  | 17 => ⟨S256x32, .i1⟩
  | 18 => ⟨S_, .f32⟩
  | 19 => ⟨S_, .f32⟩
  | 20 => ⟨S_, .f32⟩
  | 21 => ⟨S_, .f32⟩
  | 22 => ⟨S256x32, .f32⟩
  | 23 => ⟨S256x32, .f32⟩
  | 24 => ⟨S_, .f32⟩
  | 25 => ⟨S_, .f32⟩
  | 26 => ⟨S_, .f32⟩
  | 27 => ⟨S_, .f32⟩
  | 28 => ⟨S256x32, .f32⟩
  | 29 => ⟨S256x32, .f32⟩
  | 30 => ⟨S_, .f32⟩
  | 31 => ⟨S256x32, .f32⟩
  | 32 => ⟨S256x32, .f32⟩
  | 33 => ⟨S256x32, .f32⟩
  | 34 => ⟨S256x32, .f32⟩
  | 35 => ⟨S256x32, .f32⟩
  | 36 => ⟨S256x32, .f32⟩
  | 37 => ⟨S256x32, .f32⟩
  | 38 => ⟨S256x32, .f32⟩
  | 39 => ⟨S256x32, .f32⟩
  | 40 => ⟨S256x32, .i32⟩
  | 41 => ⟨S_, .i32⟩
  | 42 => ⟨S_, .i32⟩
  | 43 => ⟨S_, .i32⟩
  | 44 => ⟨S_, .i32⟩
  | 45 => ⟨S_, .f32⟩
  | 46 => ⟨S_, .f32⟩
  | 47 => ⟨S256x32, .f32⟩
  | 48 => ⟨S256x32, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | _ => ⟨S8192x1, .f32⟩

abbrev hbmTy (i : Nat) : BufTy := match i / 128 with
  | 0 => hbmTy0_0 i
  | 1 => hbmTy0_1 i
  | _ => ⟨S8192x1, .f32⟩

abbrev bufTy : (tb : Table) → Fin (tcTables nBuf tb) → BufTy
  | .hbm, ⟨i, _⟩ => hbmTy i
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_call1_v0 : Ref sig .tc := ⟨.hbm, 49, rfl⟩
abbrev main_call1_v1 : Ref sig .tc := ⟨.hbm, 50, rfl⟩
abbrev main_v28 : Ref sig .tc := ⟨.hbm, 51, rfl⟩
abbrev main_call2_cst : Ref sig .tc := ⟨.hbm, 52, rfl⟩
abbrev main_call2_v0 : Ref sig .tc := ⟨.hbm, 53, rfl⟩
abbrev main_call2_cst_0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_cst_1 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_v29 : Ref sig .tc := ⟨.hbm, 66, rfl⟩
abbrev main_cst_10 : Ref sig .tc := ⟨.hbm, 67, rfl⟩
abbrev main_v30 : Ref sig .tc := ⟨.hbm, 68, rfl⟩
abbrev main_v31 : Ref sig .tc := ⟨.hbm, 69, rfl⟩
abbrev main_cst_11 : Ref sig .tc := ⟨.hbm, 70, rfl⟩
abbrev main_call3_v0 : Ref sig .tc := ⟨.hbm, 71, rfl⟩
abbrev main_call3_v1 : Ref sig .tc := ⟨.hbm, 72, rfl⟩
abbrev main_v32 : Ref sig .tc := ⟨.hbm, 73, rfl⟩
abbrev main_cst_12 : Ref sig .tc := ⟨.hbm, 74, rfl⟩
abbrev main_v33 : Ref sig .tc := ⟨.hbm, 75, rfl⟩
abbrev main_v34 : Ref sig .tc := ⟨.hbm, 76, rfl⟩
abbrev main_cst_13 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_c_14 : Ref sig .tc := ⟨.hbm, 82, rfl⟩
abbrev main_v39 : Ref sig .tc := ⟨.hbm, 83, rfl⟩
abbrev main_c_15 : Ref sig .tc := ⟨.hbm, 84, rfl⟩
abbrev main_v40 : Ref sig .tc := ⟨.hbm, 85, rfl⟩
abbrev main_cst_16 : Ref sig .tc := ⟨.hbm, 86, rfl⟩
abbrev main_call4_v0 : Ref sig .tc := ⟨.hbm, 87, rfl⟩
abbrev main_call4_v1 : Ref sig .tc := ⟨.hbm, 88, rfl⟩
abbrev main_v41 : Ref sig .tc := ⟨.hbm, 89, rfl⟩
abbrev main_cst_17 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_18 : Ref sig .tc := ⟨.hbm, 94, rfl⟩
abbrev main_v45 : Ref sig .tc := ⟨.hbm, 95, rfl⟩
abbrev main_cst_19 : Ref sig .tc := ⟨.hbm, 96, rfl⟩
abbrev main_v46 : Ref sig .tc := ⟨.hbm, 97, rfl⟩
abbrev main_call5_v0 : Ref sig .tc := ⟨.hbm, 98, rfl⟩
abbrev main_call5_cst : Ref sig .tc := ⟨.hbm, 99, rfl⟩
abbrev main_call5_v1 : Ref sig .tc := ⟨.hbm, 100, rfl⟩
abbrev main_call5_v2 : Ref sig .tc := ⟨.hbm, 101, rfl⟩
abbrev main_v47 : Ref sig .tc := ⟨.hbm, 102, rfl⟩
abbrev main_cst_20 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_cst_21 : Ref sig .tc := ⟨.hbm, 121, rfl⟩
abbrev main_v65 : Ref sig .tc := ⟨.hbm, 122, rfl⟩
abbrev main_v66 : Ref sig .tc := ⟨.hbm, 123, rfl⟩
abbrev main_call6_cst : Ref sig .tc := ⟨.hbm, 124, rfl⟩
abbrev main_call6_v0 : Ref sig .tc := ⟨.hbm, 125, rfl⟩
abbrev main_v67 : Ref sig .tc := ⟨.hbm, 126, rfl⟩
abbrev main_v68 : Ref sig .tc := ⟨.hbm, 127, rfl⟩
abbrev main_c_22 : Ref sig .tc := ⟨.hbm, 128, rfl⟩
abbrev main_v69 : Ref sig .tc := ⟨.hbm, 129, rfl⟩
abbrev main_c_23 : Ref sig .tc := ⟨.hbm, 130, rfl⟩
abbrev main_v70 : Ref sig .tc := ⟨.hbm, 131, rfl⟩
abbrev main_cst_24 : Ref sig .tc := ⟨.hbm, 132, rfl⟩
abbrev main_call7_v0 : Ref sig .tc := ⟨.hbm, 133, rfl⟩
abbrev main_call7_v1 : Ref sig .tc := ⟨.hbm, 134, rfl⟩
abbrev main_v71 : Ref sig .tc := ⟨.hbm, 135, rfl⟩
abbrev main_cst_25 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_cst_26 : Ref sig .tc := ⟨.hbm, 140, rfl⟩
abbrev main_v75 : Ref sig .tc := ⟨.hbm, 141, rfl⟩
abbrev main_v76 : Ref sig .tc := ⟨.hbm, 142, rfl⟩
abbrev main_cst_27 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_cst_28 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_cst_29 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_cst_30 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_c_31 : Ref sig .tc := ⟨.hbm, 169, rfl⟩
abbrev main_v99 : Ref sig .tc := ⟨.hbm, 170, rfl⟩
abbrev main_c_32 : Ref sig .tc := ⟨.hbm, 171, rfl⟩
abbrev main_v100 : Ref sig .tc := ⟨.hbm, 172, rfl⟩
abbrev main_cst_33 : Ref sig .tc := ⟨.hbm, 173, rfl⟩
abbrev main_call8_v0 : Ref sig .tc := ⟨.hbm, 174, rfl⟩
abbrev main_call8_v1 : Ref sig .tc := ⟨.hbm, 175, rfl⟩
abbrev main_v101 : Ref sig .tc := ⟨.hbm, 176, rfl⟩
abbrev main_cst_34 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_cst_35 : Ref sig .tc := ⟨.hbm, 181, rfl⟩
abbrev main_v105 : Ref sig .tc := ⟨.hbm, 182, rfl⟩
abbrev main_v106 : Ref sig .tc := ⟨.hbm, 183, rfl⟩

abbrev nD : Nat := 1
abbrev τ : Topo := Topo.v7x

variable {F : FTy → Type} [FloatOps F]

class Facts₀ : Prop where
  bcast_S_S256x32 : S_.BroadcastsInDim S256x32 (![] : Fin 0 → Fin S256x32.rank)
  bcast_S_S8192 : S_.BroadcastsInDim S8192 (![] : Fin 0 → Fin S8192.rank)
  shapeCasts_S8192x1_S8192 : S8192x1.ShapeCasts S8192
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S256x32_S256_d1 : S256x32.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  natLt_1_32 : 1 < 32
  reducesTo_S256_S_d0 : S256.ReducesTo [0] S_
  reducesTo_S8192x768_S8192_d1 : S8192x768.ReducesTo [1] S8192
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  transposes_S8192x768_S768x8192_1_0 : S8192x768.Transposes [1, 0] S768x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  shapeCasts_S1_S_ : S1.ShapeCasts S_
  reducesTo_S256x32_S_d0_1 : S256x32.ReducesTo [0, 1] S_
  scatter_S256x32_S8192x2_S8192_n_01_01_1_wf : ScatterDims.WF S256x32 S8192x2 S8192 [] [0, 1] [0, 1] 1
  dot_S8192x768_S768x8192_S8192x8192_1_0_0_1_n_n_wf : DotDims.WF S8192x768 S768x8192 S8192x8192 [1] [0] [0] [1] [] []

variable [Facts₀]

def scatter_S256x32_S8192x2_S8192_n_01_01_1 : ScatterDims S256x32 S8192x2 S8192 where
  updateWindowDims := []
  insertedWindowDims := [0, 1]
  scatterDimsToOperandDims := [0, 1]
  indexVectorDim := 1
  wf := scatter_S256x32_S8192x2_S8192_n_01_01_1_wf
def dot_S8192x768_S768x8192_S8192x8192_1_0_0_1_n_n : DotDims S8192x768 S768x8192 S8192x8192 where
  lhsContracting := [1]
  rhsContracting := [0]
  lhsNonContracting := [0]
  rhsNonContracting := [1]
  lhsBatch := []
  rhsBatch := []
  wf := dot_S8192x768_S768x8192_S8192x8192_1_0_0_1_n_n_wf

class Facts : Prop extends Facts₀ where

variable [Facts]
-- ==== Proof.K.Base.lean ====
/-
  The kernel body of the pairwise-repulsion reduction, case by case. The grid is 8 x 8; at the point (i, j) the body
  resets its two accumulators when j = 0, adds the block's masked penalty sum and the block's pair count to them, and
  copies them into the two output blocks when j = 7. This module fixes the two branch conditions in closed form over the
  64 points and says at which points the output blocks are left untouched.
-/
import proofs.«159163_j3478923509848_2_alg».proof.Proof.Gen.Kernel.Launch
import proofs.«159163_j3478923509848_2_alg».proof.Proof.Gen.Kernel.Skeleton
import proofs.«159163_j3478923509848_2_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch: the column coordinate j is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The second branch: the column coordinate j is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The six input blocks are read at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from j = 7 the two output blocks are neither stored nor written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At j = 7 they are stored. -/
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

/-- One buffer of each output window and the two accumulators, as views through which contents are stated. -/
abbrev VO0_6 : View sig .tc .vmem S1x8x128 .f32 := (Memref.whole cc0_stg6_0 : Memref sig .tc .vmem S1x8x128 .f32).view
abbrev VO0_7 : View sig .tc .vmem S1x8x128 .f32 := (Memref.whole cc0_stg7_0 : Memref sig .tc .vmem S1x8x128 .f32).view
abbrev scM0_0 : Memref sig .tc .vmem S8x128 .f32 := Memref.whole cc0_scratch0
abbrev scM0_1 : Memref sig .tc .vmem S8x128 .f32 := Memref.whole cc0_scratch1
abbrev VS0_0 : View sig .tc .vmem S8x128 .f32 := scM0_0.view
abbrev VS0_1 : View sig .tc .vmem S8x128 .f32 := scM0_1.view

/-- Each window's current buffer at a point. -/
abbrev ms0_0 (t : Fin cfg0.N) : Memref sig .tc .vmem S1024x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x128 .f32 := win0_7.stage (cfg0.slots t 7)
abbrev hs0_7 (t : Fin cfg0.N) : (ms0_7 t).IsWhole := hstage0_7 ((cfg0.slots t 7).cast nbuf0_7)

/-- What the region's invariant holds besides the windows: the two accumulators, each at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.Kernel.Hand

end
-- ==== Proof.K.RunA.lean ====
/-
  The kernel body run at a point with j = 0: both accumulators are reset, then the block's sums are added; nothing is copied out. The pieces the run leaves in
  each buffer it stores into are found by the run itself; what they read back as is stated in the next modules.
-/
import proofs.«159163_j3478923509848_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i)
    (x0 : Vec F S1024x768 .bf16) (x1 : Vec F S1024x768 .bf16) (x2 : Vec F S1024x1 .i32) (x3 : Vec F S1024x1 .i32) (x4 : Vec F S1x1024 .i32) (x5 : Vec F S1x1024 .i32) :
    Σ' (L6 : List (View.Piece (Elt F) S1x8x128 .f32)) (L7 : List (View.Piece (Elt F) S1x8x128 .f32)) (LS0 : List (View.Piece (Elt F) S8x128 .f32)), { LS1 : List (View.Piece (Elt F) S8x128 .f32) //
      ∀ (xi6 : Vec F S1x8x128 .f32) (xi7 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__repulsion_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0__repulsion_kernel_eq_skeleton]; unfold cc0__repulsion_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Hand

end
-- ==== Proof.K.RunB.lean ====
/-
  The kernel body run at a point with 0 < j < 7: the block's sums are added to the accumulators; nothing is reset, nothing copied out. The pieces the run leaves in
  each buffer it stores into are found by the run itself; what they read back as is stated in the next modules.
-/
import proofs.«159163_j3478923509848_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i)
    (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) :
    Σ' (L6 : List (View.Piece (Elt F) S1x8x128 .f32)) (L7 : List (View.Piece (Elt F) S1x8x128 .f32)) (LS0 : List (View.Piece (Elt F) S8x128 .f32)), { LS1 : List (View.Piece (Elt F) S8x128 .f32) //
      ∀ (xi6 : Vec F S1x8x128 .f32) (xi7 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__repulsion_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0__repulsion_kernel_eq_skeleton]; unfold cc0__repulsion_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Hand

end
-- ==== Proof.K.RunC.lean ====
/-
  The kernel body run at a point with j = 7: the block's sums are added and the accumulators are copied into the two output blocks. The pieces the run leaves in
  each buffer it stores into are found by the run itself; what they read back as is stated in the next modules.
-/
import proofs.«159163_j3478923509848_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i)
    (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) :
    Σ' (L6 : List (View.Piece (Elt F) S1x8x128 .f32)) (L7 : List (View.Piece (Elt F) S1x8x128 .f32)) (LS0 : List (View.Piece (Elt F) S8x128 .f32)), { LS1 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__repulsion_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__repulsion_kernel_eq_skeleton]; unfold cc0__repulsion_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.Kernel.Hand

end
-- ==== Proof.K.Frame1.lean ====
/-
  The proof data of the reduction's region. After the body at the point t = 8 i + j each input buffer still holds its block;
  the two accumulators hold what the case of j leaves in them over what the point before left (nothing carried at j = 0,
  where they are reset first); the two output blocks are stored only at j = 7 and are handed back untouched elsewhere.
  `outsAt0` is that recursion on the point, and the body obligation is the run of the point's case.
-/
import proofs.«159163_j3478923509848_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- What the accumulators hold after a point of case A: the run's pieces read back. -/
theorem scover0_A_0 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (y : S8x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.1 S8x128.size (by sl_kernel_rfl) y
theorem scover0_A_1 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (y : S8x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.2.1 S8x128.size (by sl_kernel_rfl) y
def sout0_A_0 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) : Vec F S8x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).2.2.1)
def sout0_A_1 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) : Vec F S8x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.2.2.1)

/-- What the accumulators hold after a point of case B: the run's pieces read back. -/
theorem scover0_B_0 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) (y : S8x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1 S8x128.size (by sl_kernel_rfl) y
theorem scover0_B_1 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) (y : S8x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S8x128.size (by sl_kernel_rfl) y
def sout0_B_0 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) : Vec F S8x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1)
def sout0_B_1 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) : Vec F S8x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- What the accumulators hold after a point of case C: the run's pieces read back. -/
theorem scover0_C_0 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) (y : S8x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S8x128.size (by sl_kernel_rfl) y
theorem scover0_C_1 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) (y : S8x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S8x128.size (by sl_kernel_rfl) y
def sout0_C_0 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) : Vec F S8x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1)
def sout0_C_1 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) : Vec F S8x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- What the two output blocks hold after a point of case C. -/
theorem cover0_C_6 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) (y : S1x8x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1 S1x8x128.size (by sl_kernel_rfl) y
theorem cover0_C_7 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) (y : S1x8x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1 S1x8x128.size (by sl_kernel_rfl) y
def out0_C_6 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) : Vec F S1x8x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1)
def out0_C_7 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) : Vec F S1x8x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- What the two output blocks and the two accumulators hold after the body at position n. -/
def outsAt0 (c : Dev nD) : (n : ℕ) → n < cfg0.N → Vec F S1x8x128 .f32 × Vec F S1x8x128 .f32 × Vec F S8x128 .f32 × Vec F S8x128 .f32
  | 0, hn => (VO0_6.read (Elt F) VO0_6.junk, VO0_7.read (Elt F) VO0_7.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 8 = 0 then
      if h1 : (n + 1) % 8 = 7 then
        False.elim (by omega)
      else
        (VO0_6.read (Elt F) VO0_6.junk, VO0_7.read (Elt F) VO0_7.junk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.1 (outsAt0 c n (Nat.lt_of_succ_lt hn)).2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.1 (outsAt0 c n (Nat.lt_of_succ_lt hn)).2.2.2)
      else
        (VO0_6.read (Elt F) VO0_6.junk, VO0_7.read (Elt F) VO0_7.junk, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 V c t.val t.isLt = (VO0_6.read (Elt F) VO0_6.junk, VO0_7.read (Elt F) VO0_7.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk V c 0 t) (iblk V c 1 t) (iblk V c 2 t) (iblk V c 3 t) (iblk V c 4 t) (iblk V c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans ((dif_neg h1).trans rfl)
theorem outsAt0_B (c : Dev nD) (t : Fin cfg0.N) (h0 : ¬t.val % 8 = 0) (h1 : ¬t.val % 8 = 7) :
    outsAt0 V c t.val t.isLt = (VO0_6.read (Elt F) VO0_6.junk, VO0_7.read (Elt F) VO0_7.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 8 = 0) (h1 : t.val % 8 = 7) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: the accumulators at anything before the first point, afterwards at what
    the point before left. -/
def PhiS (c : Dev nD) : (n : ℕ) → n ≤ cfg0.N → sProp 𝕄
  | 0, _ => iprop((∃ d, owns (c : Thread nD τ) scM0_0 fullShare d) ∗ (∃ d, owns (c : Thread nD τ) scM0_1 fullShare d))
  | n + 1, hn => iprop(owns (c : Thread nD τ) scM0_0 fullShare ((outsAt0 V c n hn).2.2.1) ∗ owns (c : Thread nD τ) scM0_1 fullShare ((outsAt0 V c n hn).2.2.2))

theorem PhiS_zero (c : Dev nD) (n : ℕ) (h : n ≤ cfg0.N) (hz : n = 0) :
    PhiS V c n h = iprop((∃ d, owns (c : Thread nD τ) scM0_0 fullShare d) ∗ (∃ d, owns (c : Thread nD τ) scM0_1 fullShare d)) := by
  subst hz; rfl
theorem PhiS_succ (c : Dev nD) (n : ℕ) (hn : n < cfg0.N) :
    PhiS V c (n + 1) hn = iprop(owns (c : Thread nD τ) scM0_0 fullShare ((outsAt0 V c n hn).2.2.1) ∗ owns (c : Thread nD τ) scM0_1 fullShare ((outsAt0 V c n hn).2.2.2)) := rfl
theorem PhiS_pos (c : Dev nD) (n : ℕ) (h : n ≤ cfg0.N) (hz : n ≠ 0) :
    PhiS V c n h = iprop(owns (c : Thread nD τ) scM0_0 fullShare ((outsAt0 V c (n - 1) (by omega)).2.2.1) ∗ owns (c : Thread nD τ) scM0_1 fullShare ((outsAt0 V c (n - 1) (by omega)).2.2.2)) := by
  cases n with
  | zero => exact absurd rfl hz
  | succ n => rfl

/-- The proof data: the arrays as the region finds them; the two windows that read the one normalised-embedding array
    hold it at the two halves of the full share. -/
def dats (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt0 V c t.val t.isLt).1
    | ⟨7, _⟩ => (outsAt0 V c t.val t.isLt).2.1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats V c).A w = V c (Pipeline.arrRef spec0 w) := by
  dsimp only [dats]
theorem PhiS_castSucc (c : Dev nD) (t : Fin cfg0.N) :
    (dats V c).Φ t.castSucc = PhiS V c t.val (Nat.le_of_lt t.isLt) := by
  dsimp only [dats]; simp only [Fin.coe_castSucc]
theorem after0_0 (c : Dev nD) (t : Fin cfg0.N) : (dats V c).after 0 t = iblk V c 0 t := by dsimp only [dats]
theorem after0_1 (c : Dev nD) (t : Fin cfg0.N) : (dats V c).after 1 t = iblk V c 1 t := by dsimp only [dats]
theorem after0_2 (c : Dev nD) (t : Fin cfg0.N) : (dats V c).after 2 t = iblk V c 2 t := by dsimp only [dats]
theorem after0_3 (c : Dev nD) (t : Fin cfg0.N) : (dats V c).after 3 t = iblk V c 3 t := by dsimp only [dats]
theorem after0_4 (c : Dev nD) (t : Fin cfg0.N) : (dats V c).after 4 t = iblk V c 4 t := by dsimp only [dats]
theorem after0_5 (c : Dev nD) (t : Fin cfg0.N) : (dats V c).after 5 t = iblk V c 5 t := by dsimp only [dats]
theorem after0_6 (c : Dev nD) (t : Fin cfg0.N) : (dats V c).after 6 t = (outsAt0 V c t.val t.isLt).1 := by dsimp only [dats]
theorem after0_7 (c : Dev nD) (t : Fin cfg0.N) : (dats V c).after 7 t = (outsAt0 V c t.val t.isLt).2.1 := by dsimp only [dats]
theorem before0_0 (c : Dev nD) (t : Fin cfg0.N) (d) : (dats V c).before 0 t d = iblk V c 0 t :=
  before0_0_of V (dats V c) (A_eq V c 0) (after0_0 V c) t d
theorem before0_1 (c : Dev nD) (t : Fin cfg0.N) (d) : (dats V c).before 1 t d = iblk V c 1 t :=
  before0_1_of V (dats V c) (A_eq V c 1) (after0_1 V c) t d
theorem before0_2 (c : Dev nD) (t : Fin cfg0.N) (d) : (dats V c).before 2 t d = iblk V c 2 t :=
  before0_2_of V (dats V c) (A_eq V c 2) (after0_2 V c) t d
theorem before0_3 (c : Dev nD) (t : Fin cfg0.N) (d) : (dats V c).before 3 t d = iblk V c 3 t :=
  before0_3_of V (dats V c) (A_eq V c 3) (after0_3 V c) t d
theorem before0_4 (c : Dev nD) (t : Fin cfg0.N) (d) : (dats V c).before 4 t d = iblk V c 4 t :=
  before0_4_of V (dats V c) (A_eq V c 4) (after0_4 V c) t d
theorem before0_5 (c : Dev nD) (t : Fin cfg0.N) (d) : (dats V c).before 5 t d = iblk V c 5 t :=
  before0_5_of V (dats V c) (A_eq V c 5) (after0_5 V c) t d

def bodyPre (c : Dev nD) (t : Fin cfg0.N) : sProp 𝕄 :=
  iprop((dats V c).Φ t.castSucc ∗ (dats V c).owesAt () t.castSucc
    ∗ (∃ d, owns (c : Thread nD τ) (ms0_0 t) fullShare ((dats V c).before 0 t d))
    ∗ (∃ d, owns (c : Thread nD τ) (ms0_1 t) fullShare ((dats V c).before 1 t d))
    ∗ (∃ d, owns (c : Thread nD τ) (ms0_2 t) fullShare ((dats V c).before 2 t d))
    ∗ (∃ d, owns (c : Thread nD τ) (ms0_3 t) fullShare ((dats V c).before 3 t d))
    ∗ (∃ d, owns (c : Thread nD τ) (ms0_4 t) fullShare ((dats V c).before 4 t d))
    ∗ (∃ d, owns (c : Thread nD τ) (ms0_5 t) fullShare ((dats V c).before 5 t d))
    ∗ (∃ d, owns (c : Thread nD τ) (ms0_6 t) fullShare ((dats V c).before 6 t d))
    ∗ (∃ d, owns (c : Thread nD τ) (ms0_7 t) fullShare ((dats V c).before 7 t d)))
def bodyPost (c : Dev nD) (t : Fin cfg0.N) : sProp 𝕄 :=
  iprop((dats V c).Φ t.succ ∗ (dats V c).owesAt () t.succ
    ∗ (dats V c).leavesExact 0 t
    ∗ (dats V c).leavesExact 1 t
    ∗ (dats V c).leavesExact 2 t
    ∗ (dats V c).leavesExact 3 t
    ∗ (dats V c).leavesExact 4 t
    ∗ (dats V c).leavesExact 5 t
    ∗ (dats V c).leavesExact 6 t
    ∗ (dats V c).leavesExact 7 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dats V c).owesAt () t.succ = (dats V c).owesAt () t.castSucc from rfl]
  rw [show (dats V c).Φ t.succ = PhiS V c (t.val + 1) t.isLt from rfl, PhiS_succ]
  have hN : t.val < 64 := lt_of_lt_of_eq t.isLt (show cfg0.N = 64 from N_0)
  rw [show (dats V c).leavesExact 0 t = owns (c : Thread nD τ) (ms0_0 t) fullShare ((dats V c).after 0 t) from by
    unfold Dat.leavesExact; rw [liveAt0_0 t], after0_0]
  rw [show (dats V c).leavesExact 1 t = owns (c : Thread nD τ) (ms0_1 t) fullShare ((dats V c).after 1 t) from by
    unfold Dat.leavesExact; rw [liveAt0_1 t], after0_1]
  rw [show (dats V c).leavesExact 2 t = owns (c : Thread nD τ) (ms0_2 t) fullShare ((dats V c).after 2 t) from by
    unfold Dat.leavesExact; rw [liveAt0_2 t], after0_2]
  rw [show (dats V c).leavesExact 3 t = owns (c : Thread nD τ) (ms0_3 t) fullShare ((dats V c).after 3 t) from by
    unfold Dat.leavesExact; rw [liveAt0_3 t], after0_3]
  rw [show (dats V c).leavesExact 4 t = owns (c : Thread nD τ) (ms0_4 t) fullShare ((dats V c).after 4 t) from by
    unfold Dat.leavesExact; rw [liveAt0_4 t], after0_4]
  rw [show (dats V c).leavesExact 5 t = owns (c : Thread nD τ) (ms0_5 t) fullShare ((dats V c).after 5 t) from by
    unfold Dat.leavesExact; rw [liveAt0_5 t], after0_5]
  by_cases h0 : t.val % 8 = 0
  · have h1 : ¬t.val % 8 = 7 := by omega
    rw [Dat.leavesExact_idle (dats V c) 6 t (idleAt0_6 t (fun h => h1 ((hcond0_1 t).mp h))) (noFlush0_6 t (fun h => h1 ((hcond0_1 t).mp h)))]
    rw [Dat.leavesExact_idle (dats V c) 7 t (idleAt0_7 t (fun h => h1 ((hcond0_1 t).mp h))) (noFlush0_7 t (fun h => h1 ((hcond0_1 t).mp h)))]
    rw [outsAt0_A V c t h0 h1]
    unfold sout0_A_0 sout0_A_1; (try dsimp only)
    by_cases hz : t.val = 0
    · rw [PhiS_castSucc V c t, PhiS_zero V c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t) (iblk V c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS_castSucc V c t, PhiS_pos V c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t) (iblk V c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := by omega
    by_cases h1 : t.val % 8 = 7
    · rw [show (dats V c).leavesExact 6 t = owns (c : Thread nD τ) (ms0_6 t) fullShare ((dats V c).after 6 t) from by
        unfold Dat.leavesExact; rw [liveAt0_6 t ((hcond0_1 t).mpr h1)], after0_6]
      rw [show (dats V c).leavesExact 7 t = owns (c : Thread nD τ) (ms0_7 t) fullShare ((dats V c).after 7 t) from by
        unfold Dat.leavesExact; rw [liveAt0_7 t ((hcond0_1 t).mpr h1)], after0_7]
      rw [outsAt0_C V c t h0 h1]
      unfold out0_C_6 out0_C_7 sout0_C_0 sout0_C_1; (try dsimp only)
      rw [PhiS_castSucc V c t, PhiS_pos V c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) (iblk V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _ _)
        unfold owns; iexists _; isplitr
        swap; · iexact HS1
        ipureintro; exact View.read_writes_of_cover _ _ _ _ _ (scover0_C_1 c _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _ _)
    · rw [Dat.leavesExact_idle (dats V c) 6 t (idleAt0_6 t (fun h => h1 ((hcond0_1 t).mp h))) (noFlush0_6 t (fun h => h1 ((hcond0_1 t).mp h)))]
      rw [Dat.leavesExact_idle (dats V c) 7 t (idleAt0_7 t (fun h => h1 ((hcond0_1 t).mp h))) (noFlush0_7 t (fun h => h1 ((hcond0_1 t).mp h)))]
      rw [outsAt0_B V c t h0 h1]
      unfold sout0_B_0 sout0_B_1; (try dsimp only)
      rw [PhiS_castSucc V c t, PhiS_pos V c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk V c 0 t) (iblk V c 1 t) (iblk V c 2 t) (iblk V c 3 t) (iblk V c 4 t) (iblk V c 5 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _)
        unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

theorem body_obligation (c : Dev nD) : BodyObligation (dats (F := F) V c) (defs₀ (F := F)) Variants.none () Set.univ := fun t => by
  rw [bigSep_W0, bigSep_W0]
  exact sound_body V c t

end Cert.Kernel.Hand

end
-- ==== Proof.K.Share.lean ====
/-
  One array, the normalised embeddings, is read through two windows (the row block i and the column block j). The region
  holds it at the two halves of the full share, one per window; at its two ends the halves are split off the whole buffer
  and joined again. The other five arrays are held whole.
-/
import proofs.«159163_j3478923509848_2_alg».proof.Proof.K.Frame1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- The seven buffers behind the eight windows, each whole at a valuation, are the region's arrays at any contents read
    off that valuation. -/
theorem arrays_iff (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄) ⊣⊢ (dats V c).arrays (fun w => Vv (Pipeline.arrRef spec0 w)) := by
  have hS : Finset.univ.image (Pipeline.arrRef spec0) = ([main_v52, main_v53, main_v54, main_v55, main_v56, main_v57_0, main_v57_1] : List (Ref sig .tc)).toFinset := by decide +kernel
  have hN : ([main_v52, main_v53, main_v54, main_v55, main_v56, main_v57_0, main_v57_1] : List (Ref sig .tc)).Nodup := by decide +kernel
  have hA : ((dats V c).arrays (fun w => Vv (Pipeline.arrRef spec0 w)) : sProp 𝕄)
      = bigSep Finset.univ fun w : Fin cfg0.W => (((c : Thread nD τ).loc (Pipeline.arrRef spec0 w)) ↦{(dats V c).share w} Vv (Pipeline.arrRef spec0 w) : sProp 𝕄) := by
    unfold Dat.arrays
    exact bigSep_congr fun w _ => by rw [(arr_whole0 w).set_eq_univ]
  rw [hA]
  unfold Pipeline.arrBufs
  have hL (Φ : Ref sig .tc → sProp 𝕄) : bigSep ([main_v52, main_v53, main_v54, main_v55, main_v56, main_v57_0, main_v57_1] : List (Ref sig .tc)).toFinset Φ
      = iprop(Φ main_v52 ∗ Φ main_v53 ∗ Φ main_v54 ∗ Φ main_v55 ∗ Φ main_v56 ∗ Φ main_v57_0 ∗ Φ main_v57_1) := BI.bigSep_eq_bigSepL _ hN Φ
  rw [hS, hL, bigSep_W0]
  have hsh := PosShare.mem_left_op_right fullShare
  refine ⟨?_, ?_⟩
  · iintro ⟨H52, H53, H54, H55, H56, H570, H571⟩
    ihave H := (pointsTo_share hsh).1 $$ H52
    icases H with ⟨Hl, Hr⟩
    isplitl [Hl]; · iexact Hl
    isplitl [Hr]; · iexact Hr
    isplitl [H53]; · iexact H53
    isplitl [H54]; · iexact H54
    isplitl [H55]; · iexact H55
    isplitl [H56]; · iexact H56
    isplitl [H570]; · iexact H570
    iexact H571
  · iintro ⟨Hl, Hr, H53, H54, H55, H56, H570, H571⟩
    isplitl [Hl Hr]
    · iapply (pointsTo_share hsh).2
      isplitl [Hl]; · iexact Hl
      iexact Hr
    isplitl [H53]; · iexact H53
    isplitl [H54]; · iexact H54
    isplitl [H55]; · iexact H55
    isplitl [H56]; · iexact H56
    isplitl [H570]; · iexact H570
    iexact H571

end Cert.Kernel.Hand

end
-- ==== Proof.K.Frame2.lean ====
/-
  The whole run of the program around the reduction's region: twelve stretches of host operations, the region, three more
  stretches. Between two items the core holds every unscoped buffer at a named valuation: the launch contents, then each
  stretch applied, then (after the region) the two result arrays at what the region's write-backs leave. The region takes
  its seven arrays out of that valuation (the shared one split in two halves) and puts them back.
-/
import proofs.«159163_j3478923509848_2_alg».proof.Proof.K.Share

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## No stretch allocates; every stretch writes result buffers only -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- Every buffer of the program that is no argument. -/
abbrev nonArgs : List (Ref sig .tc) := [main_cst, main_v0, main_c, main_v1, main_v2, main_v3, main_c_0, main_v4, main_v5, main_c_1, main_v6, main_v7, main_v8, main_c_2, main_v9, main_v10, main_c_3, main_v11, main_v12, main_v13, main_v14, main_v15, main_v16, main_v17, main_v18, main_cst_4, main_v19, main_v20, main_cst_5, main_call0_v0, main_call0_v1, main_v21, main_cst_6, main_v22, main_v23, main_v24, main_cst_7, main_v25, main_cst_8, main_v26, main_v27, main_cst_9, main_call1_v0, main_call1_v1, main_v28, main_call2_cst, main_call2_v0, main_call2_cst_0, main_call2_v1, main_call2_v2, main_call2_v3, main_call2_v4, main_call2_v5, main_call2_v6, main_call2_cst_1, main_call2_v7, main_call2_v8, main_call2_v9, main_call2_v10, main_v29, main_cst_10, main_v30, main_v31, main_cst_11, main_call3_v0, main_call3_v1, main_v32, main_cst_12, main_v33, main_v34, main_cst_13, main_v35, main_v36, main_v37, main_v38, main_c_14, main_v39, main_c_15, main_v40, main_cst_16, main_call4_v0, main_call4_v1, main_v41, main_cst_17, main_v42, main_v43, main_v44, main_cst_18, main_v45, main_cst_19, main_v46, main_call5_v0, main_call5_cst, main_call5_v1, main_call5_v2, main_v47, main_cst_20, main_v48, main_v49, main_v50, main_v51, main_v52, main_v53, main_v54, main_v55, main_v56, main_v57_0, main_v57_1, main_v58, main_v59, main_cst_21, main_v60, main_v61, main_v62, main_cst_22, main_v63, main_cst_23, main_v64, main_v65, main_cst_24, main_v66, main_v67, main_cst_25, main_v68, main_v69, main_v70, main_v71, main_cst_26, main_v72, main_v73, main_v74, main_v75, main_v76, main_cst_27, main_v77, main_v78, main_v79, main_cst_28, main_v80, main_v81, main_v82, main_v83, main_v84, main_v85, main_v86, main_v87, main_v88, main_v89, main_c_29, main_v90, main_c_30, main_v91, main_cst_31, main_call6_v0, main_call6_v1, main_v92, main_cst_32, main_v93, main_v94, main_v95, main_cst_33, main_v96, main_v97]

set_option maxRecDepth 65536 in
theorem hostOps0_writes : (hostOps0 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_1_writes : (hostOps0_1 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_2_writes : (hostOps0_2 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_3_writes : (hostOps0_3 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_4_writes : (hostOps0_4 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_5_writes : (hostOps0_5 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_6_writes : (hostOps0_6 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_7_writes : (hostOps0_7 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_8_writes : (hostOps0_8 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_9_writes : (hostOps0_9 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_10_writes : (hostOps0_10 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_11_writes : (hostOps0_11 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps1_writes : (hostOps1 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps1_1_writes : (hostOps1_1 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps1_2_writes : (hostOps1_2 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## The buffers' contents between items -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
abbrev W9 : Dev nD → Valuation τ sig (Elt F) := fun c => StableHlo.after hostOps0_8 (W8 m ρ c)
abbrev W10 : Dev nD → Valuation τ sig (Elt F) := fun c => StableHlo.after hostOps0_9 (W9 m ρ c)
abbrev W11 : Dev nD → Valuation τ sig (Elt F) := fun c => StableHlo.after hostOps0_10 (W10 m ρ c)
abbrev W12 : Dev nD → Valuation τ sig (Elt F) := fun c => StableHlo.after hostOps0_11 (W11 m ρ c)
/-- The contents the region is entered from, read at a reference. -/
abbrev V12 : (c : Dev nD) → (b : Ref sig .tc) → Buf (Elt F) ((c : Thread nD τ).loc b) := fun c b => W12 m ρ c b
/-- After the region: the two result arrays at what the write-backs leave, everything else as entered. -/
def W13 (c : Dev nD) : Valuation τ sig (Elt F) :=
  Function.update (Function.update (W12 m ρ c) (Proc.devRef .tc main_v57_0) ((dats (V12 m ρ) c).arrAt 6 cfg0.N))
    (Proc.devRef .tc main_v57_1) ((dats (V12 m ρ) c).arrAt 7 cfg0.N)
abbrev V13 : (c : Dev nD) → (b : Ref sig .tc) → Buf (Elt F) ((c : Thread nD τ).loc b) := fun c b => W13 m ρ c b
abbrev W14 : Dev nD → Valuation τ sig (Elt F) := fun c => StableHlo.after hostOps1 (W13 m ρ c)
abbrev W15 : Dev nD → Valuation τ sig (Elt F) := fun c => StableHlo.after hostOps1_1 (W14 m ρ c)
abbrev W16 : Dev nD → Valuation τ sig (Elt F) := fun c => StableHlo.after hostOps1_2 (W15 m ρ c)

theorem W13_out0 (c : Dev nD) : W13 m ρ c (Proc.devRef .tc main_v57_0) = (dats (V12 m ρ) c).arrAt 6 cfg0.N := by
  unfold W13
  rw [Function.update_of_ne (StableHlo.devRef_ne_of_ne (by decide)), Function.update_self]
theorem W13_out1 (c : Dev nD) : W13 m ρ c (Proc.devRef .tc main_v57_1) = (dats (V12 m ρ) c).arrAt 7 cfg0.N := by
  unfold W13
  rw [Function.update_self]
theorem W13_of_ne (c : Dev nD) (b : Ref sig .tc) (h0 : b ≠ main_v57_0) (h1 : b ≠ main_v57_1) :
    W13 m ρ c (Proc.devRef .tc b) = W12 m ρ c (Proc.devRef .tc b) := by
  unfold W13
  rw [Function.update_of_ne (StableHlo.devRef_ne_of_ne h1), Function.update_of_ne (StableHlo.devRef_ne_of_ne h0)]

/-- An argument keeps its launch contents to the end: no stretch writes it and the region writes its two results only. -/
theorem W16_arg (c : Dev nD) (b : Ref sig .tc) (hb : b ∉ nonArgs) :
    W16 m ρ c (Proc.devRef .tc b) = m ((c : Thread nD τ).loc b) := by
  have h0 : b ≠ main_v57_0 := fun e => hb (e ▸ by decide)
  have h1 : b ≠ main_v57_1 := fun e => hb (e ▸ by decide)
  rw [show W16 m ρ c = StableHlo.after hostOps1_2 (W15 m ρ c) from rfl, StableHlo.after_of_writes_sub hostOps1_2 _ hostOps1_2_writes hb,
    show W15 m ρ c = StableHlo.after hostOps1_1 (W14 m ρ c) from rfl, StableHlo.after_of_writes_sub hostOps1_1 _ hostOps1_1_writes hb,
    show W14 m ρ c = StableHlo.after hostOps1 (W13 m ρ c) from rfl, StableHlo.after_of_writes_sub hostOps1 _ hostOps1_writes hb,
    W13_of_ne m ρ c b h0 h1,
    show W12 m ρ c = StableHlo.after hostOps0_11 (W11 m ρ c) from rfl, StableHlo.after_of_writes_sub hostOps0_11 _ hostOps0_11_writes hb,
    show W11 m ρ c = StableHlo.after hostOps0_10 (W10 m ρ c) from rfl, StableHlo.after_of_writes_sub hostOps0_10 _ hostOps0_10_writes hb,
    show W10 m ρ c = StableHlo.after hostOps0_9 (W9 m ρ c) from rfl, StableHlo.after_of_writes_sub hostOps0_9 _ hostOps0_9_writes hb,
    show W9 m ρ c = StableHlo.after hostOps0_8 (W8 m ρ c) from rfl, StableHlo.after_of_writes_sub hostOps0_8 _ hostOps0_8_writes hb,
    show W8 m ρ c = StableHlo.after hostOps0_7 (W7 m ρ c) from rfl, StableHlo.after_of_writes_sub hostOps0_7 _ hostOps0_7_writes hb,
    show W7 m ρ c = StableHlo.after hostOps0_6 (W6 m ρ c) from rfl, StableHlo.after_of_writes_sub hostOps0_6 _ hostOps0_6_writes hb,
    show W6 m ρ c = StableHlo.after hostOps0_5 (W5 m ρ c) from rfl, StableHlo.after_of_writes_sub hostOps0_5 _ hostOps0_5_writes hb,
    show W5 m ρ c = StableHlo.after hostOps0_4 (W4 m ρ c) from rfl, StableHlo.after_of_writes_sub hostOps0_4 _ hostOps0_4_writes hb,
    show W4 m ρ c = StableHlo.after hostOps0_3 (W3 m ρ c) from rfl, StableHlo.after_of_writes_sub hostOps0_3 _ hostOps0_3_writes hb,
    show W3 m ρ c = StableHlo.after hostOps0_2 (W2 m ρ c) from rfl, StableHlo.after_of_writes_sub hostOps0_2 _ hostOps0_2_writes hb,
    show W2 m ρ c = StableHlo.after hostOps0_1 (W1 m ρ c) from rfl, StableHlo.after_of_writes_sub hostOps0_1 _ hostOps0_1_writes hb,
    show W1 m ρ c = StableHlo.after hostOps0 (W0 m ρ c) from rfl, StableHlo.after_of_writes_sub hostOps0 _ hostOps0_writes hb]

/-! ## The thread state and the segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dats (V12 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W16 m ρ c) ∗ ∃ r, prngReg c r)

/-- The exit contents at each window's array are what the region leaves there. -/
theorem hF13_0 (c : Dev nD) : (dats (V12 m ρ) c).arrAt 0 cfg0.N = V13 m ρ c (Pipeline.arrRef spec0 0) :=
  ((dats (V12 m ρ) c).arrAt_in 0 rfl cfg0.N).trans ((A_eq (V12 m ρ) c 0).trans (W13_of_ne m ρ c main_v52 (by decide) (by decide)).symm)
theorem hF13_1 (c : Dev nD) : (dats (V12 m ρ) c).arrAt 1 cfg0.N = V13 m ρ c (Pipeline.arrRef spec0 1) :=
  ((dats (V12 m ρ) c).arrAt_in 1 rfl cfg0.N).trans ((A_eq (V12 m ρ) c 1).trans (W13_of_ne m ρ c main_v52 (by decide) (by decide)).symm)
theorem hF13_2 (c : Dev nD) : (dats (V12 m ρ) c).arrAt 2 cfg0.N = V13 m ρ c (Pipeline.arrRef spec0 2) :=
  ((dats (V12 m ρ) c).arrAt_in 2 rfl cfg0.N).trans ((A_eq (V12 m ρ) c 2).trans (W13_of_ne m ρ c main_v53 (by decide) (by decide)).symm)
theorem hF13_3 (c : Dev nD) : (dats (V12 m ρ) c).arrAt 3 cfg0.N = V13 m ρ c (Pipeline.arrRef spec0 3) :=
  ((dats (V12 m ρ) c).arrAt_in 3 rfl cfg0.N).trans ((A_eq (V12 m ρ) c 3).trans (W13_of_ne m ρ c main_v54 (by decide) (by decide)).symm)
theorem hF13_4 (c : Dev nD) : (dats (V12 m ρ) c).arrAt 4 cfg0.N = V13 m ρ c (Pipeline.arrRef spec0 4) :=
  ((dats (V12 m ρ) c).arrAt_in 4 rfl cfg0.N).trans ((A_eq (V12 m ρ) c 4).trans (W13_of_ne m ρ c main_v55 (by decide) (by decide)).symm)
theorem hF13_5 (c : Dev nD) : (dats (V12 m ρ) c).arrAt 5 cfg0.N = V13 m ρ c (Pipeline.arrRef spec0 5) :=
  ((dats (V12 m ρ) c).arrAt_in 5 rfl cfg0.N).trans ((A_eq (V12 m ρ) c 5).trans (W13_of_ne m ρ c main_v56 (by decide) (by decide)).symm)
theorem hF13_6 (c : Dev nD) : (dats (V12 m ρ) c).arrAt 6 cfg0.N = V13 m ρ c (Pipeline.arrRef spec0 6) := (W13_out0 m ρ c).symm
theorem hF13_7 (c : Dev nD) : (dats (V12 m ρ) c).arrAt 7 cfg0.N = V13 m ρ c (Pipeline.arrRef spec0 7) := (W13_out1 m ρ c).symm
theorem hF13 (c : Dev nD) : ∀ w : Fin cfg0.W, (dats (V12 m ρ) c).arrAt w cfg0.N = V13 m ρ c (Pipeline.arrRef spec0 w) := by
  have h : ∀ w : Fin 8, (dats (V12 m ρ) c).arrAt w cfg0.N = V13 m ρ c (Pipeline.arrRef spec0 w) := by
    intro w
    fin_cases w
    · exact hF13_0 m ρ c
    · exact hF13_1 m ρ c
    · exact hF13_2 m ρ c
    · exact hF13_3 m ρ c
    · exact hF13_4 m ρ c
    · exact hF13_5 m ρ c
    · exact hF13_6 m ρ c
    · exact hF13_7 m ρ c
  exact h
/-- After any point but the first the invariant gives the two accumulators back at some contents. -/
theorem Phi_out (c : Dev nD) (t : Fin (cfg0.N + 1)) (ht : t.val ≠ 0) :
    (dats (V12 m ρ) c).Φ t ⊢ (iprop((∃ d, owns (c : Thread nD τ) scM0_0 fullShare d) ∗ (∃ d, owns (c : Thread nD τ) scM0_1 fullShare d)) : sProp 𝕄) := by
  rw [show (dats (V12 m ρ) c).Φ t = PhiS (V12 m ρ) c t.val (Nat.le_of_lt_succ t.isLt) from rfl, PhiS_pos (V12 m ρ) c _ _ ht]
  iintro ⟨HS0, HS1⟩
  isplitl [HS0]; · iexists _; iexact HS0
  iexists _; iexact HS1
theorem hrest13 (c : Dev nD) : ∀ b, b ∉ Finset.univ.image (Pipeline.arrRef spec0) → V13 m ρ c b = V12 m ρ c b :=
  fun b hb => W13_of_ne m ρ c b (fun e => hb (Finset.mem_image.mpr ⟨6, Finset.mem_univ _, e.symm⟩)) (fun e => hb (Finset.mem_image.mpr ⟨7, Finset.mem_univ _, e.symm⟩))

set_option backward.isDefEq.respectTransparency.types false in
/-- The region over the thread state. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V12 m ρ) c).loose
  hwaits := Pipeline.hwaits_of_owed_zero _ _ _ _ L lv 0 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(emp)
  Y c := iprop(emp)
  Z c := iprop(Pipeline.unscopedRest (Ix := Unit) (Name := ℕ) (U := UR sig nD τ) (Lvl := ℕ) spec0 c (V12 m ρ c) ∗ ∃ r, prngReg c r)
  hentry c := by
    rw [Pipeline.ownSems0_none, ← Pipeline.unscopedBufs_held (Ix := Unit) (Name := ℕ) (U := UR sig nD τ) (Lvl := ℕ) c (W12 m ρ c),
      Pipeline.unscopedBufs_split₀ cfgs 0 winFacts₀0.arr_unscoped c (V12 m ρ c),
      show ((pdats m ρ 0 c).arrAt · 0) = (fun w => V12 m ρ c (Pipeline.arrRef spec0 w)) from funext fun w => A_eq (V12 m ρ) c w]
    iintro ⟨⟨⟨Harr, Hrest⟩, Hp, HO⟩, -, -⟩
    have hs : (Pipeline.arrBufs (Ix := Unit) (Name := ℕ) (U := UR sig nD τ) (Lvl := ℕ) spec0 c (V12 m ρ c) : sProp 𝕄)
        ⊢ (pdats m ρ 0 c).arrays (fun w => V12 m ρ c (Pipeline.arrRef spec0 w)) := (arrays_iff (V12 m ρ) c (V12 m ρ c)).1
    ihave Ha := hs $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = PhiS (V12 m ρ) c 0 (Nat.zero_le _) from rfl, PhiS_zero (V12 m ρ) c 0 _ rfl, scoped_eq]
    iintro ⟨-, -, Hr⟩
    iexact Hr
  hout c := by
    rw [Pipeline.ownSems0_none, scoped_eq]
    refine (show (pdats m ρ 0 c).Φ (Fin.last _) ⊢ _ from Phi_out m ρ c (Fin.last cfg0.N) (by rw [Fin.val_last]; have : cfg0.N = 64 := N_0; omega)).trans ?_
    iintro ⟨HS0, HS1⟩
    isplitr; · iempintro
    isplitr; · iempintro
    isplitl [HS0]; · iexact HS0
    iexact HS1
  hexit c := by
    rw [← Pipeline.unscopedBufs_held (Ix := Unit) (Name := ℕ) (U := UR sig nD τ) (Lvl := ℕ) c (W13 m ρ c),
      Pipeline.unscopedBufs_split₀ cfgs 0 winFacts₀0.arr_unscoped c (V13 m ρ c),
      show ((pdats m ρ 0 c).arrAt · cfg0.N) = (fun w => V13 m ρ c (Pipeline.arrRef spec0 w)) from funext fun w => hF13 m ρ c w]
    have hrest : (Pipeline.unscopedRest (Ix := Unit) (Name := ℕ) (U := UR sig nD τ) (Lvl := ℕ) spec0 c (V12 m ρ c) : sProp 𝕄)
        = Pipeline.unscopedRest spec0 c (V13 m ρ c) := by
      unfold Pipeline.unscopedRest
      exact bigSep_congr fun b hb => by rw [hrest13 m ρ c b (Finset.mem_sdiff.mp hb).2]
    iintro ⟨Ha, HO, -, ⟨Hrest, Hp⟩⟩
    have hj : ((pdats m ρ 0 c).arrays (fun w => V13 m ρ c (Pipeline.arrRef spec0 w)) : sProp 𝕄)
        ⊢ Pipeline.arrBufs (Ix := Unit) (Name := ℕ) (U := UR sig nD τ) (Lvl := ℕ) spec0 c (V13 m ρ c) := (arrays_iff (V12 m ρ) c (V13 m ρ c)).2
    ihave Harr := hj $$ Ha
    imodintro
    isplitl [Harr Hrest]
    · isplitl [Harr]; · iexact Harr
      rw [← hrest]; iexact Hrest
    isplitl [Hp]; · iexact Hp
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .region (reg0 m ρ),
    .host (hseg hostOps1 hostOps1_sub hostOps1_fresh (W13 m ρ)),
    .host (hseg hostOps1_1 hostOps1_1_sub hostOps1_1_fresh (W14 m ρ)),
    .host (hseg hostOps1_2 hostOps1_2_sub hostOps1_2_fresh (W15 m ρ)) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and every
    final state holds each unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W16 m ρ c) ∗ (∃ r, prngReg c r) ∗ ∃ W, owes (c : Thread nD τ) (0 : CellTallies nD τ sig Unit) W) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_arg0 (by decide))).trans (W16_arg m ρ c main_arg0 (by decide)),
    (h c _ (mem_uc main_arg1 (by decide))).trans (W16_arg m ρ c main_arg1 (by decide)),
    (h c _ (mem_uc main_arg2 (by decide))).trans (W16_arg m ρ c main_arg2 (by decide)),
    (h c _ (mem_uc main_arg3 (by decide))).trans (W16_arg m ρ c main_arg3 (by decide)),
    (h c _ (mem_uc main_arg4 (by decide))).trans (W16_arg m ρ c main_arg4 (by decide)),
    (h c _ (mem_uc main_arg5 (by decide))).trans (W16_arg m ρ c main_arg5 (by decide)),
    (h c _ (mem_uc main_arg6 (by decide))).trans (W16_arg m ρ c main_arg6 (by decide))⟩) (run_all m ρ)

end Cert.Kernel.Hand

end
-- ==== Proof.KI.Base.lean ====
/-
  The kernel body of the pairwise-repulsion reduction, case by case. The grid is 8 x 8; at the point (i, j) the body
  resets its two accumulators when j = 0, adds the block's masked penalty sum and the block's pair count to them, and
  copies them into the two output blocks when j = 7. This module fixes the two branch conditions in closed form over the
  64 points and says at which points the output blocks are left untouched.
-/
import proofs.«159163_j3478923509848_2_alg».proof.Proof.Gen.KernelIdeal.Launch
import proofs.«159163_j3478923509848_2_alg».proof.Proof.Gen.KernelIdeal.Skeleton
import proofs.«159163_j3478923509848_2_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch: the column coordinate j is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The second branch: the column coordinate j is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The six input blocks are read at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from j = 7 the two output blocks are neither stored nor written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At j = 7 they are stored. -/
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

/-- One buffer of each output window and the two accumulators, as views through which contents are stated. -/
abbrev VO0_6 : View sig .tc .vmem S1x8x128 .f32 := (Memref.whole cc0_stg6_0 : Memref sig .tc .vmem S1x8x128 .f32).view
abbrev VO0_7 : View sig .tc .vmem S1x8x128 .f32 := (Memref.whole cc0_stg7_0 : Memref sig .tc .vmem S1x8x128 .f32).view
abbrev scM0_0 : Memref sig .tc .vmem S8x128 .f32 := Memref.whole cc0_scratch0
abbrev scM0_1 : Memref sig .tc .vmem S8x128 .f32 := Memref.whole cc0_scratch1
abbrev VS0_0 : View sig .tc .vmem S8x128 .f32 := scM0_0.view
abbrev VS0_1 : View sig .tc .vmem S8x128 .f32 := scM0_1.view

/-- Each window's current buffer at a point. -/
abbrev ms0_0 (t : Fin cfg0.N) : Memref sig .tc .vmem S1024x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x128 .f32 := win0_7.stage (cfg0.slots t 7)
abbrev hs0_7 (t : Fin cfg0.N) : (ms0_7 t).IsWhole := hstage0_7 ((cfg0.slots t 7).cast nbuf0_7)

/-- What the region's invariant holds besides the windows: the two accumulators, each at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.KernelIdeal.Hand

end
-- ==== Proof.KI.RunA.lean ====
/-
  The kernel body run at a point with j = 0: both accumulators are reset, then the block's sums are added; nothing is copied out. The pieces the run leaves in
  each buffer it stores into are found by the run itself; what they read back as is stated in the next modules.
-/
import proofs.«159163_j3478923509848_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i)
    (x0 : Vec F S1024x768 .bf16) (x1 : Vec F S1024x768 .bf16) (x2 : Vec F S1024x1 .i32) (x3 : Vec F S1024x1 .i32) (x4 : Vec F S1x1024 .i32) (x5 : Vec F S1x1024 .i32) :
    Σ' (L6 : List (View.Piece (Elt F) S1x8x128 .f32)) (L7 : List (View.Piece (Elt F) S1x8x128 .f32)) (LS0 : List (View.Piece (Elt F) S8x128 .f32)), { LS1 : List (View.Piece (Elt F) S8x128 .f32) //
      ∀ (xi6 : Vec F S1x8x128 .f32) (xi7 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__repulsion_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0__repulsion_kernel_eq_skeleton]; unfold cc0__repulsion_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Hand

end
-- ==== Proof.KI.RunB.lean ====
/-
  The kernel body run at a point with 0 < j < 7: the block's sums are added to the accumulators; nothing is reset, nothing copied out. The pieces the run leaves in
  each buffer it stores into are found by the run itself; what they read back as is stated in the next modules.
-/
import proofs.«159163_j3478923509848_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i)
    (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) :
    Σ' (L6 : List (View.Piece (Elt F) S1x8x128 .f32)) (L7 : List (View.Piece (Elt F) S1x8x128 .f32)) (LS0 : List (View.Piece (Elt F) S8x128 .f32)), { LS1 : List (View.Piece (Elt F) S8x128 .f32) //
      ∀ (xi6 : Vec F S1x8x128 .f32) (xi7 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__repulsion_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0__repulsion_kernel_eq_skeleton]; unfold cc0__repulsion_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Hand

end
-- ==== Proof.KI.RunC.lean ====
/-
  The kernel body run at a point with j = 7: the block's sums are added and the accumulators are copied into the two output blocks. The pieces the run leaves in
  each buffer it stores into are found by the run itself; what they read back as is stated in the next modules.
-/
import proofs.«159163_j3478923509848_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i)
    (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) :
    Σ' (L6 : List (View.Piece (Elt F) S1x8x128 .f32)) (L7 : List (View.Piece (Elt F) S1x8x128 .f32)) (LS0 : List (View.Piece (Elt F) S8x128 .f32)), { LS1 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__repulsion_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__repulsion_kernel_eq_skeleton]; unfold cc0__repulsion_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.Hand

end
-- ==== Proof.KI.Frame1.lean ====
/-
  The proof data of the reduction's region. After the body at the point t = 8 i + j each input buffer still holds its block;
  the two accumulators hold what the case of j leaves in them over what the point before left (nothing carried at j = 0,
  where they are reset first); the two output blocks are stored only at j = 7 and are handed back untouched elsewhere.
  `outsAt0` is that recursion on the point, and the body obligation is the run of the point's case.
-/
import proofs.«159163_j3478923509848_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- What the accumulators hold after a point of case A: the run's pieces read back. -/
theorem scover0_A_0 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (y : S8x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.1 S8x128.size (by sl_kernel_rfl) y
theorem scover0_A_1 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (y : S8x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.2.1 S8x128.size (by sl_kernel_rfl) y
def sout0_A_0 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) : Vec F S8x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).2.2.1)
def sout0_A_1 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) : Vec F S8x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.2.2.1)

/-- What the accumulators hold after a point of case B: the run's pieces read back. -/
theorem scover0_B_0 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) (y : S8x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1 S8x128.size (by sl_kernel_rfl) y
theorem scover0_B_1 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) (y : S8x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S8x128.size (by sl_kernel_rfl) y
def sout0_B_0 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) : Vec F S8x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1)
def sout0_B_1 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) : Vec F S8x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- What the accumulators hold after a point of case C: the run's pieces read back. -/
theorem scover0_C_0 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) (y : S8x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S8x128.size (by sl_kernel_rfl) y
theorem scover0_C_1 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) (y : S8x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S8x128.size (by sl_kernel_rfl) y
def sout0_C_0 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) : Vec F S8x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1)
def sout0_C_1 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) : Vec F S8x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- What the two output blocks hold after a point of case C. -/
theorem cover0_C_6 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) (y : S1x8x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1 S1x8x128.size (by sl_kernel_rfl) y
theorem cover0_C_7 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) (y : S1x8x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1 S1x8x128.size (by sl_kernel_rfl) y
def out0_C_6 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) : Vec F S1x8x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1)
def out0_C_7 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 : Vec F S8x128 .f32) (xs1 : Vec F S8x128 .f32) : Vec F S1x8x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- What the two output blocks and the two accumulators hold after the body at position n. -/
def outsAt0 (c : Dev nD) : (n : ℕ) → n < cfg0.N → Vec F S1x8x128 .f32 × Vec F S1x8x128 .f32 × Vec F S8x128 .f32 × Vec F S8x128 .f32
  | 0, hn => (VO0_6.read (Elt F) VO0_6.junk, VO0_7.read (Elt F) VO0_7.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 8 = 0 then
      if h1 : (n + 1) % 8 = 7 then
        False.elim (by omega)
      else
        (VO0_6.read (Elt F) VO0_6.junk, VO0_7.read (Elt F) VO0_7.junk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.1 (outsAt0 c n (Nat.lt_of_succ_lt hn)).2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.1 (outsAt0 c n (Nat.lt_of_succ_lt hn)).2.2.2)
      else
        (VO0_6.read (Elt F) VO0_6.junk, VO0_7.read (Elt F) VO0_7.junk, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 V c t.val t.isLt = (VO0_6.read (Elt F) VO0_6.junk, VO0_7.read (Elt F) VO0_7.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk V c 0 t) (iblk V c 1 t) (iblk V c 2 t) (iblk V c 3 t) (iblk V c 4 t) (iblk V c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans ((dif_neg h1).trans rfl)
theorem outsAt0_B (c : Dev nD) (t : Fin cfg0.N) (h0 : ¬t.val % 8 = 0) (h1 : ¬t.val % 8 = 7) :
    outsAt0 V c t.val t.isLt = (VO0_6.read (Elt F) VO0_6.junk, VO0_7.read (Elt F) VO0_7.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 8 = 0) (h1 : t.val % 8 = 7) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: the accumulators at anything before the first point, afterwards at what
    the point before left. -/
def PhiS (c : Dev nD) : (n : ℕ) → n ≤ cfg0.N → sProp 𝕄
  | 0, _ => iprop((∃ d, owns (c : Thread nD τ) scM0_0 fullShare d) ∗ (∃ d, owns (c : Thread nD τ) scM0_1 fullShare d))
  | n + 1, hn => iprop(owns (c : Thread nD τ) scM0_0 fullShare ((outsAt0 V c n hn).2.2.1) ∗ owns (c : Thread nD τ) scM0_1 fullShare ((outsAt0 V c n hn).2.2.2))

theorem PhiS_zero (c : Dev nD) (n : ℕ) (h : n ≤ cfg0.N) (hz : n = 0) :
    PhiS V c n h = iprop((∃ d, owns (c : Thread nD τ) scM0_0 fullShare d) ∗ (∃ d, owns (c : Thread nD τ) scM0_1 fullShare d)) := by
  subst hz; rfl
theorem PhiS_succ (c : Dev nD) (n : ℕ) (hn : n < cfg0.N) :
    PhiS V c (n + 1) hn = iprop(owns (c : Thread nD τ) scM0_0 fullShare ((outsAt0 V c n hn).2.2.1) ∗ owns (c : Thread nD τ) scM0_1 fullShare ((outsAt0 V c n hn).2.2.2)) := rfl
theorem PhiS_pos (c : Dev nD) (n : ℕ) (h : n ≤ cfg0.N) (hz : n ≠ 0) :
    PhiS V c n h = iprop(owns (c : Thread nD τ) scM0_0 fullShare ((outsAt0 V c (n - 1) (by omega)).2.2.1) ∗ owns (c : Thread nD τ) scM0_1 fullShare ((outsAt0 V c (n - 1) (by omega)).2.2.2)) := by
  cases n with
  | zero => exact absurd rfl hz
  | succ n => rfl

/-- The proof data: the arrays as the region finds them; the two windows that read the one normalised-embedding array
    hold it at the two halves of the full share. -/
def dats (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt0 V c t.val t.isLt).1
    | ⟨7, _⟩ => (outsAt0 V c t.val t.isLt).2.1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats V c).A w = V c (Pipeline.arrRef spec0 w) := by
  dsimp only [dats]
theorem PhiS_castSucc (c : Dev nD) (t : Fin cfg0.N) :
    (dats V c).Φ t.castSucc = PhiS V c t.val (Nat.le_of_lt t.isLt) := by
  dsimp only [dats]; simp only [Fin.coe_castSucc]
theorem after0_0 (c : Dev nD) (t : Fin cfg0.N) : (dats V c).after 0 t = iblk V c 0 t := by dsimp only [dats]
theorem after0_1 (c : Dev nD) (t : Fin cfg0.N) : (dats V c).after 1 t = iblk V c 1 t := by dsimp only [dats]
theorem after0_2 (c : Dev nD) (t : Fin cfg0.N) : (dats V c).after 2 t = iblk V c 2 t := by dsimp only [dats]
theorem after0_3 (c : Dev nD) (t : Fin cfg0.N) : (dats V c).after 3 t = iblk V c 3 t := by dsimp only [dats]
theorem after0_4 (c : Dev nD) (t : Fin cfg0.N) : (dats V c).after 4 t = iblk V c 4 t := by dsimp only [dats]
theorem after0_5 (c : Dev nD) (t : Fin cfg0.N) : (dats V c).after 5 t = iblk V c 5 t := by dsimp only [dats]
theorem after0_6 (c : Dev nD) (t : Fin cfg0.N) : (dats V c).after 6 t = (outsAt0 V c t.val t.isLt).1 := by dsimp only [dats]
theorem after0_7 (c : Dev nD) (t : Fin cfg0.N) : (dats V c).after 7 t = (outsAt0 V c t.val t.isLt).2.1 := by dsimp only [dats]
theorem before0_0 (c : Dev nD) (t : Fin cfg0.N) (d) : (dats V c).before 0 t d = iblk V c 0 t :=
  before0_0_of V (dats V c) (A_eq V c 0) (after0_0 V c) t d
theorem before0_1 (c : Dev nD) (t : Fin cfg0.N) (d) : (dats V c).before 1 t d = iblk V c 1 t :=
  before0_1_of V (dats V c) (A_eq V c 1) (after0_1 V c) t d
theorem before0_2 (c : Dev nD) (t : Fin cfg0.N) (d) : (dats V c).before 2 t d = iblk V c 2 t :=
  before0_2_of V (dats V c) (A_eq V c 2) (after0_2 V c) t d
theorem before0_3 (c : Dev nD) (t : Fin cfg0.N) (d) : (dats V c).before 3 t d = iblk V c 3 t :=
  before0_3_of V (dats V c) (A_eq V c 3) (after0_3 V c) t d
theorem before0_4 (c : Dev nD) (t : Fin cfg0.N) (d) : (dats V c).before 4 t d = iblk V c 4 t :=
  before0_4_of V (dats V c) (A_eq V c 4) (after0_4 V c) t d
theorem before0_5 (c : Dev nD) (t : Fin cfg0.N) (d) : (dats V c).before 5 t d = iblk V c 5 t :=
  before0_5_of V (dats V c) (A_eq V c 5) (after0_5 V c) t d

def bodyPre (c : Dev nD) (t : Fin cfg0.N) : sProp 𝕄 :=
  iprop((dats V c).Φ t.castSucc ∗ (dats V c).owesAt () t.castSucc
    ∗ (∃ d, owns (c : Thread nD τ) (ms0_0 t) fullShare ((dats V c).before 0 t d))
    ∗ (∃ d, owns (c : Thread nD τ) (ms0_1 t) fullShare ((dats V c).before 1 t d))
    ∗ (∃ d, owns (c : Thread nD τ) (ms0_2 t) fullShare ((dats V c).before 2 t d))
    ∗ (∃ d, owns (c : Thread nD τ) (ms0_3 t) fullShare ((dats V c).before 3 t d))
    ∗ (∃ d, owns (c : Thread nD τ) (ms0_4 t) fullShare ((dats V c).before 4 t d))
    ∗ (∃ d, owns (c : Thread nD τ) (ms0_5 t) fullShare ((dats V c).before 5 t d))
    ∗ (∃ d, owns (c : Thread nD τ) (ms0_6 t) fullShare ((dats V c).before 6 t d))
    ∗ (∃ d, owns (c : Thread nD τ) (ms0_7 t) fullShare ((dats V c).before 7 t d)))
def bodyPost (c : Dev nD) (t : Fin cfg0.N) : sProp 𝕄 :=
  iprop((dats V c).Φ t.succ ∗ (dats V c).owesAt () t.succ
    ∗ (dats V c).leavesExact 0 t
    ∗ (dats V c).leavesExact 1 t
    ∗ (dats V c).leavesExact 2 t
    ∗ (dats V c).leavesExact 3 t
    ∗ (dats V c).leavesExact 4 t
    ∗ (dats V c).leavesExact 5 t
    ∗ (dats V c).leavesExact 6 t
    ∗ (dats V c).leavesExact 7 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dats V c).owesAt () t.succ = (dats V c).owesAt () t.castSucc from rfl]
  rw [show (dats V c).Φ t.succ = PhiS V c (t.val + 1) t.isLt from rfl, PhiS_succ]
  have hN : t.val < 64 := lt_of_lt_of_eq t.isLt (show cfg0.N = 64 from N_0)
  rw [show (dats V c).leavesExact 0 t = owns (c : Thread nD τ) (ms0_0 t) fullShare ((dats V c).after 0 t) from by
    unfold Dat.leavesExact; rw [liveAt0_0 t], after0_0]
  rw [show (dats V c).leavesExact 1 t = owns (c : Thread nD τ) (ms0_1 t) fullShare ((dats V c).after 1 t) from by
    unfold Dat.leavesExact; rw [liveAt0_1 t], after0_1]
  rw [show (dats V c).leavesExact 2 t = owns (c : Thread nD τ) (ms0_2 t) fullShare ((dats V c).after 2 t) from by
    unfold Dat.leavesExact; rw [liveAt0_2 t], after0_2]
  rw [show (dats V c).leavesExact 3 t = owns (c : Thread nD τ) (ms0_3 t) fullShare ((dats V c).after 3 t) from by
    unfold Dat.leavesExact; rw [liveAt0_3 t], after0_3]
  rw [show (dats V c).leavesExact 4 t = owns (c : Thread nD τ) (ms0_4 t) fullShare ((dats V c).after 4 t) from by
    unfold Dat.leavesExact; rw [liveAt0_4 t], after0_4]
  rw [show (dats V c).leavesExact 5 t = owns (c : Thread nD τ) (ms0_5 t) fullShare ((dats V c).after 5 t) from by
    unfold Dat.leavesExact; rw [liveAt0_5 t], after0_5]
  by_cases h0 : t.val % 8 = 0
  · have h1 : ¬t.val % 8 = 7 := by omega
    rw [Dat.leavesExact_idle (dats V c) 6 t (idleAt0_6 t (fun h => h1 ((hcond0_1 t).mp h))) (noFlush0_6 t (fun h => h1 ((hcond0_1 t).mp h)))]
    rw [Dat.leavesExact_idle (dats V c) 7 t (idleAt0_7 t (fun h => h1 ((hcond0_1 t).mp h))) (noFlush0_7 t (fun h => h1 ((hcond0_1 t).mp h)))]
    rw [outsAt0_A V c t h0 h1]
    unfold sout0_A_0 sout0_A_1; (try dsimp only)
    by_cases hz : t.val = 0
    · rw [PhiS_castSucc V c t, PhiS_zero V c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t) (iblk V c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS_castSucc V c t, PhiS_pos V c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t) (iblk V c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := by omega
    by_cases h1 : t.val % 8 = 7
    · rw [show (dats V c).leavesExact 6 t = owns (c : Thread nD τ) (ms0_6 t) fullShare ((dats V c).after 6 t) from by
        unfold Dat.leavesExact; rw [liveAt0_6 t ((hcond0_1 t).mpr h1)], after0_6]
      rw [show (dats V c).leavesExact 7 t = owns (c : Thread nD τ) (ms0_7 t) fullShare ((dats V c).after 7 t) from by
        unfold Dat.leavesExact; rw [liveAt0_7 t ((hcond0_1 t).mpr h1)], after0_7]
      rw [outsAt0_C V c t h0 h1]
      unfold out0_C_6 out0_C_7 sout0_C_0 sout0_C_1; (try dsimp only)
      rw [PhiS_castSucc V c t, PhiS_pos V c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) (iblk V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _ _)
        unfold owns; iexists _; isplitr
        swap; · iexact HS1
        ipureintro; exact View.read_writes_of_cover _ _ _ _ _ (scover0_C_1 c _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _ _)
    · rw [Dat.leavesExact_idle (dats V c) 6 t (idleAt0_6 t (fun h => h1 ((hcond0_1 t).mp h))) (noFlush0_6 t (fun h => h1 ((hcond0_1 t).mp h)))]
      rw [Dat.leavesExact_idle (dats V c) 7 t (idleAt0_7 t (fun h => h1 ((hcond0_1 t).mp h))) (noFlush0_7 t (fun h => h1 ((hcond0_1 t).mp h)))]
      rw [outsAt0_B V c t h0 h1]
      unfold sout0_B_0 sout0_B_1; (try dsimp only)
      rw [PhiS_castSucc V c t, PhiS_pos V c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk V c 0 t) (iblk V c 1 t) (iblk V c 2 t) (iblk V c 3 t) (iblk V c 4 t) (iblk V c 5 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _)
        unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

theorem body_obligation (c : Dev nD) : BodyObligation (dats (F := F) V c) (defs₀ (F := F)) Variants.none () Set.univ := fun t => by
  rw [bigSep_W0, bigSep_W0]
  exact sound_body V c t

end Cert.KernelIdeal.Hand

end
-- ==== Proof.KI.Share.lean ====
/-
  One array, the normalised embeddings, is read through two windows (the row block i and the column block j). The region
  holds it at the two halves of the full share, one per window; at its two ends the halves are split off the whole buffer
  and joined again. The other five arrays are held whole.
-/
import proofs.«159163_j3478923509848_2_alg».proof.Proof.KI.Frame1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- The seven buffers behind the eight windows, each whole at a valuation, are the region's arrays at any contents read
    off that valuation. -/
theorem arrays_iff (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄) ⊣⊢ (dats V c).arrays (fun w => Vv (Pipeline.arrRef spec0 w)) := by
  have hS : Finset.univ.image (Pipeline.arrRef spec0) = ([main_v52, main_v53, main_v54, main_v55, main_v56, main_v57_0, main_v57_1] : List (Ref sig .tc)).toFinset := by decide +kernel
  have hN : ([main_v52, main_v53, main_v54, main_v55, main_v56, main_v57_0, main_v57_1] : List (Ref sig .tc)).Nodup := by decide +kernel
  have hA : ((dats V c).arrays (fun w => Vv (Pipeline.arrRef spec0 w)) : sProp 𝕄)
      = bigSep Finset.univ fun w : Fin cfg0.W => (((c : Thread nD τ).loc (Pipeline.arrRef spec0 w)) ↦{(dats V c).share w} Vv (Pipeline.arrRef spec0 w) : sProp 𝕄) := by
    unfold Dat.arrays
    exact bigSep_congr fun w _ => by rw [(arr_whole0 w).set_eq_univ]
  rw [hA]
  unfold Pipeline.arrBufs
  have hL (Φ : Ref sig .tc → sProp 𝕄) : bigSep ([main_v52, main_v53, main_v54, main_v55, main_v56, main_v57_0, main_v57_1] : List (Ref sig .tc)).toFinset Φ
      = iprop(Φ main_v52 ∗ Φ main_v53 ∗ Φ main_v54 ∗ Φ main_v55 ∗ Φ main_v56 ∗ Φ main_v57_0 ∗ Φ main_v57_1) := BI.bigSep_eq_bigSepL _ hN Φ
  rw [hS, hL, bigSep_W0]
  have hsh := PosShare.mem_left_op_right fullShare
  refine ⟨?_, ?_⟩
  · iintro ⟨H52, H53, H54, H55, H56, H570, H571⟩
    ihave H := (pointsTo_share hsh).1 $$ H52
    icases H with ⟨Hl, Hr⟩
    isplitl [Hl]; · iexact Hl
    isplitl [Hr]; · iexact Hr
    isplitl [H53]; · iexact H53
    isplitl [H54]; · iexact H54
    isplitl [H55]; · iexact H55
    isplitl [H56]; · iexact H56
    isplitl [H570]; · iexact H570
    iexact H571
  · iintro ⟨Hl, Hr, H53, H54, H55, H56, H570, H571⟩
    isplitl [Hl Hr]
    · iapply (pointsTo_share hsh).2
      isplitl [Hl]; · iexact Hl
      iexact Hr
    isplitl [H53]; · iexact H53
    isplitl [H54]; · iexact H54
    isplitl [H55]; · iexact H55
    isplitl [H56]; · iexact H56
    isplitl [H570]; · iexact H570
    iexact H571

end Cert.KernelIdeal.Hand

end
-- ==== Proof.KI.Frame2.lean ====
/-
  The whole run of the program around the reduction's region: twelve stretches of host operations, the region, three more
  stretches. Between two items the core holds every unscoped buffer at a named valuation: the launch contents, then each
  stretch applied, then (after the region) the two result arrays at what the region's write-backs leave. The region takes
  its seven arrays out of that valuation (the shared one split in two halves) and puts them back.
-/
import proofs.«159163_j3478923509848_2_alg».proof.Proof.KI.Share

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## No stretch allocates; every stretch writes result buffers only -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- Every buffer of the program that is no argument. -/
abbrev nonArgs : List (Ref sig .tc) := [main_cst, main_v0, main_c, main_v1, main_v2, main_v3, main_c_0, main_v4, main_v5, main_c_1, main_v6, main_v7, main_v8, main_c_2, main_v9, main_v10, main_c_3, main_v11, main_v12, main_v13, main_v14, main_v15, main_v16, main_v17, main_v18, main_cst_4, main_v19, main_v20, main_cst_5, main_call0_v0, main_call0_v1, main_v21, main_cst_6, main_v22, main_v23, main_v24, main_cst_7, main_v25, main_cst_8, main_v26, main_v27, main_cst_9, main_call1_v0, main_call1_v1, main_v28, main_call2_cst, main_call2_v0, main_call2_cst_0, main_call2_v1, main_call2_v2, main_call2_v3, main_call2_v4, main_call2_v5, main_call2_v6, main_call2_cst_1, main_call2_v7, main_call2_v8, main_call2_v9, main_call2_v10, main_v29, main_cst_10, main_v30, main_v31, main_cst_11, main_call3_v0, main_call3_v1, main_v32, main_cst_12, main_v33, main_v34, main_cst_13, main_v35, main_v36, main_v37, main_v38, main_c_14, main_v39, main_c_15, main_v40, main_cst_16, main_call4_v0, main_call4_v1, main_v41, main_cst_17, main_v42, main_v43, main_v44, main_cst_18, main_v45, main_cst_19, main_v46, main_call5_v0, main_call5_cst, main_call5_v1, main_call5_v2, main_v47, main_cst_20, main_v48, main_v49, main_v50, main_v51, main_v52, main_v53, main_v54, main_v55, main_v56, main_v57_0, main_v57_1, main_v58, main_v59, main_cst_21, main_v60, main_v61, main_v62, main_cst_22, main_v63, main_cst_23, main_v64, main_v65, main_cst_24, main_v66, main_v67, main_cst_25, main_v68, main_v69, main_v70, main_v71, main_cst_26, main_v72, main_v73, main_v74, main_v75, main_v76, main_cst_27, main_v77, main_v78, main_v79, main_cst_28, main_v80, main_v81, main_v82, main_v83, main_v84, main_v85, main_v86, main_v87, main_v88, main_v89, main_c_29, main_v90, main_c_30, main_v91, main_cst_31, main_call6_v0, main_call6_v1, main_v92, main_cst_32, main_v93, main_v94, main_v95, main_cst_33, main_v96, main_v97]

set_option maxRecDepth 65536 in
theorem hostOps0_writes : (hostOps0 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_1_writes : (hostOps0_1 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_2_writes : (hostOps0_2 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_3_writes : (hostOps0_3 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_4_writes : (hostOps0_4 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_5_writes : (hostOps0_5 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_6_writes : (hostOps0_6 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_7_writes : (hostOps0_7 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_8_writes : (hostOps0_8 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_9_writes : (hostOps0_9 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_10_writes : (hostOps0_10 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps0_11_writes : (hostOps0_11 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps1_writes : (hostOps1 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps1_1_writes : (hostOps1_1 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxRecDepth 65536 in
theorem hostOps1_2_writes : (hostOps1_2 : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## The buffers' contents between items -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
abbrev W9 : Dev nD → Valuation τ sig (Elt F) := fun c => StableHlo.after hostOps0_8 (W8 m ρ c)
abbrev W10 : Dev nD → Valuation τ sig (Elt F) := fun c => StableHlo.after hostOps0_9 (W9 m ρ c)
abbrev W11 : Dev nD → Valuation τ sig (Elt F) := fun c => StableHlo.after hostOps0_10 (W10 m ρ c)
abbrev W12 : Dev nD → Valuation τ sig (Elt F) := fun c => StableHlo.after hostOps0_11 (W11 m ρ c)
/-- The contents the region is entered from, read at a reference. -/
abbrev V12 : (c : Dev nD) → (b : Ref sig .tc) → Buf (Elt F) ((c : Thread nD τ).loc b) := fun c b => W12 m ρ c b
/-- After the region: the two result arrays at what the write-backs leave, everything else as entered. -/
def W13 (c : Dev nD) : Valuation τ sig (Elt F) :=
  Function.update (Function.update (W12 m ρ c) (Proc.devRef .tc main_v57_0) ((dats (V12 m ρ) c).arrAt 6 cfg0.N))
    (Proc.devRef .tc main_v57_1) ((dats (V12 m ρ) c).arrAt 7 cfg0.N)
abbrev V13 : (c : Dev nD) → (b : Ref sig .tc) → Buf (Elt F) ((c : Thread nD τ).loc b) := fun c b => W13 m ρ c b
abbrev W14 : Dev nD → Valuation τ sig (Elt F) := fun c => StableHlo.after hostOps1 (W13 m ρ c)
abbrev W15 : Dev nD → Valuation τ sig (Elt F) := fun c => StableHlo.after hostOps1_1 (W14 m ρ c)
abbrev W16 : Dev nD → Valuation τ sig (Elt F) := fun c => StableHlo.after hostOps1_2 (W15 m ρ c)

theorem W13_out0 (c : Dev nD) : W13 m ρ c (Proc.devRef .tc main_v57_0) = (dats (V12 m ρ) c).arrAt 6 cfg0.N := by
  unfold W13
  rw [Function.update_of_ne (StableHlo.devRef_ne_of_ne (by decide)), Function.update_self]
theorem W13_out1 (c : Dev nD) : W13 m ρ c (Proc.devRef .tc main_v57_1) = (dats (V12 m ρ) c).arrAt 7 cfg0.N := by
  unfold W13
  rw [Function.update_self]
theorem W13_of_ne (c : Dev nD) (b : Ref sig .tc) (h0 : b ≠ main_v57_0) (h1 : b ≠ main_v57_1) :
    W13 m ρ c (Proc.devRef .tc b) = W12 m ρ c (Proc.devRef .tc b) := by
  unfold W13
  rw [Function.update_of_ne (StableHlo.devRef_ne_of_ne h1), Function.update_of_ne (StableHlo.devRef_ne_of_ne h0)]

/-- An argument keeps its launch contents to the end: no stretch writes it and the region writes its two results only. -/
theorem W16_arg (c : Dev nD) (b : Ref sig .tc) (hb : b ∉ nonArgs) :
    W16 m ρ c (Proc.devRef .tc b) = m ((c : Thread nD τ).loc b) := by
  have h0 : b ≠ main_v57_0 := fun e => hb (e ▸ by decide)
  have h1 : b ≠ main_v57_1 := fun e => hb (e ▸ by decide)
  rw [show W16 m ρ c = StableHlo.after hostOps1_2 (W15 m ρ c) from rfl, StableHlo.after_of_writes_sub hostOps1_2 _ hostOps1_2_writes hb,
    show W15 m ρ c = StableHlo.after hostOps1_1 (W14 m ρ c) from rfl, StableHlo.after_of_writes_sub hostOps1_1 _ hostOps1_1_writes hb,
    show W14 m ρ c = StableHlo.after hostOps1 (W13 m ρ c) from rfl, StableHlo.after_of_writes_sub hostOps1 _ hostOps1_writes hb,
    W13_of_ne m ρ c b h0 h1,
    show W12 m ρ c = StableHlo.after hostOps0_11 (W11 m ρ c) from rfl, StableHlo.after_of_writes_sub hostOps0_11 _ hostOps0_11_writes hb,
    show W11 m ρ c = StableHlo.after hostOps0_10 (W10 m ρ c) from rfl, StableHlo.after_of_writes_sub hostOps0_10 _ hostOps0_10_writes hb,
    show W10 m ρ c = StableHlo.after hostOps0_9 (W9 m ρ c) from rfl, StableHlo.after_of_writes_sub hostOps0_9 _ hostOps0_9_writes hb,
    show W9 m ρ c = StableHlo.after hostOps0_8 (W8 m ρ c) from rfl, StableHlo.after_of_writes_sub hostOps0_8 _ hostOps0_8_writes hb,
    show W8 m ρ c = StableHlo.after hostOps0_7 (W7 m ρ c) from rfl, StableHlo.after_of_writes_sub hostOps0_7 _ hostOps0_7_writes hb,
    show W7 m ρ c = StableHlo.after hostOps0_6 (W6 m ρ c) from rfl, StableHlo.after_of_writes_sub hostOps0_6 _ hostOps0_6_writes hb,
    show W6 m ρ c = StableHlo.after hostOps0_5 (W5 m ρ c) from rfl, StableHlo.after_of_writes_sub hostOps0_5 _ hostOps0_5_writes hb,
    show W5 m ρ c = StableHlo.after hostOps0_4 (W4 m ρ c) from rfl, StableHlo.after_of_writes_sub hostOps0_4 _ hostOps0_4_writes hb,
    show W4 m ρ c = StableHlo.after hostOps0_3 (W3 m ρ c) from rfl, StableHlo.after_of_writes_sub hostOps0_3 _ hostOps0_3_writes hb,
    show W3 m ρ c = StableHlo.after hostOps0_2 (W2 m ρ c) from rfl, StableHlo.after_of_writes_sub hostOps0_2 _ hostOps0_2_writes hb,
    show W2 m ρ c = StableHlo.after hostOps0_1 (W1 m ρ c) from rfl, StableHlo.after_of_writes_sub hostOps0_1 _ hostOps0_1_writes hb,
    show W1 m ρ c = StableHlo.after hostOps0 (W0 m ρ c) from rfl, StableHlo.after_of_writes_sub hostOps0 _ hostOps0_writes hb]

/-! ## The thread state and the segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dats (V12 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W16 m ρ c) ∗ ∃ r, prngReg c r)

/-- The exit contents at each window's array are what the region leaves there. -/
theorem hF13_0 (c : Dev nD) : (dats (V12 m ρ) c).arrAt 0 cfg0.N = V13 m ρ c (Pipeline.arrRef spec0 0) :=
  ((dats (V12 m ρ) c).arrAt_in 0 rfl cfg0.N).trans ((A_eq (V12 m ρ) c 0).trans (W13_of_ne m ρ c main_v52 (by decide) (by decide)).symm)
theorem hF13_1 (c : Dev nD) : (dats (V12 m ρ) c).arrAt 1 cfg0.N = V13 m ρ c (Pipeline.arrRef spec0 1) :=
  ((dats (V12 m ρ) c).arrAt_in 1 rfl cfg0.N).trans ((A_eq (V12 m ρ) c 1).trans (W13_of_ne m ρ c main_v52 (by decide) (by decide)).symm)
theorem hF13_2 (c : Dev nD) : (dats (V12 m ρ) c).arrAt 2 cfg0.N = V13 m ρ c (Pipeline.arrRef spec0 2) :=
  ((dats (V12 m ρ) c).arrAt_in 2 rfl cfg0.N).trans ((A_eq (V12 m ρ) c 2).trans (W13_of_ne m ρ c main_v53 (by decide) (by decide)).symm)
theorem hF13_3 (c : Dev nD) : (dats (V12 m ρ) c).arrAt 3 cfg0.N = V13 m ρ c (Pipeline.arrRef spec0 3) :=
  ((dats (V12 m ρ) c).arrAt_in 3 rfl cfg0.N).trans ((A_eq (V12 m ρ) c 3).trans (W13_of_ne m ρ c main_v54 (by decide) (by decide)).symm)
theorem hF13_4 (c : Dev nD) : (dats (V12 m ρ) c).arrAt 4 cfg0.N = V13 m ρ c (Pipeline.arrRef spec0 4) :=
  ((dats (V12 m ρ) c).arrAt_in 4 rfl cfg0.N).trans ((A_eq (V12 m ρ) c 4).trans (W13_of_ne m ρ c main_v55 (by decide) (by decide)).symm)
theorem hF13_5 (c : Dev nD) : (dats (V12 m ρ) c).arrAt 5 cfg0.N = V13 m ρ c (Pipeline.arrRef spec0 5) :=
  ((dats (V12 m ρ) c).arrAt_in 5 rfl cfg0.N).trans ((A_eq (V12 m ρ) c 5).trans (W13_of_ne m ρ c main_v56 (by decide) (by decide)).symm)
theorem hF13_6 (c : Dev nD) : (dats (V12 m ρ) c).arrAt 6 cfg0.N = V13 m ρ c (Pipeline.arrRef spec0 6) := (W13_out0 m ρ c).symm
theorem hF13_7 (c : Dev nD) : (dats (V12 m ρ) c).arrAt 7 cfg0.N = V13 m ρ c (Pipeline.arrRef spec0 7) := (W13_out1 m ρ c).symm
theorem hF13 (c : Dev nD) : ∀ w : Fin cfg0.W, (dats (V12 m ρ) c).arrAt w cfg0.N = V13 m ρ c (Pipeline.arrRef spec0 w) := by
  have h : ∀ w : Fin 8, (dats (V12 m ρ) c).arrAt w cfg0.N = V13 m ρ c (Pipeline.arrRef spec0 w) := by
    intro w
    fin_cases w
    · exact hF13_0 m ρ c
    · exact hF13_1 m ρ c
    · exact hF13_2 m ρ c
    · exact hF13_3 m ρ c
    · exact hF13_4 m ρ c
    · exact hF13_5 m ρ c
    · exact hF13_6 m ρ c
    · exact hF13_7 m ρ c
  exact h
/-- After any point but the first the invariant gives the two accumulators back at some contents. -/
theorem Phi_out (c : Dev nD) (t : Fin (cfg0.N + 1)) (ht : t.val ≠ 0) :
    (dats (V12 m ρ) c).Φ t ⊢ (iprop((∃ d, owns (c : Thread nD τ) scM0_0 fullShare d) ∗ (∃ d, owns (c : Thread nD τ) scM0_1 fullShare d)) : sProp 𝕄) := by
  rw [show (dats (V12 m ρ) c).Φ t = PhiS (V12 m ρ) c t.val (Nat.le_of_lt_succ t.isLt) from rfl, PhiS_pos (V12 m ρ) c _ _ ht]
  iintro ⟨HS0, HS1⟩
  isplitl [HS0]; · iexists _; iexact HS0
  iexists _; iexact HS1
theorem hrest13 (c : Dev nD) : ∀ b, b ∉ Finset.univ.image (Pipeline.arrRef spec0) → V13 m ρ c b = V12 m ρ c b :=
  fun b hb => W13_of_ne m ρ c b (fun e => hb (Finset.mem_image.mpr ⟨6, Finset.mem_univ _, e.symm⟩)) (fun e => hb (Finset.mem_image.mpr ⟨7, Finset.mem_univ _, e.symm⟩))

set_option backward.isDefEq.respectTransparency.types false in
/-- The region over the thread state. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V12 m ρ) c).loose
  hwaits := Pipeline.hwaits_of_owed_zero _ _ _ _ L lv 0 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(emp)
  Y c := iprop(emp)
  Z c := iprop(Pipeline.unscopedRest (Ix := Unit) (Name := ℕ) (U := UR sig nD τ) (Lvl := ℕ) spec0 c (V12 m ρ c) ∗ ∃ r, prngReg c r)
  hentry c := by
    rw [Pipeline.ownSems0_none, ← Pipeline.unscopedBufs_held (Ix := Unit) (Name := ℕ) (U := UR sig nD τ) (Lvl := ℕ) c (W12 m ρ c),
      Pipeline.unscopedBufs_split₀ cfgs 0 winFacts₀0.arr_unscoped c (V12 m ρ c),
      show ((pdats m ρ 0 c).arrAt · 0) = (fun w => V12 m ρ c (Pipeline.arrRef spec0 w)) from funext fun w => A_eq (V12 m ρ) c w]
    iintro ⟨⟨⟨Harr, Hrest⟩, Hp, HO⟩, -, -⟩
    have hs : (Pipeline.arrBufs (Ix := Unit) (Name := ℕ) (U := UR sig nD τ) (Lvl := ℕ) spec0 c (V12 m ρ c) : sProp 𝕄)
        ⊢ (pdats m ρ 0 c).arrays (fun w => V12 m ρ c (Pipeline.arrRef spec0 w)) := (arrays_iff (V12 m ρ) c (V12 m ρ c)).1
    ihave Ha := hs $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = PhiS (V12 m ρ) c 0 (Nat.zero_le _) from rfl, PhiS_zero (V12 m ρ) c 0 _ rfl, scoped_eq]
    iintro ⟨-, -, Hr⟩
    iexact Hr
  hout c := by
    rw [Pipeline.ownSems0_none, scoped_eq]
    refine (show (pdats m ρ 0 c).Φ (Fin.last _) ⊢ _ from Phi_out m ρ c (Fin.last cfg0.N) (by rw [Fin.val_last]; have : cfg0.N = 64 := N_0; omega)).trans ?_
    iintro ⟨HS0, HS1⟩
    isplitr; · iempintro
    isplitr; · iempintro
    isplitl [HS0]; · iexact HS0
    iexact HS1
  hexit c := by
    rw [← Pipeline.unscopedBufs_held (Ix := Unit) (Name := ℕ) (U := UR sig nD τ) (Lvl := ℕ) c (W13 m ρ c),
      Pipeline.unscopedBufs_split₀ cfgs 0 winFacts₀0.arr_unscoped c (V13 m ρ c),
      show ((pdats m ρ 0 c).arrAt · cfg0.N) = (fun w => V13 m ρ c (Pipeline.arrRef spec0 w)) from funext fun w => hF13 m ρ c w]
    have hrest : (Pipeline.unscopedRest (Ix := Unit) (Name := ℕ) (U := UR sig nD τ) (Lvl := ℕ) spec0 c (V12 m ρ c) : sProp 𝕄)
        = Pipeline.unscopedRest spec0 c (V13 m ρ c) := by
      unfold Pipeline.unscopedRest
      exact bigSep_congr fun b hb => by rw [hrest13 m ρ c b (Finset.mem_sdiff.mp hb).2]
    iintro ⟨Ha, HO, -, ⟨Hrest, Hp⟩⟩
    have hj : ((pdats m ρ 0 c).arrays (fun w => V13 m ρ c (Pipeline.arrRef spec0 w)) : sProp 𝕄)
        ⊢ Pipeline.arrBufs (Ix := Unit) (Name := ℕ) (U := UR sig nD τ) (Lvl := ℕ) spec0 c (V13 m ρ c) := (arrays_iff (V12 m ρ) c (V13 m ρ c)).2
    ihave Harr := hj $$ Ha
    imodintro
    isplitl [Harr Hrest]
    · isplitl [Harr]; · iexact Harr
      rw [← hrest]; iexact Hrest
    isplitl [Hp]; · iexact Hp
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .region (reg0 m ρ),
    .host (hseg hostOps1 hostOps1_sub hostOps1_fresh (W13 m ρ)),
    .host (hseg hostOps1_1 hostOps1_1_sub hostOps1_1_fresh (W14 m ρ)),
    .host (hseg hostOps1_2 hostOps1_2_sub hostOps1_2_fresh (W15 m ρ)) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and every
    final state holds each unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W16 m ρ c) ∗ (∃ r, prngReg c r) ∗ ∃ W, owes (c : Thread nD τ) (0 : CellTallies nD τ sig Unit) W) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_arg0 (by decide))).trans (W16_arg m ρ c main_arg0 (by decide)),
    (h c _ (mem_uc main_arg1 (by decide))).trans (W16_arg m ρ c main_arg1 (by decide)),
    (h c _ (mem_uc main_arg2 (by decide))).trans (W16_arg m ρ c main_arg2 (by decide)),
    (h c _ (mem_uc main_arg3 (by decide))).trans (W16_arg m ρ c main_arg3 (by decide)),
    (h c _ (mem_uc main_arg4 (by decide))).trans (W16_arg m ρ c main_arg4 (by decide)),
    (h c _ (mem_uc main_arg5 (by decide))).trans (W16_arg m ρ c main_arg5 (by decide)),
    (h c _ (mem_uc main_arg6 (by decide))).trans (W16_arg m ρ c main_arg6 (by decide))⟩) (run_all m ρ)

end Cert.KernelIdeal.Hand

end
-- ==== Proof.RefFrame.lean ====
/-
  The reference program is a straight line of 177 host operations, none of which writes an argument: it runs to the end,
  faults nowhere, and leaves the seven arguments as launched.
-/
import proofs.«159163_j3478923509848_2_alg».proof.Proof.RefOps

set_option maxRecDepth 65536

noncomputable section

namespace Cert.ReferenceIdeal.Hand

open Cert.ReferenceIdeal Cert.ReferenceIdeal.Gen Cert.ReferenceIdeal.ValueO Idealize.ShloMosaic Idealize.ShloMosaic.TcCoe Idealize.SL.Sem Idealize.ShloMosaic.StableHlo

variable {F : FTy → Type} [FloatOps F]

/-- Every buffer of the program that is no argument. -/
abbrev nonArgs : List (Ref sig .tc) := [main_cst, main_v0, main_c, main_v1, main_v2, main_v3, main_c_0, main_v4, main_v5, main_c_1, main_v6, main_v7, main_v8, main_c_2, main_v9, main_v10, main_c_3, main_v11, main_v12, main_v13, main_v14, main_v15, main_v16, main_v17, main_v18, main_cst_4, main_v19, main_v20, main_cst_5, main_call0_v0, main_call0_v1, main_v21, main_cst_6, main_v22, main_v23, main_v24, main_cst_7, main_v25, main_cst_8, main_v26, main_v27, main_cst_9, main_call1_v0, main_call1_v1, main_v28, main_call2_cst, main_call2_v0, main_call2_cst_0, main_call2_v1, main_call2_v2, main_call2_v3, main_call2_v4, main_call2_v5, main_call2_v6, main_call2_cst_1, main_call2_v7, main_call2_v8, main_call2_v9, main_call2_v10, main_v29, main_cst_10, main_v30, main_v31, main_cst_11, main_call3_v0, main_call3_v1, main_v32, main_cst_12, main_v33, main_v34, main_cst_13, main_v35, main_v36, main_v37, main_v38, main_c_14, main_v39, main_c_15, main_v40, main_cst_16, main_call4_v0, main_call4_v1, main_v41, main_cst_17, main_v42, main_v43, main_v44, main_cst_18, main_v45, main_cst_19, main_v46, main_call5_v0, main_call5_cst, main_call5_v1, main_call5_v2, main_v47, main_cst_20, main_v48, main_v49, main_v50, main_v51, main_v52, main_v53, main_v54, main_v55, main_v56, main_v57, main_v58, main_v59, main_v60, main_v61, main_v62, main_v63, main_v64, main_cst_21, main_v65, main_v66, main_call6_cst, main_call6_v0, main_v67, main_v68, main_c_22, main_v69, main_c_23, main_v70, main_cst_24, main_call7_v0, main_call7_v1, main_v71, main_cst_25, main_v72, main_v73, main_v74, main_cst_26, main_v75, main_v76, main_cst_27, main_v77, main_v78, main_v79, main_v80, main_cst_28, main_v81, main_v82, main_v83, main_v84, main_v85, main_cst_29, main_v86, main_v87, main_v88, main_cst_30, main_v89, main_v90, main_v91, main_v92, main_v93, main_v94, main_v95, main_v96, main_v97, main_v98, main_c_31, main_v99, main_c_32, main_v100, main_cst_33, main_call8_v0, main_call8_v1, main_v101, main_cst_34, main_v102, main_v103, main_v104, main_cst_35, main_v105, main_v106]

theorem ops_writes : (ops : List (HloOp τ sig (Elt F))).Forall fun op => op.writes ⊆ (nonArgs.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      (h c main_arg0).trans (after_of_writes_sub ops _ ops_writes (by decide)),
      (h c main_arg1).trans (after_of_writes_sub ops _ ops_writes (by decide)),
      (h c main_arg2).trans (after_of_writes_sub ops _ ops_writes (by decide)),
      (h c main_arg3).trans (after_of_writes_sub ops _ ops_writes (by decide)),
      (h c main_arg4).trans (after_of_writes_sub ops _ ops_writes (by decide)),
      (h c main_arg5).trans (after_of_writes_sub ops _ ops_writes (by decide)),
      (h c main_arg6).trans (after_of_writes_sub ops _ ops_writes (by decide))⟩)
    (run_seq scopedRefs_eq scopedSems_eq defs main (fun _ => (ops : List (HloOp τ sig (Elt F)))) main_eq (fun _ => ops_sub) m ρ)

end Cert.ReferenceIdeal.Hand

end
-- ==== Proof.KI.Value1.lean ====
/-
  What each case of the body leaves, as the body's own arithmetic: the accumulators after a point are the block's two sums
  added to what they held (to the zero block at j = 0), and at j = 7 the output blocks are the accumulators.
-/
import proofs.«159163_j3478923509848_2_alg».proof.Proof.KI.Frame1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem sA0 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay1 (k0_pay8 x0 x1 x2 x4 x3 x5) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S8x128) hz2, View.readCov_unit_zero (S := S8x128) _ hz2]
  simp only [View.readAt_eq_ld, harg2.read_unread, harg3.read_unread, harg4.read_unread, harg5.read_unread, harg6.read_unread, harg7.read_unread, harg10.read_unread, harg11.read_unread, View.ld_unit_zero (S := S8x128) hz2, View.ld_unit_zero (S := S1024x768) hz2, View.ld_unit_zero (S := S1024x1) hz2, View.ld_unit_zero (S := S1x1024) hz2]

theorem sA1 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay2 (k0_pay9 x2 x4 x3 x5) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S8x128) hz2, View.readCov_unit_zero (S := S8x128) _ hz2]
  simp only [View.readAt_eq_ld, harg2.read_unread, harg3.read_unread, harg4.read_unread, harg5.read_unread, harg6.read_unread, harg7.read_unread, harg10.read_unread, harg11.read_unread, View.ld_unit_zero (S := S8x128) hz2, View.ld_unit_zero (S := S1024x768) hz2, View.ld_unit_zero (S := S1024x1) hz2, View.ld_unit_zero (S := S1x1024) hz2]

theorem sB0 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 xs1 : Vec F S8x128 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay8 x0 x1 x2 x4 x3 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg10.read_unread, harg11.read_unread, View.ld_unit_zero (S := S8x128) hz2, View.ld_unit_zero (S := S1024x768) hz2, View.ld_unit_zero (S := S1024x1) hz2, View.ld_unit_zero (S := S1x1024) hz2]

theorem sB1 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 xs1 : Vec F S8x128 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay9 x2 x4 x3 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg10.read_unread, harg11.read_unread, View.ld_unit_zero (S := S8x128) hz2, View.ld_unit_zero (S := S1024x768) hz2, View.ld_unit_zero (S := S1024x1) hz2, View.ld_unit_zero (S := S1x1024) hz2]

theorem sC0 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 xs1 : Vec F S8x128 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay8 x0 x1 x2 x4 x3 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg10.read_unread, harg11.read_unread, View.ld_unit_zero (S := S8x128) hz2, View.ld_unit_zero (S := S1024x768) hz2, View.ld_unit_zero (S := S1024x1) hz2, View.ld_unit_zero (S := S1x1024) hz2]

theorem sC1 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 xs1 : Vec F S8x128 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay9 x2 x4 x3 x5) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg10.read_unread, harg11.read_unread, View.ld_unit_zero (S := S8x128) hz2, View.ld_unit_zero (S := S1024x768) hz2, View.ld_unit_zero (S := S1024x1) hz2, View.ld_unit_zero (S := S1x1024) hz2]

theorem oC6 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 xs1 : Vec F S8x128 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 = k0_pay3 (k0_pay1 (k0_pay8 x0 x1 x2 x4 x3 x5) xs0) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz3, View.readCov_unit_zero (S := S8x128) _ hz2]
  simp only [View.readAt_eq_ld, harg2.read_unread, harg3.read_unread, harg4.read_unread, harg5.read_unread, harg6.read_unread, harg7.read_unread, harg10.read_unread, harg11.read_unread, View.ld_unit_zero (S := S8x128) hz2, View.ld_unit_zero (S := S1024x768) hz2, View.ld_unit_zero (S := S1024x1) hz2, View.ld_unit_zero (S := S1x1024) hz2]

theorem oC7 (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S1024x768 .bf16) (x1 : Vec F S1024x768 .bf16) (x2 : Vec F S1024x1 .i32) (x3 : Vec F S1024x1 .i32) (x4 : Vec F S1x1024 .i32) (x5 : Vec F S1x1024 .i32) (xs0 xs1 : Vec F S8x128 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1 = k0_pay4 (k0_pay2 (k0_pay9 x2 x4 x3 x5) xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz3, View.readCov_unit_zero (S := S8x128) _ hz2]
  simp only [View.readAt_eq_ld, harg2.read_unread, harg3.read_unread, harg4.read_unread, harg5.read_unread, harg6.read_unread, harg7.read_unread, harg10.read_unread, harg11.read_unread, View.ld_unit_zero (S := S8x128) hz2, View.ld_unit_zero (S := S1024x768) hz2, View.ld_unit_zero (S := S1024x1) hz2, View.ld_unit_zero (S := S1x1024) hz2]

end Cert.KernelIdeal.Hand

end
-- ==== Proof.KI.Value2.lean ====
/-
  The two accumulators point by point, as the body's arithmetic: after the point t = 8 i + j they hold the block sums of
  the points 8 i … 8 i + j added, in that order, onto the zero block; at j = 7 the two output blocks are the accumulators.
-/
import proofs.«159163_j3478923509848_2_alg».proof.Proof.KI.Value1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block's masked penalty sum and the block's pair counts per row, at point t, from the six input blocks. -/
abbrev bsum (c : Dev nD) (t : Fin cfg0.N) : FVec F S1x1 .f32 :=
  k0_pay8 (iblk V c 0 t) (iblk V c 1 t) (iblk V c 2 t) (iblk V c 4 t) (iblk V c 3 t) (iblk V c 5 t)
abbrev bcnt (c : Dev nD) (t : Fin cfg0.N) : FVec F S1024 .f32 :=
  k0_pay9 (iblk V c 2 t) (iblk V c 4 t) (iblk V c 3 t) (iblk V c 5 t)

/-- The accumulators after position n. -/
def acc (c : Dev nD) : (n : ℕ) → n < cfg0.N → Vec F S8x128 .f32 × Vec F S8x128 .f32
  | 0, h => (k0_pay1 (bsum V c ⟨0, h⟩) (k0_pay5 (F := F)), k0_pay2 (bcnt V c ⟨0, h⟩) (k0_pay6 (F := F)))
  | n + 1, h =>
    if (n + 1) % 8 = 0 then (k0_pay1 (bsum V c ⟨n + 1, h⟩) (k0_pay5 (F := F)), k0_pay2 (bcnt V c ⟨n + 1, h⟩) (k0_pay6 (F := F)))
    else (k0_pay1 (bsum V c ⟨n + 1, h⟩) (acc c n (Nat.lt_of_succ_lt h)).1, k0_pay2 (bcnt V c ⟨n + 1, h⟩) (acc c n (Nat.lt_of_succ_lt h)).2)

set_option maxHeartbeats 4000000 in
theorem acc_eq (c : Dev nD) : ∀ (n : ℕ) (h : n < cfg0.N), (outsAt0 V c n h).2.2 = acc V c n h
  | 0, h => by
    have h0 : (⟨0, h⟩ : Fin cfg0.N).val % 8 = 0 := rfl
    have h1 : ¬ (⟨0, h⟩ : Fin cfg0.N).val % 8 = 7 := by show ¬ 0 % 8 = 7; decide
    have e := outsAt0_A V c ⟨0, h⟩ h0 h1
    rw [show outsAt0 V c 0 h = outsAt0 V c (⟨0, h⟩ : Fin cfg0.N).val (⟨0, h⟩ : Fin cfg0.N).isLt from rfl, e]
    exact Prod.ext (sA0 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) scM0_1 (Memref.isWhole_whole _) ((hcond0_0 (⟨0, h⟩ : Fin cfg0.N)).mpr h0) (fun hh => h1 ((hcond0_1 (⟨0, h⟩ : Fin cfg0.N)).mp hh)) (iblk V c 0 (⟨0, h⟩ : Fin cfg0.N)) (iblk V c 1 (⟨0, h⟩ : Fin cfg0.N)) (iblk V c 2 (⟨0, h⟩ : Fin cfg0.N)) (iblk V c 3 (⟨0, h⟩ : Fin cfg0.N)) (iblk V c 4 (⟨0, h⟩ : Fin cfg0.N)) (iblk V c 5 (⟨0, h⟩ : Fin cfg0.N)))
      (sA1 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) scM0_1 (Memref.isWhole_whole _) ((hcond0_0 (⟨0, h⟩ : Fin cfg0.N)).mpr h0) (fun hh => h1 ((hcond0_1 (⟨0, h⟩ : Fin cfg0.N)).mp hh)) (iblk V c 0 (⟨0, h⟩ : Fin cfg0.N)) (iblk V c 1 (⟨0, h⟩ : Fin cfg0.N)) (iblk V c 2 (⟨0, h⟩ : Fin cfg0.N)) (iblk V c 3 (⟨0, h⟩ : Fin cfg0.N)) (iblk V c 4 (⟨0, h⟩ : Fin cfg0.N)) (iblk V c 5 (⟨0, h⟩ : Fin cfg0.N)))
  | n + 1, h => by
    have hN : cfg0.N = 64 := N_0
    by_cases h0 : (⟨n + 1, h⟩ : Fin cfg0.N).val % 8 = 0
    · have h1 : ¬ (⟨n + 1, h⟩ : Fin cfg0.N).val % 8 = 7 := by have : (⟨n + 1, h⟩ : Fin cfg0.N).val = n + 1 := rfl; omega
      have e := outsAt0_A V c ⟨n + 1, h⟩ h0 h1
      rw [show outsAt0 V c (n + 1) h = outsAt0 V c (⟨n + 1, h⟩ : Fin cfg0.N).val (⟨n + 1, h⟩ : Fin cfg0.N).isLt from rfl, e]
      unfold acc; rw [if_pos h0]
      exact Prod.ext (sA0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) ((hcond0_0 (⟨n + 1, h⟩ : Fin cfg0.N)).mpr h0) (fun hh => h1 ((hcond0_1 (⟨n + 1, h⟩ : Fin cfg0.N)).mp hh)) (iblk V c 0 (⟨n + 1, h⟩ : Fin cfg0.N)) (iblk V c 1 (⟨n + 1, h⟩ : Fin cfg0.N)) (iblk V c 2 (⟨n + 1, h⟩ : Fin cfg0.N)) (iblk V c 3 (⟨n + 1, h⟩ : Fin cfg0.N)) (iblk V c 4 (⟨n + 1, h⟩ : Fin cfg0.N)) (iblk V c 5 (⟨n + 1, h⟩ : Fin cfg0.N))) (sA1 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) ((hcond0_0 (⟨n + 1, h⟩ : Fin cfg0.N)).mpr h0) (fun hh => h1 ((hcond0_1 (⟨n + 1, h⟩ : Fin cfg0.N)).mp hh)) (iblk V c 0 (⟨n + 1, h⟩ : Fin cfg0.N)) (iblk V c 1 (⟨n + 1, h⟩ : Fin cfg0.N)) (iblk V c 2 (⟨n + 1, h⟩ : Fin cfg0.N)) (iblk V c 3 (⟨n + 1, h⟩ : Fin cfg0.N)) (iblk V c 4 (⟨n + 1, h⟩ : Fin cfg0.N)) (iblk V c 5 (⟨n + 1, h⟩ : Fin cfg0.N)))
    · have ih := acc_eq c n (Nat.lt_of_succ_lt h)
      by_cases h1 : (⟨n + 1, h⟩ : Fin cfg0.N).val % 8 = 7
      · have e := outsAt0_C V c ⟨n + 1, h⟩ h0 h1
        rw [show outsAt0 V c (n + 1) h = outsAt0 V c (⟨n + 1, h⟩ : Fin cfg0.N).val (⟨n + 1, h⟩ : Fin cfg0.N).isLt from rfl, e]
        unfold acc; rw [if_neg h0]
        refine Prod.ext ((sC0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (iblk V c 0 (⟨n + 1, h⟩ : Fin cfg0.N)) (iblk V c 1 (⟨n + 1, h⟩ : Fin cfg0.N)) (iblk V c 2 (⟨n + 1, h⟩ : Fin cfg0.N)) (iblk V c 3 (⟨n + 1, h⟩ : Fin cfg0.N)) (iblk V c 4 (⟨n + 1, h⟩ : Fin cfg0.N)) (iblk V c 5 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.2.1 (outsAt0 V c ((⟨n + 1, h⟩ : Fin cfg0.N).val - 1) (Nat.lt_of_le_of_lt (Nat.sub_le _ _) (⟨n + 1, h⟩ : Fin cfg0.N).isLt)).2.2.2).trans ?_) ((sC1 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (iblk V c 0 (⟨n + 1, h⟩ : Fin cfg0.N)) (iblk V c 1 (⟨n + 1, h⟩ : Fin cfg0.N)) (iblk V c 2 (⟨n + 1, h⟩ : Fin cfg0.N)) (iblk V c 3 (⟨n + 1, h⟩ : Fin cfg0.N)) (iblk V c 4 (⟨n + 1, h⟩ : Fin cfg0.N)) (iblk V c 5 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.2.1 (outsAt0 V c ((⟨n + 1, h⟩ : Fin cfg0.N).val - 1) (Nat.lt_of_le_of_lt (Nat.sub_le _ _) (⟨n + 1, h⟩ : Fin cfg0.N).isLt)).2.2.2).trans ?_)
        · show k0_pay1 _ (outsAt0 V c n (Nat.lt_of_succ_lt h)).2.2.1 = k0_pay1 _ (acc V c n _).1
          rw [ih]
        · show k0_pay2 _ (outsAt0 V c n (Nat.lt_of_succ_lt h)).2.2.2 = k0_pay2 _ (acc V c n _).2
          rw [ih]
      · have e := outsAt0_B V c ⟨n + 1, h⟩ h0 h1
        rw [show outsAt0 V c (n + 1) h = outsAt0 V c (⟨n + 1, h⟩ : Fin cfg0.N).val (⟨n + 1, h⟩ : Fin cfg0.N).isLt from rfl, e]
        unfold acc; rw [if_neg h0]
        refine Prod.ext ((sB0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) (iblk V c 0 (⟨n + 1, h⟩ : Fin cfg0.N)) (iblk V c 1 (⟨n + 1, h⟩ : Fin cfg0.N)) (iblk V c 2 (⟨n + 1, h⟩ : Fin cfg0.N)) (iblk V c 3 (⟨n + 1, h⟩ : Fin cfg0.N)) (iblk V c 4 (⟨n + 1, h⟩ : Fin cfg0.N)) (iblk V c 5 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.2.1 (outsAt0 V c ((⟨n + 1, h⟩ : Fin cfg0.N).val - 1) (Nat.lt_of_le_of_lt (Nat.sub_le _ _) (⟨n + 1, h⟩ : Fin cfg0.N).isLt)).2.2.2).trans ?_) ((sB1 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) (iblk V c 0 (⟨n + 1, h⟩ : Fin cfg0.N)) (iblk V c 1 (⟨n + 1, h⟩ : Fin cfg0.N)) (iblk V c 2 (⟨n + 1, h⟩ : Fin cfg0.N)) (iblk V c 3 (⟨n + 1, h⟩ : Fin cfg0.N)) (iblk V c 4 (⟨n + 1, h⟩ : Fin cfg0.N)) (iblk V c 5 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.2.1 (outsAt0 V c ((⟨n + 1, h⟩ : Fin cfg0.N).val - 1) (Nat.lt_of_le_of_lt (Nat.sub_le _ _) (⟨n + 1, h⟩ : Fin cfg0.N).isLt)).2.2.2).trans ?_)
        · show k0_pay1 _ (outsAt0 V c n (Nat.lt_of_succ_lt h)).2.2.1 = k0_pay1 _ (acc V c n _).1
          rw [ih]
        · show k0_pay2 _ (outsAt0 V c n (Nat.lt_of_succ_lt h)).2.2.2 = k0_pay2 _ (acc V c n _).2
          rw [ih]

end Cert.KernelIdeal.Hand

end
-- ==== Proof.KI.Value3.lean ====
/-
  The two result arrays after the region. Row a of each is written back once, after the point 8 a + 7, and holds what
  that point stored: the accumulator of the eight blocks of row a. The eight write-backs tile the array.
-/
import proofs.«159163_j3478923509848_2_alg».proof.Proof.KI.Value2
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem outsAt0_congr (c : Dev nD) {n n' : ℕ} (e : n = n') (h : n < cfg0.N) (h' : n' < cfg0.N) : outsAt0 V c n h = outsAt0 V c n' h' := by
  subst e; rfl

theorem idx6 : ∀ t : Fin cfg0.N, win0_6.index t 0 = t.val / 8 ∧ win0_6.index t 1 = 0 ∧ win0_6.index t 2 = 0 :=
  (by decide +kernel : ∀ t : Fin grid0.N, win0_6.index t 0 = t.val / 8 ∧ win0_6.index t 1 = 0 ∧ win0_6.index t 2 = 0)

/-- Row a of result array 0, entry by entry: what the point 8 a + 7 stored. -/
def G6 (c : Dev nD) : S8x8x128.Idx → Elt F .f32 := fun idx =>
  (outsAt0 V c (8 * (idx 0).val + 7) (by have h : (idx 0).val < 8 := (idx 0).isLt; rw [show cfg0.N = 64 from N_0]; omega)).1 (ValueIdx.ix3 0 (idx 1) (idx 2))

theorem flushed6 (c : Dev nD) (t : Fin cfg0.N) (hf : (cfg0.win 6).flush t = true) :
    (dats V c).flushed 6 t = ((cfg0.win 6).blk t).view.read (Elt F) (G6 V c) := by
  have h7 : t.val % 8 = 7 := (flush0_6 t).mp hf
  obtain ⟨i0, i1, i2⟩ := idx6 t
  funext y
  show (dats V c).after 6 t ((cfg0.win 6).xinj (grid0.coords t) y) = _
  rw [after0_6, View.read_apply]
  unfold G6
  have hy0 : (y 0).val < 1 := (y 0).isLt
  have e0 : ((((cfg0.win 6).blk t).view.emb y) 0).val = t.val / 8 := by
    show win0_6.index t 0 * 1 + 1 * (y 0).val = _
    rw [i0]; omega
  have e1 : ((((cfg0.win 6).blk t).view.emb y) 1).val = (y 1).val := by
    show win0_6.index t 1 * 8 + 1 * (y 1).val = _
    rw [i1]; omega
  have e2 : ((((cfg0.win 6).blk t).view.emb y) 2).val = (y 2).val := by
    show win0_6.index t 2 * 128 + 1 * (y 2).val = _
    rw [i2]; omega
  have key : 8 * ((((cfg0.win 6).blk t).view.emb y) 0).val + 7 = t.val := by rw [e0]; omega
  show (outsAt0 V c t.val t.isLt).1 ((cfg0.win 6).xinj (grid0.coords t) y)
    = (outsAt0 V c (8 * ((((cfg0.win 6).blk t).view.emb y) 0).val + 7) _).1
        (ValueIdx.ix3 0 ((((cfg0.win 6).blk t).view.emb y) 1) ((((cfg0.win 6).blk t).view.emb y) 2))
  refine (congrArg (fun o => o.1 ((cfg0.win 6).xinj (grid0.coords t) y)) (outsAt0_congr V c key.symm t.isLt (by rw [key]; exact t.isLt))).trans ?_
  refine congrArg _ (funext fun a => Fin.ext ?_)
  match a with
  | ⟨0, _⟩ => show (y 0).val = 0; omega
  | ⟨1, _⟩ => exact e1.symm
  | ⟨2, _⟩ => exact e2.symm

theorem mem_blk6 (tt : Fin cfg0.N) (j : S8x8x128.Idx)
    (hj : ∀ a, win0_6.index tt a * win0_6.size a ≤ (j a : ℕ) ∧ (j a : ℕ) < win0_6.index tt a * win0_6.size a + win0_6.xsize (grid0.coords tt) a) :
    j ∈ ((View.whole main_v57_0).slice (win0_6.rect tt)).set := by
  rw [View.set_slice_whole, Rect.mem_set_unit]
  exact hj

/-- The eight write-backs tile the array, so it ends holding the rows as stored. -/
theorem final6 (c : Dev nD) : (dats V c).arrAt 6 cfg0.N = G6 V c :=
  (dats V c).arrAt_eq_of_cover 6 (G6 V c) (flushed6 V c) fun i => by
    have h0 : (i 0 : Nat) < 8 := (i 0).isLt
    have h1 : (i 1 : Nat) < 8 := (i 1).isLt
    have h2 : (i 2 : Nat) < 128 := (i 2).isLt
    have hN : cfg0.N = 64 := N_0
    obtain ⟨j0, j1, j2⟩ := idx6 ⟨8 * (i 0).val + 7, by omega⟩
    refine ⟨⟨8 * (i 0).val + 7, by omega⟩, (flush0_6 _).mpr (by show (8 * (i 0).val + 7) % 8 = 7; omega), mem_blk6 _ i fun a => ?_⟩
    match a with
    | ⟨0, _⟩ =>
      show win0_6.index ⟨8 * (i 0).val + 7, _⟩ 0 * 1 ≤ (i 0 : Nat) ∧ (i 0 : Nat) < win0_6.index ⟨8 * (i 0).val + 7, _⟩ 0 * 1 + 1
      rw [j0]; show (8 * (i 0).val + 7) / 8 * 1 ≤ (i 0 : Nat) ∧ (i 0 : Nat) < (8 * (i 0).val + 7) / 8 * 1 + 1; omega
    | ⟨1, _⟩ =>
      show win0_6.index ⟨8 * (i 0).val + 7, _⟩ 1 * 8 ≤ (i 1 : Nat) ∧ (i 1 : Nat) < win0_6.index ⟨8 * (i 0).val + 7, _⟩ 1 * 8 + 8
      rw [j1]; omega
    | ⟨2, _⟩ =>
      show win0_6.index ⟨8 * (i 0).val + 7, _⟩ 2 * 128 ≤ (i 2 : Nat) ∧ (i 2 : Nat) < win0_6.index ⟨8 * (i 0).val + 7, _⟩ 2 * 128 + 128
      rw [j2]; omega

theorem idx7 : ∀ t : Fin cfg0.N, win0_7.index t 0 = t.val / 8 ∧ win0_7.index t 1 = 0 ∧ win0_7.index t 2 = 0 :=
  (by decide +kernel : ∀ t : Fin grid0.N, win0_7.index t 0 = t.val / 8 ∧ win0_7.index t 1 = 0 ∧ win0_7.index t 2 = 0)

/-- Row a of result array 1, entry by entry: what the point 8 a + 7 stored. -/
def G7 (c : Dev nD) : S8x8x128.Idx → Elt F .f32 := fun idx =>
  (outsAt0 V c (8 * (idx 0).val + 7) (by have h : (idx 0).val < 8 := (idx 0).isLt; rw [show cfg0.N = 64 from N_0]; omega)).2.1 (ValueIdx.ix3 0 (idx 1) (idx 2))

theorem flushed7 (c : Dev nD) (t : Fin cfg0.N) (hf : (cfg0.win 7).flush t = true) :
    (dats V c).flushed 7 t = ((cfg0.win 7).blk t).view.read (Elt F) (G7 V c) := by
  have h7 : t.val % 8 = 7 := (flush0_7 t).mp hf
  obtain ⟨i0, i1, i2⟩ := idx7 t
  funext y
  show (dats V c).after 7 t ((cfg0.win 7).xinj (grid0.coords t) y) = _
  rw [after0_7, View.read_apply]
  unfold G7
  have hy0 : (y 0).val < 1 := (y 0).isLt
  have e0 : ((((cfg0.win 7).blk t).view.emb y) 0).val = t.val / 8 := by
    show win0_7.index t 0 * 1 + 1 * (y 0).val = _
    rw [i0]; omega
  have e1 : ((((cfg0.win 7).blk t).view.emb y) 1).val = (y 1).val := by
    show win0_7.index t 1 * 8 + 1 * (y 1).val = _
    rw [i1]; omega
  have e2 : ((((cfg0.win 7).blk t).view.emb y) 2).val = (y 2).val := by
    show win0_7.index t 2 * 128 + 1 * (y 2).val = _
    rw [i2]; omega
  have key : 8 * ((((cfg0.win 7).blk t).view.emb y) 0).val + 7 = t.val := by rw [e0]; omega
  show (outsAt0 V c t.val t.isLt).2.1 ((cfg0.win 7).xinj (grid0.coords t) y)
    = (outsAt0 V c (8 * ((((cfg0.win 7).blk t).view.emb y) 0).val + 7) _).2.1
        (ValueIdx.ix3 0 ((((cfg0.win 7).blk t).view.emb y) 1) ((((cfg0.win 7).blk t).view.emb y) 2))
  refine (congrArg (fun o => o.2.1 ((cfg0.win 7).xinj (grid0.coords t) y)) (outsAt0_congr V c key.symm t.isLt (by rw [key]; exact t.isLt))).trans ?_
  refine congrArg _ (funext fun a => Fin.ext ?_)
  match a with
  | ⟨0, _⟩ => show (y 0).val = 0; omega
  | ⟨1, _⟩ => exact e1.symm
  | ⟨2, _⟩ => exact e2.symm

theorem mem_blk7 (tt : Fin cfg0.N) (j : S8x8x128.Idx)
    (hj : ∀ a, win0_7.index tt a * win0_7.size a ≤ (j a : ℕ) ∧ (j a : ℕ) < win0_7.index tt a * win0_7.size a + win0_7.xsize (grid0.coords tt) a) :
    j ∈ ((View.whole main_v57_1).slice (win0_7.rect tt)).set := by
  rw [View.set_slice_whole, Rect.mem_set_unit]
  exact hj

/-- The eight write-backs tile the array, so it ends holding the rows as stored. -/
theorem final7 (c : Dev nD) : (dats V c).arrAt 7 cfg0.N = G7 V c :=
  (dats V c).arrAt_eq_of_cover 7 (G7 V c) (flushed7 V c) fun i => by
    have h0 : (i 0 : Nat) < 8 := (i 0).isLt
    have h1 : (i 1 : Nat) < 8 := (i 1).isLt
    have h2 : (i 2 : Nat) < 128 := (i 2).isLt
    have hN : cfg0.N = 64 := N_0
    obtain ⟨j0, j1, j2⟩ := idx7 ⟨8 * (i 0).val + 7, by omega⟩
    refine ⟨⟨8 * (i 0).val + 7, by omega⟩, (flush0_7 _).mpr (by show (8 * (i 0).val + 7) % 8 = 7; omega), mem_blk7 _ i fun a => ?_⟩
    match a with
    | ⟨0, _⟩ =>
      show win0_7.index ⟨8 * (i 0).val + 7, _⟩ 0 * 1 ≤ (i 0 : Nat) ∧ (i 0 : Nat) < win0_7.index ⟨8 * (i 0).val + 7, _⟩ 0 * 1 + 1
      rw [j0]; show (8 * (i 0).val + 7) / 8 * 1 ≤ (i 0 : Nat) ∧ (i 0 : Nat) < (8 * (i 0).val + 7) / 8 * 1 + 1; omega
    | ⟨1, _⟩ =>
      show win0_7.index ⟨8 * (i 0).val + 7, _⟩ 1 * 8 ≤ (i 1 : Nat) ∧ (i 1 : Nat) < win0_7.index ⟨8 * (i 0).val + 7, _⟩ 1 * 8 + 8
      rw [j1]; omega
    | ⟨2, _⟩ =>
      show win0_7.index ⟨8 * (i 0).val + 7, _⟩ 2 * 128 ≤ (i 2 : Nat) ∧ (i 2 : Nat) < win0_7.index ⟨8 * (i 0).val + 7, _⟩ 2 * 128 + 128
      rw [j2]; omega

end Cert.KernelIdeal.Hand

end
-- ==== Proof.LibFold.lean ====
/-
  A running sum that is restarted every eight steps: if `A 0 = 0 + b 0` and `A (n + 1)` is `0 + b (n + 1)` when
  `n + 1` is a multiple of 8 and `A n + b (n + 1)` otherwise, then `A n` is the sum of `b` over the steps of `n`'s
  own stretch of eight up to `n` — in any commutative monoid (the extended reals among them), below any bound `N`.
-/
import Mathlib.Algebra.BigOperators.Fin
import Mathlib.Algebra.BigOperators.Intervals

namespace LibFold

open Finset

theorem restart_sum8 {M : Type*} [AddCommMonoid M] (N : ℕ) (b A : ℕ → M) (h0 : 0 < N → A 0 = 0 + b 0)
    (hs : ∀ n, n + 1 < N → A (n + 1) = if (n + 1) % 8 = 0 then 0 + b (n + 1) else A n + b (n + 1)) :
    ∀ n, n < N → A n = ∑ j ∈ Finset.range (n % 8 + 1), b (n - n % 8 + j) := by
  intro n
  induction n with
  | zero => intro h; simp [h0 h]
  | succ n ih =>
    intro h
    rw [hs n h]
    split_ifs with h8
    · rw [h8]; simp
    · have e1 : (n + 1) % 8 = n % 8 + 1 := by omega
      have e2 : n + 1 - (n % 8 + 1) = n - n % 8 := by omega
      rw [e1, e2, Finset.sum_range_succ, ← ih (by omega)]
      congr 2
      omega

/-- At the last step of a stretch the running sum is the whole stretch's sum. -/
theorem restart_sum8_last {M : Type*} [AddCommMonoid M] (N : ℕ) (b A : ℕ → M) (h0 : 0 < N → A 0 = 0 + b 0)
    (hs : ∀ n, n + 1 < N → A (n + 1) = if (n + 1) % 8 = 0 then 0 + b (n + 1) else A n + b (n + 1))
    (a : ℕ) (h : 8 * a + 7 < N) : A (8 * a + 7) = ∑ j : Fin 8, b (8 * a + j.val) := by
  rw [restart_sum8 N b A h0 hs _ h, show (8 * a + 7) % 8 + 1 = 8 from by omega, Finset.sum_range]
  refine Finset.sum_congr rfl fun j _ => ?_
  congr 1
  omega

end LibFold
-- ==== Proof.KI.Value4.lean ====
/-
  The kernel's two result arrays at the ideal instance, entry by entry: entry (a, r, l) of the first is the sum over the
  eight blocks j of row a of the block's masked penalty sum; of the second, of the block's pair count. The accumulators
  start each row at the zero block, and 0 + x = x on the extended reals.
-/
import proofs.«159163_j3478923509848_2_alg».proof.Defs
import proofs.«159163_j3478923509848_2_alg».proof.Proof.KI.Value3
import Idealize.ShloMosaic.Lib.ValueLayout
import Idealize.ShloMosaic.Lib.Pipeline.Value
import Idealize.ShloMosaic.PureOps.Ideal.Laws
import proofs.«159163_j3478923509848_2_alg».proof.Proof.LibFold

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

set_option maxHeartbeats 2000000 in
/-- At j = 7 the two output blocks are the accumulators. -/
theorem out6_eq (c : Dev nD) (t : Fin cfg0.N) (h1 : t.val % 8 = 7) :
    (outsAt0 V c t.val t.isLt).1 = k0_pay3 (acc V c t.val t.isLt).1 := by
  have h0 : ¬ t.val % 8 = 0 := by omega
  have e := outsAt0_C V c t h0 h1
  have ea : (acc V c t.val t.isLt).1 = (outsAt0 V c t.val t.isLt).2.2.1 := by rw [acc_eq]
  rw [ea, e]
  dsimp only
  rw [oC6, sC0]
set_option maxHeartbeats 2000000 in
theorem out7_eq (c : Dev nD) (t : Fin cfg0.N) (h1 : t.val % 8 = 7) :
    (outsAt0 V c t.val t.isLt).2.1 = k0_pay4 (acc V c t.val t.isLt).2 := by
  have h0 : ¬ t.val % 8 = 0 := by omega
  have e := outsAt0_C V c t h0 h1
  have ea : (acc V c t.val t.isLt).2 = (outsAt0 V c t.val t.isLt).2.2.2 := by rw [acc_eq]
  rw [ea, e]
  dsimp only
  rw [oC7, sC1]

/-- The zero block. -/
theorem pay5_apply (i : S8x128.Idx) : k0_pay5 (F := Ideal) i = 0 := by
  unfold k0_pay5
  rw [shapeCast_self]
  exact Ideal.ofBits_zero_f32
theorem pay6_apply (i : S8x128.Idx) : k0_pay6 (F := Ideal) i = 0 := by
  unfold k0_pay6
  rw [shapeCast_self]
  exact Ideal.ofBits_zero_f32

/-- The first accumulator's update: the block's sum added at every entry. -/
theorem pay1_apply (v32 : FVec Ideal S1x1 .f32) (v39 : Vec Ideal S8x128 .f32) (r : Fin 8) (l : Fin 128) :
    k0_pay1 v32 v39 (ValueIdx.ix2 r l) = v39 (ValueIdx.ix2 r l) + v32 (ValueIdx.ix2 0 0) := by
  unfold k0_pay1
  rw [shapeCast_self, ValueIdx.addf_apply]
  congr 1
  refine broadcastTo_apply v32 _ (ValueIdx.ix2 r l) (ValueIdx.ix2 0 0) fun a => ?_
  match a with
  | ⟨0, _⟩ => rfl
  | ⟨1, _⟩ => rfl

/-- Entry (a, r, l) of the first result array is the first accumulator's entry after the last block of row a. -/
theorem G6_apply (c : Dev nD) (a : Fin 8) (r : Fin 8) (l : Fin 128) :
    G6 V c (ValueIdx.ix3 a r l) = (acc V c (8 * a.val + 7) (by rw [show cfg0.N = 64 from N_0]; omega)).1 (ValueIdx.ix2 r l) := by
  unfold G6
  show (outsAt0 V c (8 * a.val + 7) _).1 (ValueIdx.ix3 0 r l) = _
  rw [out6_eq V c ⟨8 * a.val + 7, by rw [show cfg0.N = 64 from N_0]; omega⟩ (by show (8 * a.val + 7) % 8 = 7; omega)]
  unfold k0_pay3
  exact ValueIdx.shapeCast_ab_1ab_apply _ _ 0 r l
theorem G7_apply (c : Dev nD) (a : Fin 8) (r : Fin 8) (l : Fin 128) :
    G7 V c (ValueIdx.ix3 a r l) = (acc V c (8 * a.val + 7) (by rw [show cfg0.N = 64 from N_0]; omega)).2 (ValueIdx.ix2 r l) := by
  unfold G7
  show (outsAt0 V c (8 * a.val + 7) _).2.1 (ValueIdx.ix3 0 r l) = _
  rw [out7_eq V c ⟨8 * a.val + 7, by rw [show cfg0.N = 64 from N_0]; omega⟩ (by show (8 * a.val + 7) % 8 = 7; omega)]
  unfold k0_pay4
  exact ValueIdx.shapeCast_ab_1ab_apply _ _ 0 r l

/-- The block sum of point n (zero past the grid). -/
def bs (c : Dev nD) (n : ℕ) : EReal := if h : n < cfg0.N then bsum V c ⟨n, h⟩ (ValueIdx.ix2 0 0) else 0
/-- The first accumulator's entry after point n (zero past the grid). -/
def acc1 (c : Dev nD) (r : Fin 8) (l : Fin 128) (n : ℕ) : EReal := if h : n < cfg0.N then (acc V c n h).1 (ValueIdx.ix2 r l) else 0

theorem acc1_zero (c : Dev nD) (r : Fin 8) (l : Fin 128) (h : 0 < cfg0.N) : acc1 V c r l 0 = 0 + bs V c 0 := by
  unfold acc1 bs; rw [dif_pos h, dif_pos h]
  show k0_pay1 _ _ (ValueIdx.ix2 r l) = _
  rw [pay1_apply, pay5_apply]
theorem acc1_succ (c : Dev nD) (r : Fin 8) (l : Fin 128) (n : ℕ) (h : n + 1 < cfg0.N) :
    acc1 V c r l (n + 1) = if (n + 1) % 8 = 0 then 0 + bs V c (n + 1) else acc1 V c r l n + bs V c (n + 1) := by
  unfold acc1 bs; rw [dif_pos h, dif_pos h, dif_pos (Nat.lt_of_succ_lt h)]
  have e : acc V c (n + 1) h = if (n + 1) % 8 = 0 then (k0_pay1 (bsum V c ⟨n + 1, h⟩) (k0_pay5 (F := Ideal)), k0_pay2 (bcnt V c ⟨n + 1, h⟩) (k0_pay6 (F := Ideal)))
      else (k0_pay1 (bsum V c ⟨n + 1, h⟩) (acc V c n (Nat.lt_of_succ_lt h)).1, k0_pay2 (bcnt V c ⟨n + 1, h⟩) (acc V c n (Nat.lt_of_succ_lt h)).2) := rfl
  rw [e]
  split_ifs with h8
  · show k0_pay1 _ _ (ValueIdx.ix2 r l) = _
    rw [pay1_apply, pay5_apply]
  · show k0_pay1 _ _ (ValueIdx.ix2 r l) = _
    rw [pay1_apply]

/-- After the last block of row a the first accumulator holds, at every entry, the sum of the row's eight block sums. -/
theorem acc1_last (c : Dev nD) (a : Fin 8) (r : Fin 8) (l : Fin 128) :
    (acc V c (8 * a.val + 7) (by rw [show cfg0.N = 64 from N_0]; omega)).1 (ValueIdx.ix2 r l) = ∑ j : Fin 8, bs V c (8 * a.val + j.val) := by
  have hN : cfg0.N = 64 := N_0
  have h := LibFold.restart_sum8_last cfg0.N (bs V c) (acc1 V c r l) (acc1_zero V c r l) (acc1_succ V c r l) a.val (by omega)
  unfold acc1 at h
  rw [dif_pos (by omega)] at h
  exact h

end Cert.KernelIdeal.Hand

end
-- ==== Proof.KI.Value5.lean ====
/-
  The second accumulator (the pair counts) at the ideal instance, as the first: its update adds the block's count — the
  sum over the block's 1024 rows of the row counts — at every entry.
-/
import proofs.«159163_j3478923509848_2_alg».proof.Proof.KI.Value4

set_option maxRecDepth 16384

noncomputable section

namespace Cert.KernelIdeal.Hand

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b))

theorem pay2_apply (v35 : FVec Ideal S1024 .f32) (v45 : Vec Ideal S8x128 .f32) (r : Fin 8) (l : Fin 128) :
    k0_pay2 v35 v45 (ValueIdx.ix2 r l) = v45 (ValueIdx.ix2 r l) + ∑ p : Fin 1024, v35 (ValueIdx.ix1 p) := by
  unfold k0_pay2
  rw [shapeCast_self, ValueIdx.addf_apply]
  congr 1
  rw [broadcastTo_apply _ _ (ValueIdx.ix2 r l) (ValueIdx.ix2 (0 : Fin 1) (0 : Fin 1)) (fun a => by match a with | ⟨0, _⟩ => rfl | ⟨1, _⟩ => rfl)]
  rw [shapeCast_apply _ _ (ValueIdx.ix2 (0 : Fin 1) (0 : Fin 1)) (ValueIdx.ix1 (0 : Fin 1)) (by rfl)]
  refine (Ideal.multiReduction_add_single _ _ _ _ _ (ValueIdx.ix1 (0 : Fin 1))).trans ?_
  show (∑ k : Fin 1024, _) = _
  refine Finset.sum_congr rfl fun k _ => ?_
  exact shapeCast_apply _ _ _ (ValueIdx.ix1 k) (by
    rw [Shape.rowMajor_val_two, Shape.rowMajor_val_one]
    show k.val = k.val * 1 + 0
    omega)

/-- The block's pair count at point n (zero past the grid). -/
def bc (c : Dev nD) (n : ℕ) : EReal := if h : n < cfg0.N then ∑ p : Fin 1024, bcnt V c ⟨n, h⟩ (ValueIdx.ix1 p) else 0
/-- The second accumulator's entry after point n (zero past the grid). -/
def acc2 (c : Dev nD) (r : Fin 8) (l : Fin 128) (n : ℕ) : EReal := if h : n < cfg0.N then (acc V c n h).2 (ValueIdx.ix2 r l) else 0

theorem acc2_zero (c : Dev nD) (r : Fin 8) (l : Fin 128) (h : 0 < cfg0.N) : acc2 V c r l 0 = 0 + bc V c 0 := by
  unfold acc2 bc; rw [dif_pos h, dif_pos h]
  show k0_pay2 _ _ (ValueIdx.ix2 r l) = _
  rw [pay2_apply, pay6_apply]
theorem acc2_succ (c : Dev nD) (r : Fin 8) (l : Fin 128) (n : ℕ) (h : n + 1 < cfg0.N) :
    acc2 V c r l (n + 1) = if (n + 1) % 8 = 0 then 0 + bc V c (n + 1) else acc2 V c r l n + bc V c (n + 1) := by
  unfold acc2 bc; rw [dif_pos h, dif_pos h, dif_pos (Nat.lt_of_succ_lt h)]
  have e : acc V c (n + 1) h = if (n + 1) % 8 = 0 then (k0_pay1 (bsum V c ⟨n + 1, h⟩) (k0_pay5 (F := Ideal)), k0_pay2 (bcnt V c ⟨n + 1, h⟩) (k0_pay6 (F := Ideal)))
      else (k0_pay1 (bsum V c ⟨n + 1, h⟩) (acc V c n (Nat.lt_of_succ_lt h)).1, k0_pay2 (bcnt V c ⟨n + 1, h⟩) (acc V c n (Nat.lt_of_succ_lt h)).2) := rfl
  rw [e]
  split_ifs with h8
  · show k0_pay2 _ _ (ValueIdx.ix2 r l) = _
    rw [pay2_apply, pay6_apply]
  · show k0_pay2 _ _ (ValueIdx.ix2 r l) = _
    rw [pay2_apply]

/-- After the last block of row a the second accumulator holds, at every entry, the sum of the row's eight block counts. -/
theorem acc2_last (c : Dev nD) (a : Fin 8) (r : Fin 8) (l : Fin 128) :
    (acc V c (8 * a.val + 7) (by rw [show cfg0.N = 64 from N_0]; omega)).2 (ValueIdx.ix2 r l) = ∑ j : Fin 8, bc V c (8 * a.val + j.val) := by
  have hN : cfg0.N = 64 := N_0
  have h := LibFold.restart_sum8_last cfg0.N (bc V c) (acc2 V c r l) (acc2_zero V c r l) (acc2_succ V c r l) a.val (by omega)
  unfold acc2 at h
  rw [dif_pos (by omega)] at h
  exact h

end Cert.KernelIdeal.Hand

end
-- ==== Proof.KI.Value6.lean ====
/-
  The block's masked penalty sum at the ideal instance: the sum over the block's 1024 x 1024 pairs (p, q) of the penalty
  max(<a_p, b_q> - 0.3, 0) where the pair's mask bit is set, and of nothing elsewhere; <a_p, b_q> the sum over the 768
  coordinates of the products.
-/
import proofs.«159163_j3478923509848_2_alg».proof.Proof.KI.Value5

set_option maxRecDepth 16384

noncomputable section

namespace Cert.KernelIdeal.Hand

open Cert.KernelIdeal Cert.KernelIdeal.Gen
open Idealize.ShloMosaic Idealize.ShloMosaic.TcCoe Idealize.SL.Sem

theorem lhs_0 (i : S1024x1024.Idx) (q : dot_S1024x768_S1024x768_S1024x1024_1_1_0_0_n_n.contr.Idx) : (dot_S1024x768_S1024x768_S1024x1024_1_1_0_0_n_n.lhsIdx i q 0).val = (i 0).val := by
  unfold DotDims.lhsIdx
  rw [dif_neg (show ¬(0 : Fin S1024x768.rank) ∈ dot_S1024x768_S1024x768_S1024x1024_1_1_0_0_n_n.lhsBatch by decide), dif_pos (show (0 : Fin S1024x768.rank) ∈ dot_S1024x768_S1024x768_S1024x1024_1_1_0_0_n_n.lhsNonContracting by decide)]
  rfl
theorem lhs_1 (i : S1024x1024.Idx) (q : dot_S1024x768_S1024x768_S1024x1024_1_1_0_0_n_n.contr.Idx) : (dot_S1024x768_S1024x768_S1024x1024_1_1_0_0_n_n.lhsIdx i q 1).val = (q ⟨0, by decide⟩).val :=
  dot_S1024x768_S1024x768_S1024x1024_1_1_0_0_n_n.lhsIdx_val_of_single rfl i q
theorem rhs_0 (i : S1024x1024.Idx) (q : dot_S1024x768_S1024x768_S1024x1024_1_1_0_0_n_n.contr.Idx) : (dot_S1024x768_S1024x768_S1024x1024_1_1_0_0_n_n.rhsIdx i q 0).val = (i 1).val := by
  unfold DotDims.rhsIdx
  rw [dif_neg (show ¬(0 : Fin S1024x768.rank) ∈ dot_S1024x768_S1024x768_S1024x1024_1_1_0_0_n_n.rhsBatch by decide), dif_pos (show (0 : Fin S1024x768.rank) ∈ dot_S1024x768_S1024x768_S1024x1024_1_1_0_0_n_n.rhsNonContracting by decide)]
  rfl
theorem rhs_1 (i : S1024x1024.Idx) (q : dot_S1024x768_S1024x768_S1024x1024_1_1_0_0_n_n.contr.Idx) : (dot_S1024x768_S1024x768_S1024x1024_1_1_0_0_n_n.rhsIdx i q 1).val = (q ⟨0, by decide⟩).val :=
  dot_S1024x768_S1024x768_S1024x1024_1_1_0_0_n_n.rhsIdx_val_of_single rfl i q

/-- The block's similarity at (p, q). -/
theorem sim_apply (a b : FVec Ideal S1024x768 .bf16) (p q : Fin 1024) :
    matmul dot_S1024x768_S1024x768_S1024x1024_1_1_0_0_n_n none a b (constant S1024x1024 .f32 0x00000000#32) (ValueIdx.ix2 p q)
      = ∑ k : Fin 768, a (ValueIdx.ix2 p k) * b (ValueIdx.ix2 q k) := by
  refine (Ideal.matmul_constant_zero_apply dot_S1024x768_S1024x768_S1024x1024_1_1_0_0_n_n none a b (ValueIdx.ix2 p q)).trans ?_
  rw [← Equiv.sum_comp (ValueIdx.contrEquiv1 dot_S1024x768_S1024x768_S1024x1024_1_1_0_0_n_n 768 rfl rfl).symm]
  refine Finset.sum_congr rfl fun k _ => ?_
  have hk := ValueIdx.contrEquiv1_symm_val dot_S1024x768_S1024x768_S1024x1024_1_1_0_0_n_n 768 rfl rfl k
  have el : dot_S1024x768_S1024x768_S1024x1024_1_1_0_0_n_n.lhsIdx (ValueIdx.ix2 p q) ((ValueIdx.contrEquiv1 dot_S1024x768_S1024x768_S1024x1024_1_1_0_0_n_n 768 rfl rfl).symm k) = ValueIdx.ix2 p k := funext fun ax => Fin.ext (by
    match ax with
    | ⟨0, _⟩ => exact lhs_0 _ _
    | ⟨1, _⟩ => exact (lhs_1 _ _).trans hk)
  have er : dot_S1024x768_S1024x768_S1024x1024_1_1_0_0_n_n.rhsIdx (ValueIdx.ix2 p q) ((ValueIdx.contrEquiv1 dot_S1024x768_S1024x768_S1024x1024_1_1_0_0_n_n 768 rfl rfl).symm k) = ValueIdx.ix2 q k := funext fun ax => Fin.ext (by
    match ax with
    | ⟨0, _⟩ => exact rhs_0 _ _
    | ⟨1, _⟩ => exact (rhs_1 _ _).trans hk)
  rw [el, er]

/-- The block's masked penalty sum. -/
theorem pay8_apply (x0 x1 : Vec Ideal S1024x768 .bf16) (x2 : Vec Ideal S1024x1 .i32) (x4 : Vec Ideal S1x1024 .i32) (x3 : Vec Ideal S1024x1 .i32) (x5 : Vec Ideal S1x1024 .i32) :
    k0_pay8 x0 x1 x2 x4 x3 x5 (ValueIdx.ix2 (0 : Fin 1) (0 : Fin 1))
      = ∑ p : Fin 1024, ∑ q : Fin 1024, Scalar.select (k0_pay7 (F := Ideal) x2 x4 x3 x5 (ValueIdx.ix2 p q))
          (max ((∑ k : Fin 768, x0 (ValueIdx.ix2 p k) * x1 (ValueIdx.ix2 q k)) - Ideal.ofBits .f32 0x3E99999A#32) (Ideal.ofBits .f32 0x00000000#32))
          (Ideal.ofBits .f32 0x00000000#32) := by
  unfold k0_pay8
  rw [shapeCast_apply _ _ (ValueIdx.ix2 (0 : Fin 1) (0 : Fin 1)) (ValueIdx.ix1 (0 : Fin 1)) (by rfl)]
  refine (Ideal.multiReduction_add_single _ _ _ _ _ (ValueIdx.ix1 (0 : Fin 1))).trans ?_
  show (∑ p : Fin 1024, _) = _
  refine Finset.sum_congr rfl fun p _ => ?_
  refine (shapeCast_apply _ _ _ (ValueIdx.ix1 p) (by
    rw [Shape.rowMajor_val_two, Shape.rowMajor_val_one]
    show p.val = p.val * 1 + 0
    omega)).trans ?_
  refine (Ideal.multiReduction_add_single _ _ _ _ _ (ValueIdx.ix1 p)).trans ?_
  show (∑ q : Fin 1024, _) = _
  refine Finset.sum_congr rfl fun q _ => ?_
  have e : reduces_S1024x1024_S1024.lift (ValueIdx.ix1 p) q = ValueIdx.ix2 p q := funext fun ax => Fin.ext (by
    match ax with
    | ⟨0, _⟩ => rfl
    | ⟨1, _⟩ => rfl)
  rw [e]
  simp only [ValueIdx.select_apply, ValueIdx.maximumf_apply, ValueIdx.subf_apply, ValueIdx.broadcast_apply, shapeCast_self]
  rw [sim_apply]
  rfl

end Cert.KernelIdeal.Hand

end
-- ==== Proof.KI.Value7.lean ====
/-
  The block's pair counts and the pair mask at the ideal instance. The mask bit of the pair (p, q) is set when the two
  batch words agree and the two label words differ; the block's count of row p is the number of set bits of the row.
-/
import proofs.«159163_j3478923509848_2_alg».proof.Proof.KI.Value6

set_option maxRecDepth 16384

noncomputable section

namespace Cert.KernelIdeal.Hand

open Cert.KernelIdeal Cert.KernelIdeal.Gen
open Idealize.ShloMosaic Idealize.ShloMosaic.TcCoe Idealize.SL.Sem

/-- The pair mask at (p, q). -/
theorem pay7_apply (x2 : Vec Ideal S1024x1 .i32) (x4 : Vec Ideal S1x1024 .i32) (x3 : Vec Ideal S1024x1 .i32) (x5 : Vec Ideal S1x1024 .i32) (p q : Fin 1024) :
    k0_pay7 (F := Ideal) x2 x4 x3 x5 (ValueIdx.ix2 p q)
      = IntOp.andi (IntOp.cmpi .eq (x2 (ValueIdx.ix2 p (0 : Fin 1))) (x4 (ValueIdx.ix2 (0 : Fin 1) q)))
          (IntOp.cmpi .ne (x3 (ValueIdx.ix2 p (0 : Fin 1))) (x5 (ValueIdx.ix2 (0 : Fin 1) q))) := by
  unfold k0_pay7
  simp only [shapeCast_self]
  have b1 : ∀ (v : IVec S1024x1 32), broadcastTo S1024x1024 v broadcasts_S1024x1_S1024x1024 (ValueIdx.ix2 p q) = v (ValueIdx.ix2 p (0 : Fin 1)) := fun v =>
    broadcastTo_apply v _ (ValueIdx.ix2 p q) (ValueIdx.ix2 p (0 : Fin 1)) fun ax => by
      match ax with
      | ⟨0, _⟩ => rfl
      | ⟨1, _⟩ => rfl
  have b2 : ∀ (v : IVec S1x1024 32), broadcastTo S1024x1024 v broadcasts_S1x1024_S1024x1024 (ValueIdx.ix2 p q) = v (ValueIdx.ix2 (0 : Fin 1) q) := fun v =>
    broadcastTo_apply v _ (ValueIdx.ix2 p q) (ValueIdx.ix2 (0 : Fin 1) q) fun ax => by
      match ax with
      | ⟨0, _⟩ => rfl
      | ⟨1, _⟩ => rfl
  show IntOp.andi (IntOp.cmpi .eq (broadcastTo S1024x1024 x2 _ (ValueIdx.ix2 p q)) (broadcastTo S1024x1024 x4 _ (ValueIdx.ix2 p q)))
      (IntOp.cmpi .ne (broadcastTo S1024x1024 x3 _ (ValueIdx.ix2 p q)) (broadcastTo S1024x1024 x5 _ (ValueIdx.ix2 p q))) = _
  rw [b1 x2, b2 x4, b1 x3, b2 x5]

/-- The block's count of row p. -/
theorem pay9_apply (x2 : Vec Ideal S1024x1 .i32) (x4 : Vec Ideal S1x1024 .i32) (x3 : Vec Ideal S1024x1 .i32) (x5 : Vec Ideal S1x1024 .i32) (p : Fin 1024) :
    k0_pay9 (F := Ideal) x2 x4 x3 x5 (ValueIdx.ix1 p)
      = ∑ q : Fin 1024, FloatOps.sitofp (F := Ideal) .f32 ((k0_pay7 (F := Ideal) x2 x4 x3 x5 (ValueIdx.ix2 p q)).setWidth 32) := by
  unfold k0_pay9
  refine (Ideal.multiReduction_add_single _ _ _ _ _ (ValueIdx.ix1 p)).trans ?_
  show (∑ q : Fin 1024, _) = _
  refine Finset.sum_congr rfl fun q _ => ?_
  have e : reduces_S1024x1024_S1024.lift (ValueIdx.ix1 p) q = ValueIdx.ix2 p q := funext fun ax => Fin.ext (by
    match ax with
    | ⟨0, _⟩ => rfl
    | ⟨1, _⟩ => rfl)
  rw [e]
  rfl

end Cert.KernelIdeal.Hand

end
-- ==== Proof.KI.Value8.lean ====
/-
  The six input blocks at the point t = 8 i + j as parts of the host arrays: rows 1024 i … of the embeddings and of the
  two word columns, rows 1024 j … of the embeddings again, and columns 1024 j … of the two word rows.
-/
import proofs.«159163_j3478923509848_2_alg».proof.Proof.KI.Value7

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (V : (c : Dev nD) → (b : Ref sig .tc) → Buf (Elt F) ((c : Thread nD τ).loc b))

theorem widx0 : ∀ t : Fin cfg0.N, win0_0.index t 0 = t.val / 8 ∧ win0_0.index t 1 = 0 :=
  (by decide +kernel : ∀ t : Fin grid0.N, win0_0.index t 0 = t.val / 8 ∧ win0_0.index t 1 = 0)
theorem iblk0_apply (c : Dev nD) (t : Fin cfg0.N) (a : Fin 1024) (b : Fin 768) (g : S8192x768.Idx)
    (hg0 : (g 0).val = 1024 * (t.val / 8) + a.val) (hg1 : (g 1).val = b.val) :
    (iblk V c 0 t : S1024x768.Idx → Elt F .bf16) (ValueIdx.ix2 a b) = (V c main_v52 : S8192x768.Idx → Elt F .bf16) g := by
  obtain ⟨h0, h1⟩ := widx0 t
  unfold iblk
  rw [View.read_apply]
  show V c main_v52 _ = V c main_v52 _
  congr 1
  funext ax
  apply Fin.ext
  match ax with
  | ⟨0, _⟩ => show win0_0.index t 0 * 1024 + 1 * a.val = (g 0).val; rw [h0, hg0]; omega
  | ⟨1, _⟩ => show win0_0.index t 1 * 768 + 1 * b.val = (g 1).val; rw [h1, hg1]; omega
theorem widx1 : ∀ t : Fin cfg0.N, win0_1.index t 0 = t.val % 8 ∧ win0_1.index t 1 = 0 :=
  (by decide +kernel : ∀ t : Fin grid0.N, win0_1.index t 0 = t.val % 8 ∧ win0_1.index t 1 = 0)
theorem iblk1_apply (c : Dev nD) (t : Fin cfg0.N) (a : Fin 1024) (b : Fin 768) (g : S8192x768.Idx)
    (hg0 : (g 0).val = 1024 * (t.val % 8) + a.val) (hg1 : (g 1).val = b.val) :
    (iblk V c 1 t : S1024x768.Idx → Elt F .bf16) (ValueIdx.ix2 a b) = (V c main_v52 : S8192x768.Idx → Elt F .bf16) g := by
  obtain ⟨h0, h1⟩ := widx1 t
  unfold iblk
  rw [View.read_apply]
  show V c main_v52 _ = V c main_v52 _
  congr 1
  funext ax
  apply Fin.ext
  match ax with
  | ⟨0, _⟩ => show win0_1.index t 0 * 1024 + 1 * a.val = (g 0).val; rw [h0, hg0]; omega
  | ⟨1, _⟩ => show win0_1.index t 1 * 768 + 1 * b.val = (g 1).val; rw [h1, hg1]; omega
theorem widx2 : ∀ t : Fin cfg0.N, win0_2.index t 0 = t.val / 8 ∧ win0_2.index t 1 = 0 :=
  (by decide +kernel : ∀ t : Fin grid0.N, win0_2.index t 0 = t.val / 8 ∧ win0_2.index t 1 = 0)
theorem iblk2_apply (c : Dev nD) (t : Fin cfg0.N) (a : Fin 1024) (b : Fin 1) (g : S8192x1.Idx)
    (hg0 : (g 0).val = 1024 * (t.val / 8) + a.val) (hg1 : (g 1).val = b.val) :
    (iblk V c 2 t : S1024x1.Idx → Elt F .i32) (ValueIdx.ix2 a b) = (V c main_v53 : S8192x1.Idx → Elt F .i32) g := by
  obtain ⟨h0, h1⟩ := widx2 t
  unfold iblk
  rw [View.read_apply]
  show V c main_v53 _ = V c main_v53 _
  congr 1
  funext ax
  apply Fin.ext
  match ax with
  | ⟨0, _⟩ => show win0_2.index t 0 * 1024 + 1 * a.val = (g 0).val; rw [h0, hg0]; omega
  | ⟨1, _⟩ => show win0_2.index t 1 * 1 + 1 * b.val = (g 1).val; rw [h1, hg1]; omega
theorem widx3 : ∀ t : Fin cfg0.N, win0_3.index t 0 = t.val / 8 ∧ win0_3.index t 1 = 0 :=
  (by decide +kernel : ∀ t : Fin grid0.N, win0_3.index t 0 = t.val / 8 ∧ win0_3.index t 1 = 0)
theorem iblk3_apply (c : Dev nD) (t : Fin cfg0.N) (a : Fin 1024) (b : Fin 1) (g : S8192x1.Idx)
    (hg0 : (g 0).val = 1024 * (t.val / 8) + a.val) (hg1 : (g 1).val = b.val) :
    (iblk V c 3 t : S1024x1.Idx → Elt F .i32) (ValueIdx.ix2 a b) = (V c main_v54 : S8192x1.Idx → Elt F .i32) g := by
  obtain ⟨h0, h1⟩ := widx3 t
  unfold iblk
  rw [View.read_apply]
  show V c main_v54 _ = V c main_v54 _
  congr 1
  funext ax
  apply Fin.ext
  match ax with
  | ⟨0, _⟩ => show win0_3.index t 0 * 1024 + 1 * a.val = (g 0).val; rw [h0, hg0]; omega
  | ⟨1, _⟩ => show win0_3.index t 1 * 1 + 1 * b.val = (g 1).val; rw [h1, hg1]; omega
theorem widx4 : ∀ t : Fin cfg0.N, win0_4.index t 0 = 0 ∧ win0_4.index t 1 = t.val % 8 :=
  (by decide +kernel : ∀ t : Fin grid0.N, win0_4.index t 0 = 0 ∧ win0_4.index t 1 = t.val % 8)
theorem iblk4_apply (c : Dev nD) (t : Fin cfg0.N) (a : Fin 1) (b : Fin 1024) (g : S1x8192.Idx)
    (hg0 : (g 0).val = a.val) (hg1 : (g 1).val = 1024 * (t.val % 8) + b.val) :
    (iblk V c 4 t : S1x1024.Idx → Elt F .i32) (ValueIdx.ix2 a b) = (V c main_v55 : S1x8192.Idx → Elt F .i32) g := by
  obtain ⟨h0, h1⟩ := widx4 t
  unfold iblk
  rw [View.read_apply]
  show V c main_v55 _ = V c main_v55 _
  congr 1
  funext ax
  apply Fin.ext
  match ax with
  | ⟨0, _⟩ => show win0_4.index t 0 * 1 + 1 * a.val = (g 0).val; rw [h0, hg0]; omega
  | ⟨1, _⟩ => show win0_4.index t 1 * 1024 + 1 * b.val = (g 1).val; rw [h1, hg1]; omega
theorem widx5 : ∀ t : Fin cfg0.N, win0_5.index t 0 = 0 ∧ win0_5.index t 1 = t.val % 8 :=
  (by decide +kernel : ∀ t : Fin grid0.N, win0_5.index t 0 = 0 ∧ win0_5.index t 1 = t.val % 8)
theorem iblk5_apply (c : Dev nD) (t : Fin cfg0.N) (a : Fin 1) (b : Fin 1024) (g : S1x8192.Idx)
    (hg0 : (g 0).val = a.val) (hg1 : (g 1).val = 1024 * (t.val % 8) + b.val) :
    (iblk V c 5 t : S1x1024.Idx → Elt F .i32) (ValueIdx.ix2 a b) = (V c main_v56 : S1x8192.Idx → Elt F .i32) g := by
  obtain ⟨h0, h1⟩ := widx5 t
  unfold iblk
  rw [View.read_apply]
  show V c main_v56 _ = V c main_v56 _
  congr 1
  funext ax
  apply Fin.ext
  match ax with
  | ⟨0, _⟩ => show win0_5.index t 0 * 1 + 1 * a.val = (g 0).val; rw [h0, hg0]; omega
  | ⟨1, _⟩ => show win0_5.index t 1 * 1024 + 1 * b.val = (g 1).val; rw [h1, hg1]; omega

end Cert.KernelIdeal.Hand

end
-- ==== Proof.KI.Value9.lean ====
/-
  The host's read of a kernel result array: the eight rows' (a, 0, 0) entries added onto zero.
-/
import proofs.«159163_j3478923509848_2_alg».proof.Defs
import proofs.«159163_j3478923509848_2_alg».proof.Proof.KI.Value8

set_option maxRecDepth 65536

noncomputable section

namespace Cert.Proof.AlgK

open Idealize.ShloMosaic Idealize.ShloMosaic.TcCoe Idealize.SL.Sem
open Cert.KernelIdeal Cert.KernelIdeal.Gen Cert.KernelIdeal.Hand

/-- A sum over the indices of a rank-1 array is the sum over its coordinate. -/
theorem sum_idx1 {M : Type*} [AddCommMonoid M] {n : Nat} (f : (⟨1, ![n]⟩ : Shape).Idx → M) : ∑ i, f i = ∑ a : Fin n, f (ValueIdx.ix1 a) :=
  (Fintype.sum_equiv ⟨fun i => i 0, fun a => ValueIdx.ix1 a, fun i => (ValueIdx.eq_ix1 i).symm, fun a => rfl⟩ _ _ fun i => congrArg f (ValueIdx.eq_ix1 i))

/-- The host's read of a result array: the (a, 0, 0) entries of the eight rows, added onto zero. -/
theorem rows_sum (OUT : S8x8x128.Idx → EReal) (S : Fin 8 → EReal) (hO : ∀ a : Fin 8, OUT (ValueIdx.ix3 a (0 : Fin 8) (0 : Fin 128)) = S a) (j : S_.Idx) :
    Host.reduceAdd (F := Ideal)
      (fun i => shapeCast S8 (extractStridedSlice S8x1x1 ![0, 0, 0] OUT slices_S8x8x128_S8x1x1_0_0_0) shapeCasts_S8x1x1_S8 i)
      (constant (F := Ideal) S_ FTy.f32 0#32) reducesTo_S8_S_d0 h_S_ j
      = 0 + ∑ a : Fin 8, S a := by
  simp only [Host.reduceAdd, Ideal.hostReduceAdd_def]
  refine (Ideal.hostReduceAdd_total reducesTo_S8_S_d0 (fun bb => bb.elim0) _ _ j).trans ?_
  congr 1
  · exact Ideal.ofBits_zero_f32
  rw [sum_idx1]
  refine Finset.sum_congr rfl fun a _ => ?_
  rw [← hO a]
  refine (shapeCast_apply _ _ _ (ValueIdx.ix3 a (0 : Fin 1) (0 : Fin 1)) (by
    rw [Shape.rowMajor_val_three, Shape.rowMajor_val_one]
    show (a.val * 1 + 0) * 1 + 0 = a.val
    omega)).trans ?_
  exact extractStridedSlice_apply _ _ _ _ (ValueIdx.ix3 a (0 : Fin 8) (0 : Fin 128)) (fun ax => by
    match ax with
    | ⟨0, _⟩ => show a.val = 0 + a.val; omega
    | ⟨1, _⟩ => rfl
    | ⟨2, _⟩ => rfl)

end Cert.Proof.AlgK

end
-- ==== Proof.LibBlockSum.lean ====
/-
  Sums over a range cut into equal blocks, in any commutative monoid (the extended reals among them): the sum over
  `Fin (nb * B)` is the sum over the blocks of the sums inside each block, and the same for a double sum over pairs
  — what a tiled reduction (a grid of blocks, each summed, the block sums added up) computes of a sum over the whole range.
-/
import Mathlib.Algebra.BigOperators.Fin
import Mathlib.Logic.Equiv.Fin.Basic

namespace LibBlockSum

open Finset

/-- The element of the whole range at position `p` of block `i`. -/
def blk (nb B : ℕ) (i : Fin nb) (p : Fin B) : Fin (nb * B) := finProdFinEquiv (i, p)

theorem blk_val (nb B : ℕ) (i : Fin nb) (p : Fin B) : (blk nb B i p).val = p.val + B * i.val := rfl

/-- A sum over the whole range is the sum over the blocks of the sums inside each. -/
theorem sum_blocks {M : Type*} [AddCommMonoid M] (nb B : ℕ) (f : Fin (nb * B) → M) :
    ∑ P : Fin (nb * B), f P = ∑ i : Fin nb, ∑ p : Fin B, f (blk nb B i p) := by
  rw [← (finProdFinEquiv (m := nb) (n := B)).sum_comp f, Fintype.sum_prod_type]
  rfl

/-- A double sum over pairs of the whole range is the sum over pairs of blocks of the double sums inside each pair. -/
theorem sum_blocks₂ {M : Type*} [AddCommMonoid M] (nb B : ℕ) (f : Fin (nb * B) → Fin (nb * B) → M) :
    ∑ P : Fin (nb * B), ∑ Q : Fin (nb * B), f P Q
      = ∑ i : Fin nb, ∑ j : Fin nb, ∑ p : Fin B, ∑ q : Fin B, f (blk nb B i p) (blk nb B j q) := by
  rw [sum_blocks nb B]
  refine Finset.sum_congr rfl fun i _ => ?_
  exact (Finset.sum_congr rfl fun p _ => sum_blocks nb B (f (blk nb B i p))).trans Finset.sum_comm

/-- Eight summands added in order onto zero are their sum. -/
theorem fold8 {M : Type*} [AddCommMonoid M] (b : Fin 8 → M) :
    (((((((0 + b 0) + b 1) + b 2) + b 3) + b 4) + b 5) + b 6) + b 7 = ∑ j : Fin 8, b j := by
  simp [Fin.sum_univ_eight]

end LibBlockSum
-- ==== Proof.LibPairSum.lean ====
/-
  A double sum over all pairs of a range of 8 * 1024 elements against the same sum taken block pair by block pair on an
  8 x 8 grid of 1024 x 1024 blocks, each row of blocks added up first — in any commutative monoid.
-/
import proofs.«159163_j3478923509848_2_alg».proof.Proof.LibBlockSum

namespace LibPairSum

open Finset

/-- The grid's total is the whole double sum: `B a p` is element p of block a. -/
theorem grid_total {M : Type*} [AddCommMonoid M] (f : Fin 8192 → Fin 8192 → M) (B : Fin 8 → Fin 1024 → Fin 8192)
    (hB : ∀ a p, (B a p).val = 1024 * a.val + p.val) :
    (∑ a : Fin 8, ∑ j : Fin 8, ∑ p : Fin 1024, ∑ q : Fin 1024, f (B a p) (B j q)) = ∑ P : Fin 8192, ∑ Q : Fin 8192, f P Q := by
  have e : ∀ a p, B a p = LibBlockSum.blk 8 1024 a p := fun a p => Fin.ext (by rw [hB, LibBlockSum.blk_val]; omega)
  have h := LibBlockSum.sum_blocks₂ 8 1024 (show Fin (8 * 1024) → Fin (8 * 1024) → M from f)
  rw [show (∑ P : Fin 8192, ∑ Q : Fin 8192, f P Q) = ∑ P : Fin (8 * 1024), ∑ Q : Fin (8 * 1024), f P Q from rfl, h]
  refine Finset.sum_congr rfl fun a _ => Finset.sum_congr rfl fun j _ => Finset.sum_congr rfl fun p _ => Finset.sum_congr rfl fun q _ => ?_
  rw [e, e]

end LibPairSum
-- ==== Proof.AlgK.lean ====
/-
  The kernel program's repulsion numerator at the ideal instance: the host's read of result array 0 is the sum over all
  8192 x 8192 pairs of the masked penalties, the normalised embeddings, the batch words and the label words read as
  the region finds them.
-/
import proofs.«159163_j3478923509848_2_alg».proof.Defs
import proofs.«159163_j3478923509848_2_alg».proof.Proof.KI.Frame2
import proofs.«159163_j3478923509848_2_alg».proof.Proof.KI.Value9
import proofs.«159163_j3478923509848_2_alg».proof.Proof.LibPairSum

set_option maxRecDepth 65536

noncomputable section

namespace Cert.Proof.AlgK

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ) (ρ : Dev nD → PrngReg)

/-- The normalised embeddings as the region finds them (the host's norm, divide and convert applied to the argument). -/
def E (c : Dev nD) : S8192x768.Idx → EReal := fun g => (V12 m ρ c main_v52 : S8192x768.Idx → EReal) g
theorem v52_apply (c : Dev nD) (g : S8192x768.Idx) : (V12 m ρ c main_v52 : S8192x768.Idx → EReal) g = E m ρ c g := rfl

set_option maxHeartbeats 16000000 in
theorem v53_apply (c : Dev nD) (P : Fin 8192) :
    (V12 m ρ c main_v53 : S8192x1.Idx → BitVec 32) (ValueIdx.ix2 P (0 : Fin 1)) = (m ((c.tc : Thread nD τ).loc main_arg2) : S8192.Idx → BitVec 32) (ValueIdx.ix1 P) := by
  have h : (V12 m ρ c main_v53 : S8192x1.Idx → BitVec 32) = (fun i => shapeCast S8192x1 (show S8192.Idx → BitVec 32 from m ((c.tc : Thread nD τ).loc main_arg2)) shapeCasts_S8192_S8192x1 i) := by
    show (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))))))) (Proc.devRef .tc main_v53) = _
    simp only [hostOps0, hostOps0_1, hostOps0_2, hostOps0_3, hostOps0_4, hostOps0_5, hostOps0_6, hostOps0_7, hostOps0_8, hostOps0_9, hostOps0_10, hostOps0_11]
    after_results_simp
    rfl
  rw [h]
  exact shapeCast_apply _ _ _ (ValueIdx.ix1 P) (by
    rw [Shape.rowMajor_val_two, Shape.rowMajor_val_one]
    show P.val = P.val * 1 + 0
    omega)
set_option maxHeartbeats 16000000 in
theorem v54_apply (c : Dev nD) (P : Fin 8192) :
    (V12 m ρ c main_v54 : S8192x1.Idx → BitVec 32) (ValueIdx.ix2 P (0 : Fin 1)) = (m ((c.tc : Thread nD τ).loc main_arg3) : S8192.Idx → BitVec 32) (ValueIdx.ix1 P) := by
  have h : (V12 m ρ c main_v54 : S8192x1.Idx → BitVec 32) = (fun i => shapeCast S8192x1 (show S8192.Idx → BitVec 32 from m ((c.tc : Thread nD τ).loc main_arg3)) shapeCasts_S8192_S8192x1 i) := by
    show (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))))))) (Proc.devRef .tc main_v54) = _
    simp only [hostOps0, hostOps0_1, hostOps0_2, hostOps0_3, hostOps0_4, hostOps0_5, hostOps0_6, hostOps0_7, hostOps0_8, hostOps0_9, hostOps0_10, hostOps0_11]
    after_results_simp
    rfl
  rw [h]
  exact shapeCast_apply _ _ _ (ValueIdx.ix1 P) (by
    rw [Shape.rowMajor_val_two, Shape.rowMajor_val_one]
    show P.val = P.val * 1 + 0
    omega)
set_option maxHeartbeats 16000000 in
theorem v55_apply (c : Dev nD) (P : Fin 8192) :
    (V12 m ρ c main_v55 : S1x8192.Idx → BitVec 32) (ValueIdx.ix2 (0 : Fin 1) P) = (m ((c.tc : Thread nD τ).loc main_arg2) : S8192.Idx → BitVec 32) (ValueIdx.ix1 P) := by
  have h : (V12 m ρ c main_v55 : S1x8192.Idx → BitVec 32) = (fun i => shapeCast S1x8192 (show S8192.Idx → BitVec 32 from m ((c.tc : Thread nD τ).loc main_arg2)) shapeCasts_S8192_S1x8192 i) := by
    show (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))))))) (Proc.devRef .tc main_v55) = _
    simp only [hostOps0, hostOps0_1, hostOps0_2, hostOps0_3, hostOps0_4, hostOps0_5, hostOps0_6, hostOps0_7, hostOps0_8, hostOps0_9, hostOps0_10, hostOps0_11]
    after_results_simp
    rfl
  rw [h]
  exact shapeCast_apply _ _ _ (ValueIdx.ix1 P) (by
    rw [Shape.rowMajor_val_two, Shape.rowMajor_val_one]
    show P.val = 0 * 8192 + P.val
    omega)
set_option maxHeartbeats 16000000 in
theorem v56_apply (c : Dev nD) (P : Fin 8192) :
    (V12 m ρ c main_v56 : S1x8192.Idx → BitVec 32) (ValueIdx.ix2 (0 : Fin 1) P) = (m ((c.tc : Thread nD τ).loc main_arg3) : S8192.Idx → BitVec 32) (ValueIdx.ix1 P) := by
  have h : (V12 m ρ c main_v56 : S1x8192.Idx → BitVec 32) = (fun i => shapeCast S1x8192 (show S8192.Idx → BitVec 32 from m ((c.tc : Thread nD τ).loc main_arg3)) shapeCasts_S8192_S1x8192 i) := by
    show (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))))))) (Proc.devRef .tc main_v56) = _
    simp only [hostOps0, hostOps0_1, hostOps0_2, hostOps0_3, hostOps0_4, hostOps0_5, hostOps0_6, hostOps0_7, hostOps0_8, hostOps0_9, hostOps0_10, hostOps0_11]
    after_results_simp
    rfl
  rw [h]
  exact shapeCast_apply _ _ _ (ValueIdx.ix1 P) (by
    rw [Shape.rowMajor_val_two, Shape.rowMajor_val_one]
    show P.val = 0 * 8192 + P.val
    omega)

/-- The batch word and the label word of element P. -/
def bw (c : Dev nD) (P : Fin 8192) : BitVec 32 := (m ((c.tc : Thread nD τ).loc main_arg2) : S8192.Idx → BitVec 32) (ValueIdx.ix1 P)
def lw (c : Dev nD) (P : Fin 8192) : BitVec 32 := (m ((c.tc : Thread nD τ).loc main_arg3) : S8192.Idx → BitVec 32) (ValueIdx.ix1 P)
/-- The pair mask, as the kernel spells it: same batch word, different label word. -/
def maskK (c : Dev nD) (P Q : Fin 8192) : BitVec 1 := IntOp.andi (IntOp.cmpi .eq (bw m c P) (bw m c Q)) (IntOp.cmpi .ne (lw m c P) (lw m c Q))
/-- The masked penalty of the pair (P, Q). -/
def fK (c : Dev nD) (P Q : Fin 8192) : EReal :=
  Scalar.select (maskK m c P Q)
    (max ((∑ k : Fin 768, E m ρ c (ValueIdx.ix2 P k) * E m ρ c (ValueIdx.ix2 Q k)) - Ideal.ofBits .f32 0x3E99999A#32) (Ideal.ofBits .f32 0x00000000#32))
    (Ideal.ofBits .f32 0x00000000#32)
/-- Element p of block a. -/
def B (a : Fin 8) (p : Fin 1024) : Fin 8192 := ⟨1024 * a.val + p.val, by omega⟩

set_option maxHeartbeats 4000000 in
/-- The block sum of the point 8 a + j is the double sum of the masked penalties over the block's pairs. -/
theorem bs_eq (c : Dev nD) (a j : Fin 8) :
    bs (V12 m ρ) c (8 * a.val + j.val) = ∑ p : Fin 1024, ∑ q : Fin 1024, fK m ρ c (B a p) (B j q) := by
  have hN : cfg0.N = 64 := N_0
  have ht : 8 * a.val + j.val < cfg0.N := by omega
  have hd : (8 * a.val + j.val) / 8 = a.val := by omega
  have hm : (8 * a.val + j.val) % 8 = j.val := by omega
  unfold bs; rw [dif_pos ht]
  show k0_pay8 _ _ _ _ _ _ (ValueIdx.ix2 (0 : Fin 1) (0 : Fin 1)) = _
  rw [pay8_apply]
  refine Finset.sum_congr rfl fun p _ => Finset.sum_congr rfl fun q _ => ?_
  have e0 : ∀ k : Fin 768, (iblk (V12 m ρ) c 0 ⟨_, ht⟩ : S1024x768.Idx → EReal) (ValueIdx.ix2 p k) = E m ρ c (ValueIdx.ix2 (B a p) k) := fun k =>
    (iblk0_apply (V12 m ρ) c ⟨_, ht⟩ p k (ValueIdx.ix2 (B a p) k) (by show 1024 * a.val + p.val = 1024 * ((8 * a.val + j.val) / 8) + p.val; rw [hd]) rfl).trans (v52_apply m ρ c _)
  have e1 : ∀ k : Fin 768, (iblk (V12 m ρ) c 1 ⟨_, ht⟩ : S1024x768.Idx → EReal) (ValueIdx.ix2 q k) = E m ρ c (ValueIdx.ix2 (B j q) k) := fun k =>
    (iblk1_apply (V12 m ρ) c ⟨_, ht⟩ q k (ValueIdx.ix2 (B j q) k) (by show 1024 * j.val + q.val = 1024 * ((8 * a.val + j.val) % 8) + q.val; rw [hm]) rfl).trans (v52_apply m ρ c _)
  have e2 : (iblk (V12 m ρ) c 2 ⟨_, ht⟩ : S1024x1.Idx → BitVec 32) (ValueIdx.ix2 p (0 : Fin 1)) = bw m c (B a p) :=
    (iblk2_apply (V12 m ρ) c ⟨_, ht⟩ p 0 (ValueIdx.ix2 (B a p) (0 : Fin 1)) (by show 1024 * a.val + p.val = 1024 * ((8 * a.val + j.val) / 8) + p.val; rw [hd]) rfl).trans (v53_apply m ρ c (B a p))
  have e3 : (iblk (V12 m ρ) c 3 ⟨_, ht⟩ : S1024x1.Idx → BitVec 32) (ValueIdx.ix2 p (0 : Fin 1)) = lw m c (B a p) :=
    (iblk3_apply (V12 m ρ) c ⟨_, ht⟩ p 0 (ValueIdx.ix2 (B a p) (0 : Fin 1)) (by show 1024 * a.val + p.val = 1024 * ((8 * a.val + j.val) / 8) + p.val; rw [hd]) rfl).trans (v54_apply m ρ c (B a p))
  have e4 : (iblk (V12 m ρ) c 4 ⟨_, ht⟩ : S1x1024.Idx → BitVec 32) (ValueIdx.ix2 (0 : Fin 1) q) = bw m c (B j q) :=
    (iblk4_apply (V12 m ρ) c ⟨_, ht⟩ 0 q (ValueIdx.ix2 (0 : Fin 1) (B j q)) rfl (by show 1024 * j.val + q.val = 1024 * ((8 * a.val + j.val) % 8) + q.val; rw [hm])).trans (v55_apply m ρ c (B j q))
  have e5 : (iblk (V12 m ρ) c 5 ⟨_, ht⟩ : S1x1024.Idx → BitVec 32) (ValueIdx.ix2 (0 : Fin 1) q) = lw m c (B j q) :=
    (iblk5_apply (V12 m ρ) c ⟨_, ht⟩ 0 q (ValueIdx.ix2 (0 : Fin 1) (B j q)) rfl (by show 1024 * j.val + q.val = 1024 * ((8 * a.val + j.val) % 8) + q.val; rw [hm])).trans (v56_apply m ρ c (B j q))
  rw [pay7_apply, e2, e3, e4, e5]
  simp only [e0, e1]
  rfl

set_option maxHeartbeats 4000000 in
/-- The kernel program's numerator: the sum over all pairs of the masked penalties. -/
theorem numK_apply (c : Dev nD) (OUT : S8x8x128.Idx → EReal) (hOUT : OUT = (W13 m ρ c (Proc.devRef .tc main_v57_0) : S8x8x128.Idx → EReal)) (j : S_.Idx) :
    Host.reduceAdd (F := Ideal)
      (fun i => shapeCast S8 (extractStridedSlice S8x1x1 ![0, 0, 0] OUT slices_S8x8x128_S8x1x1_0_0_0) shapeCasts_S8x1x1_S8 i)
      (constant (F := Ideal) S_ FTy.f32 0#32) reducesTo_S8_S_d0 h_S_ j
      = 0 + ∑ P : Fin 8192, ∑ Q : Fin 8192, fK m ρ c P Q := by
  have hN : cfg0.N = 64 := N_0
  have hO : ∀ a : Fin 8, OUT (ValueIdx.ix3 a (0 : Fin 8) (0 : Fin 128)) = ∑ jj : Fin 8, bs (V12 m ρ) c (8 * a.val + jj.val) := by
    intro a
    rw [hOUT, W13_out0, final6, G6_apply, acc1_last]
  refine (rows_sum OUT _ hO j).trans ?_
  congr 1
  rw [← LibPairSum.grid_total (fK m ρ c) B (fun a p => rfl)]
  exact Finset.sum_congr rfl fun a _ => Finset.sum_congr rfl fun jj _ => bs_eq m ρ c a jj

end Cert.Proof.AlgK

end
-- ==== Proof.AlgR.lean ====
/-
  The reference's repulsion numerator at the ideal instance, from the arguments: the sum over all pairs (P, Q) of the
  penalty max(<E_P, E_Q> - 0.3, 0) where the labels differ and the batch words agree.
-/
import proofs.«159163_j3478923509848_2_alg».proof.Defs
import proofs.«159163_j3478923509848_2_alg».proof.Proof.RefOps
import Idealize.ShloMosaic.Lib.ValueLayout
import Idealize.ShloMosaic.Lib.Pipeline.Value
import Idealize.ShloMosaic.PureOps.Ideal.Laws

set_option maxRecDepth 65536

noncomputable section

namespace Cert.Proof.AlgR

open Idealize.ShloMosaic Idealize.ShloMosaic.TcCoe Idealize.SL.Sem
open Cert.ReferenceIdeal Cert.ReferenceIdeal.Gen

variable (x4 : FVec Ideal S8192x768 .f32) (b l : IVec S8192 32)

/-- The normalised embeddings. -/
def ER : FVec Ideal S8192x768 .f32 := Host.divf (F := Ideal) x4 (broadcastInDim S8192x768 ![0, 1] bcast_S8192x1_S8192x768_0_1 (maximumf (Host.sqrt (F := Ideal) (broadcastInDim S8192x1 ![0] bcast_S8192_S8192x1_0 (Host.reduceAdd (F := Ideal) (mulf x4 x4) (constant (F := Ideal) S_ FTy.f32 0#32) reducesTo_S8192x768_S8192_d1 h_S_))) (broadcastInDim S8192x1 ![] bcast_S_S8192x1 (constant (F := Ideal) S_ FTy.f32 730643660#32))))

theorem lhs_0 (i : S8192x8192.Idx) (q : dot_S8192x768_S768x8192_S8192x8192_1_0_0_1_n_n.contr.Idx) : (dot_S8192x768_S768x8192_S8192x8192_1_0_0_1_n_n.lhsIdx i q 0).val = (i 0).val := by
  unfold DotDims.lhsIdx
  rw [dif_neg (show ¬(0 : Fin S8192x768.rank) ∈ dot_S8192x768_S768x8192_S8192x8192_1_0_0_1_n_n.lhsBatch by decide), dif_pos (show (0 : Fin S8192x768.rank) ∈ dot_S8192x768_S768x8192_S8192x8192_1_0_0_1_n_n.lhsNonContracting by decide)]
  rfl
theorem lhs_1 (i : S8192x8192.Idx) (q : dot_S8192x768_S768x8192_S8192x8192_1_0_0_1_n_n.contr.Idx) : (dot_S8192x768_S768x8192_S8192x8192_1_0_0_1_n_n.lhsIdx i q 1).val = (q ⟨0, by decide⟩).val :=
  dot_S8192x768_S768x8192_S8192x8192_1_0_0_1_n_n.lhsIdx_val_of_single rfl i q
theorem rhs_0 (i : S8192x8192.Idx) (q : dot_S8192x768_S768x8192_S8192x8192_1_0_0_1_n_n.contr.Idx) : (dot_S8192x768_S768x8192_S8192x8192_1_0_0_1_n_n.rhsIdx i q 0).val = (q ⟨0, by decide⟩).val :=
  dot_S8192x768_S768x8192_S8192x8192_1_0_0_1_n_n.rhsIdx_val_of_single rfl i q
theorem rhs_1 (i : S8192x8192.Idx) (q : dot_S8192x768_S768x8192_S8192x8192_1_0_0_1_n_n.contr.Idx) : (dot_S8192x768_S768x8192_S8192x8192_1_0_0_1_n_n.rhsIdx i q 1).val = (i 1).val := by
  unfold DotDims.rhsIdx
  rw [dif_neg (show ¬(1 : Fin S768x8192.rank) ∈ dot_S8192x768_S768x8192_S8192x8192_1_0_0_1_n_n.rhsBatch by decide), dif_pos (show (1 : Fin S768x8192.rank) ∈ dot_S8192x768_S768x8192_S8192x8192_1_0_0_1_n_n.rhsNonContracting by decide)]
  rfl

/-- The similarity of the pair (P, Q). -/
theorem dot_apply (A : FVec Ideal S8192x768 .f32) (P Q : Fin 8192) :
    Host.dotGeneral (F := Ideal) dot_S8192x768_S768x8192_S8192x8192_1_0_0_1_n_n none A (transpose S768x8192 [1, 0] A transposes_S8192x768_S768x8192_1_0) (ValueIdx.ix2 P Q)
      = ∑ k : Fin 768, A (ValueIdx.ix2 P k) * A (ValueIdx.ix2 Q k) := by
  simp only [Host.dotGeneral]
  rw [Ideal.dotGeneral_apply, ← Equiv.sum_comp (ValueIdx.contrEquiv1 dot_S8192x768_S768x8192_S8192x8192_1_0_0_1_n_n 768 rfl rfl).symm]
  refine Finset.sum_congr rfl fun k _ => ?_
  have hk := ValueIdx.contrEquiv1_symm_val dot_S8192x768_S768x8192_S8192x8192_1_0_0_1_n_n 768 rfl rfl k
  have el : dot_S8192x768_S768x8192_S8192x8192_1_0_0_1_n_n.lhsIdx (ValueIdx.ix2 P Q) ((ValueIdx.contrEquiv1 dot_S8192x768_S768x8192_S8192x8192_1_0_0_1_n_n 768 rfl rfl).symm k) = ValueIdx.ix2 P k := funext fun ax => Fin.ext (by
    match ax with
    | ⟨0, _⟩ => exact lhs_0 _ _
    | ⟨1, _⟩ => exact (lhs_1 _ _).trans hk)
  have er : dot_S8192x768_S768x8192_S8192x8192_1_0_0_1_n_n.rhsIdx (ValueIdx.ix2 P Q) ((ValueIdx.contrEquiv1 dot_S8192x768_S768x8192_S8192x8192_1_0_0_1_n_n 768 rfl rfl).symm k) = ValueIdx.ix2 k Q := funext fun ax => Fin.ext (by
    match ax with
    | ⟨0, _⟩ => exact (rhs_0 _ _).trans hk
    | ⟨1, _⟩ => exact rhs_1 _ _)
  rw [el, er, ValueIdx.transpose_ix2_apply]

/-- The pair mask, as the reference spells it. -/
def maskR (P Q : Fin 8192) : BitVec 1 :=
  IntOp.andi (IntOp.cmpi .ne (l (ValueIdx.ix1 Q)) (l (ValueIdx.ix1 P))) (IntOp.cmpi .eq (b (ValueIdx.ix1 Q)) (b (ValueIdx.ix1 P)))

theorem bc_row (v : IVec S8192 32) (P Q : Fin 8192) :
    broadcastInDim S8192x8192 ![0, 1] bcast_S1x8192_S8192x8192_0_1 (broadcastInDim S1x8192 ![1] bcast_S8192_S1x8192_1 v) (ValueIdx.ix2 P Q) = v (ValueIdx.ix1 Q) := by
  rw [broadcastInDim_apply _ _ _ (ValueIdx.ix2 P Q) (ValueIdx.ix2 (0 : Fin 1) Q) (fun ax => by match ax with | ⟨0, _⟩ => rfl | ⟨1, _⟩ => rfl)]
  exact broadcastInDim_apply _ _ _ (ValueIdx.ix2 (0 : Fin 1) Q) (ValueIdx.ix1 Q) (fun ax => by match ax with | ⟨0, _⟩ => rfl)
theorem bc_col (v : IVec S8192 32) (P Q : Fin 8192) :
    broadcastInDim S8192x8192 ![0, 1] bcast_S8192x1_S8192x8192_0_1 (broadcastInDim S8192x1 ![0] bcast_S8192_S8192x1_0 v) (ValueIdx.ix2 P Q) = v (ValueIdx.ix1 P) := by
  rw [broadcastInDim_apply _ _ _ (ValueIdx.ix2 P Q) (ValueIdx.ix2 P (0 : Fin 1)) (fun ax => by match ax with | ⟨0, _⟩ => rfl | ⟨1, _⟩ => rfl)]
  exact broadcastInDim_apply _ _ _ (ValueIdx.ix2 P (0 : Fin 1)) (ValueIdx.ix1 P) (fun ax => by match ax with | ⟨0, _⟩ => rfl)

set_option maxHeartbeats 4000000 in
/-- The numerator: the sum over all pairs. -/
theorem numR_apply (j : S_.Idx) :
    (Host.reduceAdd (F := Ideal) (select (andi (cmpi CmpIPredicate.ne (broadcastInDim S8192x8192 ![0, 1] bcast_S1x8192_S8192x8192_0_1 (broadcastInDim S1x8192 ![1] bcast_S8192_S1x8192_1 l)) (broadcastInDim S8192x8192 ![0, 1] bcast_S8192x1_S8192x8192_0_1 (broadcastInDim S8192x1 ![0] bcast_S8192_S8192x1_0 l))) (cmpi CmpIPredicate.eq (broadcastInDim S8192x8192 ![0, 1] bcast_S1x8192_S8192x8192_0_1 (broadcastInDim S1x8192 ![1] bcast_S8192_S1x8192_1 b)) (broadcastInDim S8192x8192 ![0, 1] bcast_S8192x1_S8192x8192_0_1 (broadcastInDim S8192x1 ![0] bcast_S8192_S8192x1_0 b)))) (maximumf (subf (Host.dotGeneral (F := Ideal) dot_S8192x768_S768x8192_S8192x8192_1_0_0_1_n_n none (ER x4) (transpose S768x8192 [1, 0] (ER x4) transposes_S8192x768_S768x8192_1_0)) (broadcastInDim S8192x8192 ![] bcast_S_S8192x8192 (constant (F := Ideal) S_ FTy.f32 1050253722#32))) (broadcastInDim S8192x8192 ![] bcast_S_S8192x8192 (constant (F := Ideal) S_ FTy.f32 0#32))) (broadcastInDim S8192x8192 ![] bcast_S_S8192x8192 (id (constant (F := Ideal) S_ FTy.f32 0#32)))) (constant (F := Ideal) S_ FTy.f32 0#32) reducesTo_S8192x8192_S_d0_1 h_S_) j
      = 0 + ∑ P : Fin 8192, ∑ Q : Fin 8192, Scalar.select (maskR b l P Q)
          (max ((∑ k : Fin 768, ER x4 (ValueIdx.ix2 P k) * ER x4 (ValueIdx.ix2 Q k)) - Ideal.ofBits .f32 1050253722#32) (Ideal.ofBits .f32 0#32))
          (Ideal.ofBits .f32 0#32) := by
  simp only [Host.reduceAdd, Ideal.hostReduceAdd_def]
  refine (Ideal.hostReduceAdd_total reducesTo_S8192x8192_S_d0_1 (fun bb => bb.elim0) _ _ j).trans ?_
  rw [ValueIdx.sum_idx2]
  congr 1
  · exact Ideal.ofBits_zero_f32
  refine Finset.sum_congr rfl fun P _ => Finset.sum_congr rfl fun Q _ => ?_
  rw [ValueIdx.select_apply, ValueIdx.maximumf_apply, ValueIdx.subf_apply, dot_apply]
  show Scalar.select (IntOp.andi (IntOp.cmpi .ne (broadcastInDim S8192x8192 ![0, 1] bcast_S1x8192_S8192x8192_0_1 (broadcastInDim S1x8192 ![1] bcast_S8192_S1x8192_1 l) (ValueIdx.ix2 P Q))
        (broadcastInDim S8192x8192 ![0, 1] bcast_S8192x1_S8192x8192_0_1 (broadcastInDim S8192x1 ![0] bcast_S8192_S8192x1_0 l) (ValueIdx.ix2 P Q)))
      (IntOp.cmpi .eq (broadcastInDim S8192x8192 ![0, 1] bcast_S1x8192_S8192x8192_0_1 (broadcastInDim S1x8192 ![1] bcast_S8192_S1x8192_1 b) (ValueIdx.ix2 P Q))
        (broadcastInDim S8192x8192 ![0, 1] bcast_S8192x1_S8192x8192_0_1 (broadcastInDim S8192x1 ![0] bcast_S8192_S8192x1_0 b) (ValueIdx.ix2 P Q)))) _ _ = _
  rw [bc_row, bc_col, bc_row, bc_col]
  rfl

end Cert.Proof.AlgR

end
-- ==== Proof.LibMask.lean ====
/-
  The pair mask in its two spellings: "same batch word and different label word" reads the same whichever element of the
  pair is named first and whichever test is written first.
-/
import Idealize.ShloMosaic.PureOps.Float

namespace LibMask

open Idealize.ShloMosaic

theorem mask_sym (x y u v : BitVec 32) :
    IntOp.andi (IntOp.cmpi .ne y x) (IntOp.cmpi .eq v u) = IntOp.andi (IntOp.cmpi .eq u v) (IntOp.cmpi .ne x y) := by
  unfold IntOp.andi IntOp.cmpi
  have h1 : (y != x) = (x != y) := by
    by_cases h : x = y
    · subst h; rfl
    · have h' : ¬ y = x := fun e => h e.symm
      rw [bne_iff_ne.mpr h', bne_iff_ne.mpr h]
  have h2 : (v == u) = (u == v) := by
    by_cases h : u = v
    · subst h; rfl
    · have h' : ¬ v = u := fun e => h e.symm
      rw [beq_eq_false_iff_ne.mpr h', beq_eq_false_iff_ne.mpr h]
  show BitVec.ofBool (y != x) &&& BitVec.ofBool (v == u) = BitVec.ofBool (u == v) &&& BitVec.ofBool (x != y)
  rw [h1, h2, BitVec.and_comm]

end LibMask
-- ==== Proof.AlgN.lean ====
/-
  The two programs' repulsion numerators agree: the kernel side's normalised embeddings are the reference's (the
  conversion to bf16 is the identity at the ideal instance), the two spellings of the pair mask agree, the margin literal
  is one literal.
-/
import proofs.«159163_j3478923509848_2_alg».proof.Defs
import proofs.«159163_j3478923509848_2_alg».proof.Proof.AlgK
import proofs.«159163_j3478923509848_2_alg».proof.Proof.AlgR
import proofs.«159163_j3478923509848_2_alg».proof.Proof.LibMask

set_option maxRecDepth 65536

noncomputable section

namespace Cert.Proof.AlgE

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ) (ρ : Dev nD → PrngReg)

set_option maxHeartbeats 16000000 in
theorem E_eq (c : Dev nD) :
    (V12 m ρ c main_v52 : FVec Ideal S8192x768 .bf16)
      = truncf (F := Ideal) FTy.bf16 (Cert.Proof.AlgR.ER (show FVec Ideal Cert.ReferenceIdeal.S8192x768 .f32 from m ((c.tc : Thread nD τ).loc main_arg4))) bitsLt_bf16_f32 := by
  show (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))))))) (Proc.devRef .tc main_v52) = _
  simp only [hostOps0, hostOps0_1, hostOps0_2, hostOps0_3, hostOps0_4, hostOps0_5, hostOps0_6, hostOps0_7, hostOps0_8, hostOps0_9, hostOps0_10, hostOps0_11]
  after_results_simp
  (try simp only [TRef.ofBuf, TRef.toBuf, cast_eq])
  unfold Cert.Proof.AlgR.ER
  refine congrArg (fun x => truncf (F := Ideal) FTy.bf16 x bitsLt_bf16_f32) ?_
  rfl

set_option maxHeartbeats 8000000 in
/-- The two numerators agree. -/
theorem num_eq (c : Dev nD) (OUT : S8x8x128.Idx → EReal) (hOUT : OUT = (W13 m ρ c (Proc.devRef .tc main_v57_0) : S8x8x128.Idx → EReal)) (j : S_.Idx)
    (x4 : FVec Ideal Cert.ReferenceIdeal.S8192x768 .f32) (b l : IVec Cert.ReferenceIdeal.S8192 32)
    (hx : x4 = m ((c.tc : Thread nD τ).loc main_arg4)) (hb : b = m ((c.tc : Thread nD τ).loc main_arg2)) (hl : l = m ((c.tc : Thread nD τ).loc main_arg3))
    (NR : EReal) (hNR : NR = 0 + ∑ P : Fin 8192, ∑ Q : Fin 8192, Scalar.select (Cert.Proof.AlgR.maskR b l P Q)
          (max ((∑ k : Fin 768, Cert.Proof.AlgR.ER x4 (ValueIdx.ix2 P k) * Cert.Proof.AlgR.ER x4 (ValueIdx.ix2 Q k)) - Ideal.ofBits .f32 1050253722#32) (Ideal.ofBits .f32 0#32))
          (Ideal.ofBits .f32 0#32)) :
    Host.reduceAdd (F := Ideal)
      (fun i => shapeCast S8 (extractStridedSlice S8x1x1 ![0, 0, 0] OUT slices_S8x8x128_S8x1x1_0_0_0) shapeCasts_S8x1x1_S8 i)
      (constant (F := Ideal) S_ FTy.f32 0#32) reducesTo_S8_S_d0 h_S_ j = NR := by
  rw [Cert.Proof.AlgK.numK_apply m ρ c OUT hOUT j, hNR]
  congr 1
  refine Finset.sum_congr rfl fun P _ => Finset.sum_congr rfl fun Q _ => ?_
  have hE : ∀ g : S8192x768.Idx, Cert.Proof.AlgK.E m ρ c g = Cert.Proof.AlgR.ER x4 g := fun g => by
    show (V12 m ρ c main_v52 : FVec Ideal S8192x768 .bf16) g = _
    rw [E_eq m ρ c, hx]; rfl
  have hM : Cert.Proof.AlgK.maskK m c P Q = Cert.Proof.AlgR.maskR b l P Q := by
    unfold Cert.Proof.AlgK.maskK Cert.Proof.AlgR.maskR Cert.Proof.AlgK.bw Cert.Proof.AlgK.lw
    rw [hb, hl]
    exact (LibMask.mask_sym _ _ _ _).symm
  unfold Cert.Proof.AlgK.fK
  rw [hM]
  simp only [hE]

end Cert.Proof.AlgE

end
-- ==== Proof.AlgCK.lean ====
/-
  The kernel program's pair count at the ideal instance: the host's read of result array 1 is the number of pairs the mask
  keeps, as an extended real.
-/
import proofs.«159163_j3478923509848_2_alg».proof.Defs
import proofs.«159163_j3478923509848_2_alg».proof.Proof.AlgK
import Idealize.ShloMosaic.Lib.KernelVsHost

set_option maxRecDepth 65536

noncomputable section

namespace Cert.Proof.AlgK

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ) (ρ : Dev nD → PrngReg)

/-- Whether the mask keeps the pair, as a number. -/
def nK (c : Dev nD) (P Q : Fin 8192) : ℕ := (maskK m c P Q).toNat

theorem g_eq (x : BitVec 1) : FloatOps.sitofp (F := Ideal) .f32 (x.setWidth 32) = (((x.toNat : ℕ) : ℝ) : EReal) := by
  show ((((x.setWidth 32).toInt : ℤ) : ℝ) : EReal) = _
  rw [toInt_setWidth_bit]
  norm_cast

set_option maxHeartbeats 4000000 in
theorem bc_eq (c : Dev nD) (a j : Fin 8) :
    bc (V12 m ρ) c (8 * a.val + j.val) = ∑ p : Fin 1024, ∑ q : Fin 1024, (((nK m c (B a p) (B j q) : ℕ) : ℝ) : EReal) := by
  have hN : cfg0.N = 64 := N_0
  have ht : 8 * a.val + j.val < cfg0.N := by omega
  have hd : (8 * a.val + j.val) / 8 = a.val := by omega
  have hm : (8 * a.val + j.val) % 8 = j.val := by omega
  unfold bc; rw [dif_pos ht]
  refine Finset.sum_congr rfl fun p _ => ?_
  show k0_pay9 _ _ _ _ (ValueIdx.ix1 p) = _
  rw [pay9_apply]
  refine Finset.sum_congr rfl fun q _ => ?_
  have e2 : (iblk (V12 m ρ) c 2 ⟨_, ht⟩ : S1024x1.Idx → BitVec 32) (ValueIdx.ix2 p (0 : Fin 1)) = bw m c (B a p) :=
    (iblk2_apply (V12 m ρ) c ⟨_, ht⟩ p 0 (ValueIdx.ix2 (B a p) (0 : Fin 1)) (by show 1024 * a.val + p.val = 1024 * ((8 * a.val + j.val) / 8) + p.val; rw [hd]) rfl).trans (v53_apply m ρ c (B a p))
  have e3 : (iblk (V12 m ρ) c 3 ⟨_, ht⟩ : S1024x1.Idx → BitVec 32) (ValueIdx.ix2 p (0 : Fin 1)) = lw m c (B a p) :=
    (iblk3_apply (V12 m ρ) c ⟨_, ht⟩ p 0 (ValueIdx.ix2 (B a p) (0 : Fin 1)) (by show 1024 * a.val + p.val = 1024 * ((8 * a.val + j.val) / 8) + p.val; rw [hd]) rfl).trans (v54_apply m ρ c (B a p))
  have e4 : (iblk (V12 m ρ) c 4 ⟨_, ht⟩ : S1x1024.Idx → BitVec 32) (ValueIdx.ix2 (0 : Fin 1) q) = bw m c (B j q) :=
    (iblk4_apply (V12 m ρ) c ⟨_, ht⟩ 0 q (ValueIdx.ix2 (0 : Fin 1) (B j q)) rfl (by show 1024 * j.val + q.val = 1024 * ((8 * a.val + j.val) % 8) + q.val; rw [hm])).trans (v55_apply m ρ c (B j q))
  have e5 : (iblk (V12 m ρ) c 5 ⟨_, ht⟩ : S1x1024.Idx → BitVec 32) (ValueIdx.ix2 (0 : Fin 1) q) = lw m c (B j q) :=
    (iblk5_apply (V12 m ρ) c ⟨_, ht⟩ 0 q (ValueIdx.ix2 (0 : Fin 1) (B j q)) rfl (by show 1024 * j.val + q.val = 1024 * ((8 * a.val + j.val) % 8) + q.val; rw [hm])).trans (v56_apply m ρ c (B j q))
  rw [pay7_apply, e2, e3, e4, e5]
  exact g_eq _

set_option maxHeartbeats 4000000 in
theorem cntK_apply (c : Dev nD) (OUT : S8x8x128.Idx → EReal) (hOUT : OUT = (W13 m ρ c (Proc.devRef .tc main_v57_1) : S8x8x128.Idx → EReal)) (j : S_.Idx) :
    Host.reduceAdd (F := Ideal)
      (fun i => shapeCast S8 (extractStridedSlice S8x1x1 ![0, 0, 0] OUT slices_S8x8x128_S8x1x1_0_0_0) shapeCasts_S8x1x1_S8 i)
      (constant (F := Ideal) S_ FTy.f32 0#32) reducesTo_S8_S_d0 h_S_ j
      = 0 + ∑ P : Fin 8192, ∑ Q : Fin 8192, (((nK m c P Q : ℕ) : ℝ) : EReal) := by
  have hN : cfg0.N = 64 := N_0
  have hO : ∀ a : Fin 8, OUT (ValueIdx.ix3 a (0 : Fin 8) (0 : Fin 128)) = ∑ jj : Fin 8, bc (V12 m ρ) c (8 * a.val + jj.val) := by
    intro a
    rw [hOUT, W13_out1, final7, G7_apply, acc2_last]
  refine (rows_sum OUT _ hO j).trans ?_
  refine congrArg (fun x : EReal => (0 : EReal) + x) ?_
  rw [← LibPairSum.grid_total (fun P Q => (((nK m c P Q : ℕ) : ℝ) : EReal)) B (fun a p => rfl)]
  exact Finset.sum_congr rfl fun a _ => Finset.sum_congr rfl fun jj _ => bc_eq m ρ c a jj

end Cert.Proof.AlgK

end
-- ==== Proof.LibCount.lean ====
/-
  Counting set bits with 32-bit words: the wrapping sum of one-bit words widened to 32 bits is the number of set bits as a
  word; below 2^31 that word read signed is the number, and its signed maximum with 1 is the number's maximum with 1.
-/
import Mathlib.Algebra.BigOperators.Fin
import Mathlib.Data.BitVec

namespace LibCount

open Finset

/-- The wrapping sum of widened bits is the count, as a word. -/
theorem fold_add_setWidth {ι : Type*} [DecidableEq ι] (f : BitVec 32 → BitVec 32 → BitVec 32) [Std.Commutative f] [Std.Associative f]
    (hf : ∀ x y, f x y = x + y) (S : Finset ι) (g : ι → BitVec 1) :
    S.fold f (0#32) (fun i => (g i).setWidth 32) = BitVec.ofNat 32 (∑ i ∈ S, (g i).toNat) := by
  induction S using Finset.induction_on with
  | empty => simp
  | insert a S ha ih =>
    rw [Finset.fold_insert ha, Finset.sum_insert ha, ih, hf]
    apply BitVec.eq_of_toNat_eq
    simp [BitVec.toNat_add, BitVec.toNat_setWidth, BitVec.toNat_ofNat]

/-- A number below 2^31, as a word read signed, is itself. -/
theorem toInt_ofNat_small (N : ℕ) (h : N < 2 ^ 31) : (BitVec.ofNat 32 N).toInt = N := by
  rw [BitVec.toInt_eq_toNat_cond, BitVec.toNat_ofNat]
  have h2 : N % 2 ^ 32 = N := Nat.mod_eq_of_lt (by omega)
  rw [h2]
  split <;> omega

end LibCount
-- ==== Proof.AlgCR.lean ====
/-
  The reference's pair count at the ideal instance: the int32 sum of the mask bits is their number (at most 2^26), so its
  signed maximum with 1, converted, is the real number max(count, 1).
-/
import proofs.«159163_j3478923509848_2_alg».proof.Defs
import proofs.«159163_j3478923509848_2_alg».proof.Proof.AlgR
import proofs.«159163_j3478923509848_2_alg».proof.Proof.LibCount
import Idealize.ShloMosaic.Lib.KernelVsHost

set_option maxRecDepth 65536

noncomputable section

namespace Cert.Proof.AlgR

open Idealize.ShloMosaic Idealize.ShloMosaic.TcCoe Idealize.SL.Sem
open Cert.ReferenceIdeal Cert.ReferenceIdeal.Gen

variable (b l : IVec S8192 32)

/-- The number of pairs the mask keeps. -/
def cnt : ℕ := ∑ P : Fin 8192, ∑ Q : Fin 8192, (maskR b l P Q).toNat

theorem cnt_lt : cnt b l < 2 ^ 31 := by
  have h : cnt b l ≤ ∑ P : Fin 8192, ∑ Q : Fin 8192, 1 :=
    Finset.sum_le_sum fun P _ => Finset.sum_le_sum fun Q _ => by have := (maskR b l P Q).isLt; omega
  simp at h
  omega

/-- The wrapping sum of a widened bit vector from a zero word is the number of its set bits. -/
theorem fold_extui {s : Shape} (S : Finset s.Idx) (X : IVec s 1) (h : 1 < 32) (init : BitVec 32) (hi : init = 0#32) :
    S.fold IntOp.addi init (extui 32 X h) = BitVec.ofNat 32 (∑ i ∈ S, (X i).toNat) := by
  subst hi
  exact LibCount.fold_add_setWidth IntOp.addi (fun _ _ => rfl) S X

set_option maxHeartbeats 4000000 in
/-- The int32 sum of the mask bits is their number, as a word. -/
theorem red_apply (j : S_.Idx) :
    Host.reduce IntOp.addi (extui 32 (andi (cmpi CmpIPredicate.ne (broadcastInDim S8192x8192 ![0, 1] bcast_S1x8192_S8192x8192_0_1 (broadcastInDim S1x8192 ![1] bcast_S8192_S1x8192_1 l)) (broadcastInDim S8192x8192 ![0, 1] bcast_S8192x1_S8192x8192_0_1 (broadcastInDim S8192x1 ![0] bcast_S8192_S8192x1_0 l))) (cmpi CmpIPredicate.eq (broadcastInDim S8192x8192 ![0, 1] bcast_S1x8192_S8192x8192_0_1 (broadcastInDim S1x8192 ![1] bcast_S8192_S1x8192_1 b)) (broadcastInDim S8192x8192 ![0, 1] bcast_S8192x1_S8192x8192_0_1 (broadcastInDim S8192x1 ![0] bcast_S8192_S8192x1_0 b)))) natLt_1_32) (constantI S_ 32 0#32) reducesTo_S8192x8192_S_d0_1 h_S_ j
      = BitVec.ofNat 32 (cnt b l) := by
  rw [Host.reduce_eq_fold]
  rw [Finset.filter_true_of_mem fun i _ => funext fun bb => bb.elim0]
  refine (fold_extui _ _ _ _ rfl).trans ?_
  rw [ValueIdx.sum_idx2]
  unfold cnt
  refine congrArg (BitVec.ofNat 32) ?_
  refine Finset.sum_congr rfl fun P _ => Finset.sum_congr rfl fun Q _ => ?_
  refine congrArg BitVec.toNat ?_
  show (IntOp.andi (IntOp.cmpi .ne (broadcastInDim S8192x8192 ![0, 1] bcast_S1x8192_S8192x8192_0_1 (broadcastInDim S1x8192 ![1] bcast_S8192_S1x8192_1 l) (ValueIdx.ix2 P Q))
        (broadcastInDim S8192x8192 ![0, 1] bcast_S8192x1_S8192x8192_0_1 (broadcastInDim S8192x1 ![0] bcast_S8192_S8192x1_0 l) (ValueIdx.ix2 P Q)))
      (IntOp.cmpi .eq (broadcastInDim S8192x8192 ![0, 1] bcast_S1x8192_S8192x8192_0_1 (broadcastInDim S1x8192 ![1] bcast_S8192_S1x8192_1 b) (ValueIdx.ix2 P Q))
        (broadcastInDim S8192x8192 ![0, 1] bcast_S8192x1_S8192x8192_0_1 (broadcastInDim S8192x1 ![0] bcast_S8192_S8192x1_0 b) (ValueIdx.ix2 P Q)))) = _
  rw [bc_row, bc_col, bc_row, bc_col]
  rfl

end Cert.Proof.AlgR

end
-- ==== Proof.LibCountMax.lean ====
/-
  The count's last step: for a count N below 2^31, the real number max(N, 1) is both the kernel's max(float count, 1.0)
  and the reference's float(max(int count, 1)).
-/
import proofs.«159163_j3478923509848_2_alg».proof.Proof.LibCount
import Idealize.ShloMosaic.PureOps.Float
import Mathlib.Data.EReal.Basic

namespace LibCount

open Idealize.ShloMosaic

theorem maxsi_toInt (N : ℕ) (h : N < 2 ^ 31) : (IntOp.maxsi (BitVec.ofNat 32 N) 1#32).toInt = max (N : ℤ) 1 := by
  have ht := toInt_ofNat_small N h
  have h1 : (1#32 : BitVec 32).toInt = 1 := by decide
  unfold IntOp.maxsi
  by_cases hN : 1 < N
  · have hs : (1#32 : BitVec 32).slt (BitVec.ofNat 32 N) = true := by
      rw [BitVec.slt, h1, ht]; exact decide_eq_true (by exact_mod_cast hN)
    rw [if_pos hs, ht]; omega
  · have hs : ¬ (1#32 : BitVec 32).slt (BitVec.ofNat 32 N) = true := by
      rw [BitVec.slt, h1, ht]; simp; omega
    rw [if_neg hs, h1]; omega

theorem coe_sum {ι : Type*} [DecidableEq ι] (S : Finset ι) (f : ι → ℕ) :
    ∑ i ∈ S, (((f i : ℕ) : ℝ) : EReal) = ((((∑ i ∈ S, f i : ℕ)) : ℝ) : EReal) := by
  induction S using Finset.induction_on with
  | empty => simp
  | insert a S ha ih => rw [Finset.sum_insert ha, Finset.sum_insert ha, ih]; push_cast; rfl

theorem den_eq (N : ℕ) (h : N < 2 ^ 31) :
    max (0 + (((N : ℕ) : ℝ) : EReal)) 1 = ((((IntOp.maxsi (BitVec.ofNat 32 N) 1#32).toInt : ℤ) : ℝ) : EReal) := by
  rw [maxsi_toInt N h, zero_add]
  by_cases hN : 1 ≤ N
  · rw [max_eq_left (by exact_mod_cast hN), max_eq_left (by exact_mod_cast hN)]; norm_cast
  · have h0 : N = 0 := by omega
    subst h0; simp

end LibCount
-- ==== Proof.AlgF.lean ====
/-
  The repulsion summand of the two programs agrees: numerator against numerator, and the kernel's max(float pair count, 1)
  against the reference's float(max(int pair count, 1)).
-/
import proofs.«159163_j3478923509848_2_alg».proof.Defs
import proofs.«159163_j3478923509848_2_alg».proof.Proof.AlgN
import proofs.«159163_j3478923509848_2_alg».proof.Proof.AlgCK
import proofs.«159163_j3478923509848_2_alg».proof.Proof.AlgCR
import proofs.«159163_j3478923509848_2_alg».proof.Proof.LibCountMax
import Idealize.ShloMosaic.Lib.IdealHost

set_option maxRecDepth 65536

noncomputable section

namespace Cert.Proof.AlgF

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ) (ρ : Dev nD → PrngReg)

/-- The two pair counts are one number. -/
theorem cnt_eq (c : Dev nD) (b l : IVec Cert.ReferenceIdeal.S8192 32)
    (hb : b = m ((c.tc : Thread nD τ).loc main_arg2)) (hl : l = m ((c.tc : Thread nD τ).loc main_arg3)) :
    (∑ P : Fin 8192, ∑ Q : Fin 8192, (((Cert.Proof.AlgK.nK m c P Q : ℕ) : ℝ) : EReal)) = (((Cert.Proof.AlgR.cnt b l : ℕ) : ℝ) : EReal) := by
  have h1 : ∀ P : Fin 8192, (∑ Q : Fin 8192, (((Cert.Proof.AlgK.nK m c P Q : ℕ) : ℝ) : EReal)) = (((∑ Q : Fin 8192, Cert.Proof.AlgK.nK m c P Q : ℕ) : ℝ) : EReal) :=
    fun P => LibCount.coe_sum Finset.univ _
  rw [Finset.sum_congr rfl fun P _ => h1 P, LibCount.coe_sum Finset.univ _]
  refine congrArg (fun n : ℕ => ((n : ℝ) : EReal)) ?_
  unfold Cert.Proof.AlgR.cnt
  refine Finset.sum_congr rfl fun P _ => Finset.sum_congr rfl fun Q _ => ?_
  unfold Cert.Proof.AlgK.nK Cert.Proof.AlgK.maskK Cert.Proof.AlgR.maskR Cert.Proof.AlgK.bw Cert.Proof.AlgK.lw
  rw [hb, hl]
  exact congrArg BitVec.toNat (LibMask.mask_sym _ _ _ _).symm

/-- The denominators agree at the one index. -/
theorem den_all (CK ONE : FVec Ideal S_ .f32) (RED ONEi : IVec S_ 32) (j : S_.Idx) (N : ℕ) (hN : N < 2 ^ 31)
    (hCK : CK j = 0 + (((N : ℕ) : ℝ) : EReal)) (hONE : ONE j = 1) (hRED : RED j = BitVec.ofNat 32 N) (hONEi : ONEi j = 1#32) :
    maximumf CK ONE j = (sitofp (F := Ideal) .f32 (maxsi RED ONEi) : FVec Ideal S_ .f32) j := by
  show max (CK j) (ONE j) = ((((IntOp.maxsi (RED j) (ONEi j)).toInt : ℤ) : ℝ) : EReal)
  rw [hCK, hONE, hRED, hONEi]
  exact LibCount.den_eq N hN

end Cert.Proof.AlgF

end
-- ==== Proof.Alg.lean ====
/-
  The two programs' results as composed terms of the arguments, compared. The kernel program's result is read off the
  fold of its host stretches around the region (the region's two result arrays left as they are); the reference's is its
  run's composed term. Their supervised-contrastive and cross-entropy summands are the same term; what is left is the
  repulsion summand: the kernel's sum of the eight rows' entries of its two result arrays against the reference's masked
  sum and pair count over all 8192 x 8192 pairs.
-/
import proofs.«159163_j3478923509848_2_alg».proof.Defs
import proofs.«159163_j3478923509848_2_alg».proof.Proof.KI.Frame2
import proofs.«159163_j3478923509848_2_alg».proof.Proof.RefRun
import proofs.«159163_j3478923509848_2_alg».proof.Proof.AlgF

set_option maxRecDepth 65536

noncomputable section

namespace Cert.Proof.Alg

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ) (ρ : Dev nD → PrngReg)

/-- A buffer the region does not write holds after it what the host stretches before it left. -/
theorem W13_pre (c : Dev nD) (b : Ref sig .tc) (h0 : b ≠ main_v57_0) (h1 : b ≠ main_v57_1) :
    W13 m ρ c (Proc.devRef .tc b) = (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))))))) (Proc.devRef .tc b) := W13_of_ne m ρ c b h0 h1

set_option maxHeartbeats 64000000 in
theorem key (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    W16 m ρ c (Proc.devRef .tc main_v97) = Cert.ReferenceIdeal.ValueP.res_main_v106 (F := Ideal) m' c := by
  show StableHlo.after hostOps1_2 (StableHlo.after hostOps1_1 (StableHlo.after hostOps1 (W13 m ρ c))) (Proc.devRef .tc main_v97) = _
  simp only [hostOps1_2, hostOps1_1, hostOps1]
  after_results_simp
  (try simp only [TRef.ofBuf, TRef.toBuf, cast_eq])
  rw [W13_pre m ρ c main_v46 (by decide) (by decide), W13_pre m ρ c main_v17 (by decide) (by decide), W13_pre m ρ c main_v18 (by decide) (by decide),
    W13_pre m ρ c main_arg5 (by decide) (by decide), W13_pre m ρ c main_arg6 (by decide) (by decide)]
  simp only [hostOps0, hostOps0_1, hostOps0_2, hostOps0_3, hostOps0_4, hostOps0_5, hostOps0_6, hostOps0_7, hostOps0_8, hostOps0_9, hostOps0_10, hostOps0_11]
  after_results_simp
  (try simp only [TRef.ofBuf, TRef.toBuf, cast_eq])
  unfold Cert.ReferenceIdeal.ValueP.res_main_v106
  rw [h0, h1, h2, h3, h4, h5, h6]
  refine congrArg₂ addf (congrArg₂ addf ?A (congrArg (mulf _) ?REP)) ?B
  case A => rfl
  case B => rfl
  case REP =>
    refine congrArg₂ (Host.divf (F := Ideal)) (funext fun j => ?_) (funext fun j => ?_)
    · exact Cert.Proof.AlgE.num_eq m ρ c _ rfl j _ _ _ rfl rfl rfl _ (Cert.Proof.AlgR.numR_apply _ _ _ j)
    · refine Cert.Proof.AlgF.den_all _ _ _ _ j (Cert.Proof.AlgR.cnt (m ((c.tc : Thread nD τ).loc main_arg2)) (m ((c.tc : Thread nD τ).loc main_arg3))) (Cert.Proof.AlgR.cnt_lt _ _) ?_ ?_ (Cert.Proof.AlgR.red_apply _ _ j) rfl
      · refine (Cert.Proof.AlgK.cntK_apply m ρ c _ rfl j).trans ?_
        rw [Cert.Proof.AlgF.cnt_eq m c _ _ rfl rfl]
      · exact Ideal.ofBits_one_f32

end Cert.Proof.Alg

end
-- ==== Proof.lean ====
/-
  The certificate of the pairwise label-repulsion loss kernel against its jnp reference.

  The program computes three loss terms and adds them. Two of them (the supervised-contrastive term and the binary
  cross-entropy term) are the same host arithmetic in both programs. The third, the repulsion term, is the sum over all
  pairs (p, q) of 8192 normalised embeddings of max(<e_p, e_q> - 0.3, 0) over the pairs in one batch row with different
  labels, divided by the number of such pairs (at least 1). The kernel computes it on an 8 x 8 grid of 1024 x 1024 blocks:
  at the point (i, j) it adds the block's masked sum and the block's pair count to two accumulators, reset at j = 0 and
  copied into row i of the two results at j = 7; the host then adds the eight rows' entries.

  The three frames: each program runs to the end, faults nowhere and leaves its seven arguments unchanged. The kernel
  programs' frames are the run of their segments (twelve stretches of host operations, the region, three more stretches);
  the reference is a straight line of host operations.
-/
import proofs.«159163_j3478923509848_2_alg».proof.Defs
import proofs.«159163_j3478923509848_2_alg».proof.Proof.K.Frame2
import proofs.«159163_j3478923509848_2_alg».proof.Proof.KI.Frame2
import proofs.«159163_j3478923509848_2_alg».proof.Proof.RefFrame
import proofs.«159163_j3478923509848_2_alg».proof.Proof.Alg
import proofs.«159163_j3478923509848_2_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ
theorem frame_ki : Cert.frame_KernelIdeal (hKernelIdeal := Cert.KernelIdeal.Gen.facts) (hPre_finite_inputs := Cert.Pre_finite_inputs.Gen.facts) :=
  fun m ρ _ => Cert.KernelIdeal.Hand.frame m ρ
theorem frame_ri : Cert.frame_ReferenceIdeal (hReferenceIdeal := Cert.ReferenceIdeal.Gen.facts) (hPre_finite_inputs := Cert.Pre_finite_inputs.Gen.facts) :=
  fun m ρ _ => Cert.ReferenceIdeal.Hand.frame m ρ

/-- At the ideal instance both programs run to the same result: the kernel program's is the fold of its host stretches, the
    reference's its run's composed term, compared in `Alg.key`. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.W16 m ρ c (Proc.devRef .tc Cert.KernelIdeal.main_v97), ?_, ?_⟩
  · exact (θ_run Cert.KernelIdeal.defs _ _).mono (fun r h c => ⟨h c _ (Cert.KernelIdeal.Hand.mem_uc Cert.KernelIdeal.main_v97 (by decide)),
      (h c _ (Cert.KernelIdeal.Hand.mem_uc Cert.KernelIdeal.main_arg0 (by decide))).trans (Cert.KernelIdeal.Hand.W16_arg m ρ c Cert.KernelIdeal.main_arg0 (by decide)),
      (h c _ (Cert.KernelIdeal.Hand.mem_uc Cert.KernelIdeal.main_arg1 (by decide))).trans (Cert.KernelIdeal.Hand.W16_arg m ρ c Cert.KernelIdeal.main_arg1 (by decide)),
      (h c _ (Cert.KernelIdeal.Hand.mem_uc Cert.KernelIdeal.main_arg2 (by decide))).trans (Cert.KernelIdeal.Hand.W16_arg m ρ c Cert.KernelIdeal.main_arg2 (by decide)),
      (h c _ (Cert.KernelIdeal.Hand.mem_uc Cert.KernelIdeal.main_arg3 (by decide))).trans (Cert.KernelIdeal.Hand.W16_arg m ρ c Cert.KernelIdeal.main_arg3 (by decide)),
      (h c _ (Cert.KernelIdeal.Hand.mem_uc Cert.KernelIdeal.main_arg4 (by decide))).trans (Cert.KernelIdeal.Hand.W16_arg m ρ c Cert.KernelIdeal.main_arg4 (by decide)),
      (h c _ (Cert.KernelIdeal.Hand.mem_uc Cert.KernelIdeal.main_arg5 (by decide))).trans (Cert.KernelIdeal.Hand.W16_arg m ρ c Cert.KernelIdeal.main_arg5 (by decide)),
      (h c _ (Cert.KernelIdeal.Hand.mem_uc Cert.KernelIdeal.main_arg6 (by decide))).trans (Cert.KernelIdeal.Hand.W16_arg m ρ c Cert.KernelIdeal.main_arg6 (by decide))⟩)
      (Cert.KernelIdeal.Hand.run_all m ρ)
  · refine (θ_run Cert.ReferenceIdeal.defs _ _).mono (fun _ h c => ⟨(h c).1.trans ?_, (h c).2⟩) (Cert.ReferenceIdeal.ValueP.run (F := Ideal) m' ρ')
    obtain ⟨h0, h1, h2, h3, h4, h5, h6⟩ := hagree c
    exact (Cert.Proof.Alg.key m ρ m' c h0 h1 h2 h3 h4 h5 h6).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
